-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000x128 : Shape := ⟨2, ![1000, 128]⟩
abbrev S1000 : Shape := ⟨1, ![1000]⟩
abbrev S_ : Shape := ⟨0, ![]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S1000 : S_.BroadcastsInDim S1000 (![] : Fin 0 → Fin S1000.rank)
  reducesTo_S1000_S_d0 : S1000.ReducesTo [0] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg0 : IVec S16384 32) (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  let main_c_6 : IVec S_ 32 := constantI S_ 32 1000#32
  let main_v18 : IVec S16384 32 := broadcastInDim S16384 ![] bcast_S_S16384 main_c_6
  let main_v19 : IVec S16384 1 := cmpi .slt main_arg0 main_v18
  let main_c_7 : IVec S_ 1 := constantI S_ 1 1#1
  let main_v20 : IVec S_ 1 := (fun x v => Host.reduce IntOp.andi x v reducesTo_S16384_S_d0 h_S_) main_v19 main_c_7
  let main_v21 : IVec S_ 1 := andi main_v17 main_v20
  main_v21

def fn {F : FTy → Type} [FloatOps F] (main_arg0 : IVec S16384 32) (main_arg1 : FVec F S1000x128 .f32) (main_arg2 : FVec F S1000x128 .f32) (main_arg3 : FVec F S1000 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S16384 32 := broadcastInDim S16384 ![] bcast_S_S16384 main_c_4
  let main_v15 : IVec S16384 1 := cmpi .sge main_arg0 main_v14
  let main_c_5 : IVec S_ 1 := constantI S_ 1 1#1
  fn_part1 (F := F) main_arg0 main_v13 main_v15 main_c_5
-- ==== Kernel.lean ====
abbrev S16384 : Shape := ⟨1, ![16384]⟩
abbrev S1000x128 : Shape := ⟨2, ![1000, 128]⟩
abbrev S1000 : Shape := ⟨1, ![1000]⟩
abbrev S64x256 : Shape := ⟨2, ![64, 256]⟩
abbrev S16128 : Shape := ⟨1, ![16128]⟩
abbrev S_ : Shape := ⟨0, ![]⟩
abbrev S256 : Shape := ⟨1, ![256]⟩
abbrev S64x8 : Shape := ⟨2, ![64, 8]⟩
abbrev S64x264 : Shape := ⟨2, ![64, 264]⟩
abbrev S64x264x1 : Shape := ⟨3, ![64, 264, 1]⟩
abbrev S1000x1 : Shape := ⟨2, ![1000, 1]⟩
abbrev S1000x7 : Shape := ⟨2, ![1000, 7]⟩
abbrev S1000x136 : Shape := ⟨2, ![1000, 136]⟩
abbrev S1000x16382 : Shape := ⟨2, ![1000, 16382]⟩
abbrev S1x16382 : Shape := ⟨2, ![1, 16382]⟩
abbrev S1x264x1 : Shape := ⟨3, ![1, 264, 1]⟩
abbrev S1000x256 : Shape := ⟨2, ![1000, 256]⟩
abbrev S1x256 : Shape := ⟨2, ![1, 256]⟩
abbrev S264x1 : Shape := ⟨2, ![264, 1]⟩
abbrev S264x1000 : Shape := ⟨2, ![264, 1000]⟩
abbrev S264x128 : Shape := ⟨2, ![264, 128]⟩
abbrev S256x128 : Shape := ⟨2, ![256, 128]⟩
abbrev S256x1000 : Shape := ⟨2, ![256, 1000]⟩
abbrev S256x136 : Shape := ⟨2, ![256, 136]⟩
abbrev S256x1 : Shape := ⟨2, ![256, 1]⟩
abbrev S16382 : Shape := ⟨1, ![16382]⟩
abbrev S16382x1000 : Shape := ⟨2, ![16382, 1000]⟩

abbrev nBuf : Space → Nat
  | .hbm => 29
  | .vmem => 10
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S1000x128, .f32⟩
  | .hbm, ⟨3, _⟩ => ⟨S1000, .f32⟩
  | .hbm, ⟨4, _⟩ => ⟨S64x256, .i32⟩
  | .hbm, ⟨5, _⟩ => ⟨S16128, .i32⟩
  | .hbm, ⟨6, _⟩ => ⟨S_, .i32⟩
  | .hbm, ⟨7, _⟩ => ⟨S256, .i32⟩
  | .hbm, ⟨8, _⟩ => ⟨S16384, .i32⟩
  | .hbm, ⟨9, _⟩ => ⟨S64x256, .i32⟩
  | .hbm, ⟨10, _⟩ => ⟨S64x8, .i32⟩
  | .hbm, ⟨11, _⟩ => ⟨S64x264, .i32⟩
  | .hbm, ⟨12, _⟩ => ⟨S64x264x1, .i32⟩
  | .hbm, ⟨13, _⟩ => ⟨S1000x128, .bf16⟩
  | .hbm, ⟨14, _⟩ => ⟨S1000x128, .bf16⟩
  | .hbm, ⟨15, _⟩ => ⟨S1000x1, .f32⟩
  | .hbm, ⟨16, _⟩ => ⟨S1000x1, .bf16⟩
  | .hbm, ⟨17, _⟩ => ⟨S_, .bf16⟩
  | .hbm, ⟨18, _⟩ => ⟨S1000x7, .bf16⟩
  | .hbm, ⟨19, _⟩ => ⟨S1000x136, .bf16⟩
  | .hbm, ⟨20, _⟩ => ⟨S1000x16382, .f32⟩
  | .hbm, ⟨21, _⟩ => ⟨S1x16382, .f32⟩
  | .hbm, ⟨22, _⟩ => ⟨S16382, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16382, .i32⟩
  | .hbm, ⟨28, _⟩ => ⟨S16382x1000, .f32⟩
  | .local _ .vmem, ⟨0, _⟩ => ⟨S1x264x1, .i32⟩
  | .local _ .vmem, ⟨1, _⟩ => ⟨S1x264x1, .i32⟩
  | .local _ .vmem, ⟨2, _⟩ => ⟨S1000x128, .bf16⟩
  | .local _ .vmem, ⟨3, _⟩ => ⟨S1000x128, .bf16⟩
  | .local _ .vmem, ⟨4, _⟩ => ⟨S1000x136, .bf16⟩
  | .local _ .vmem, ⟨5, _⟩ => ⟨S1000x1, .f32⟩
  | .local _ .vmem, ⟨6, _⟩ => ⟨S1000x256, .f32⟩
  | .local _ .vmem, ⟨7, _⟩ => ⟨S1000x256, .f32⟩
  | .local _ .vmem, ⟨8, _⟩ => ⟨S1x256, .f32⟩
  | .local _ .vmem, ⟨9, _⟩ => ⟨S1x256, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x264x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1000x136 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1000x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16384_S64x256 : S16384.ShapeCasts S64x256
  slices_S16384_S16128_256 : S16384.Slices ![256] S16128
  bcast_S_S256 : S_.BroadcastsInDim S256 (![] : Fin 0 → Fin S256.rank)
  concatenates_S16128_S256_S16384_d0 : Shape.Concatenates [S16128, S256] S16384 0
  slices_S64x256_S64x8_0_0 : S64x256.Slices ![0, 0] S64x8
  concatenates_S64x256_S64x8_S64x264_d1 : Shape.Concatenates [S64x256, S64x8] S64x264 1
  shapeCasts_S64x264_S64x264x1 : S64x264.ShapeCasts S64x264x1
  bitsLt_bf16_f32 : FTy.bits .bf16 < FTy.bits .f32
  shapeCasts_S1000_S1000x1 : S1000.ShapeCasts S1000x1
  bcast_S_S1000x7 : S_.BroadcastsInDim S1000x7 (![] : Fin 0 → Fin S1000x7.rank)
  concatenates_S1000x128_S1000x1_S1000x7_S1000x136_d1 : Shape.Concatenates [S1000x128, S1000x1, S1000x7] S1000x136 1
  inb_S1x264x1_S1x264x1_0_0_0 : ∀ a, (![0, 0, 0] : Fin 3 → Nat) a + S1x264x1.size a ≤ S1x264x1.size a
  h_S1x264x1 : 0 < S1x264x1.numel
  shapeCasts_S1x264x1_S264x1 : S1x264x1.ShapeCasts S264x1
  iota_S264x1000_d1_w32 : S264x1000.Iotas .tc 32 [1]
  broadcasts_S264x1_S264x1000 : S264x1.Broadcasts S264x1000
  natLt_1_32 : 1 < 32
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  slices_S264x128_o0_0_S256x128 : S264x128.Slices ![0, 0] S256x128
  slices_S264x128_o2_0_S256x128 : S264x128.Slices ![2, 0] S256x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  reduces_S1000x256_S256 : S1000x256.Reduces [0] S256
  shapeCasts_S256_S1x256 : S256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  slices_S264x1000_o1_0_S256x1000 : S264x1000.Slices ![1, 0] S256x1000
  inb_S1000x136_S1000x136_0_0 : ∀ a, (![0, 0] : Fin 2 → Nat) a + S1000x136.size a ≤ S1000x136.size a
  h_S1000x136 : 0 < S1000x136.numel
  shapeCasts_S1000x136_S1000x136 : S1000x136.ShapeCasts S1000x136
  slices_S256x136_o0_0_S256x128 : S256x136.Slices ![0, 0] S256x128
  reduces_S256x128_S256 : S256x128.Reduces [1] S256
  shapeCasts_S256_S256x1 : S256.ShapeCasts S256x1
  slices_S256x136_o0_128_S256x1 : S256x136.Slices ![0, 128] S256x1
  shapeCasts_S256x1_S1x256 : S256x1.ShapeCasts S1x256
  inb_S1x256_S1x256_0_0 : ∀ a, (![0, 0] : Fin 2 → Nat) a + S1x256.size a ≤ S1x256.size a
  h_S1x256 : 0 < S1x256.numel
  shapeCasts_S1x16382_S16382 : S1x16382.ShapeCasts S16382
  reducesTo_S16382_S_d0 : S16382.ReducesTo [0] S_
  h_S_ : 0 < S_.numel
  slices_S16384_S16382_1 : S16384.Slices ![1] S16382
  transposes_S1000x16382_S16382x1000_1_0 : S1000x16382.Transposes [1, 0] S16382x1000
  dot_S264x1000_S1000x128_S264x128_1_0_0_1_n_n_wf : DotDims.WF S264x1000 S1000x128 S264x128 [1] [0] [0] [1] [] []
  dot_S1000x128_S256x128_S1000x256_1_1_0_0_n_n_wf : DotDims.WF S1000x128 S256x128 S1000x256 [1] [1] [0] [0] [] []
  dot_S256x1000_S1000x136_S256x136_1_0_0_1_n_n_wf : DotDims.WF S256x1000 S1000x136 S256x136 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x264x1.size a ≤ S64x264x1.size a
  hwx0_0 : ∀ i : grid0.Coords, EltTy.bits .i32 = 32 ∨ (Rect.block (s := S64x264x1) S1x264x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S1000x128.size a
  hwx0_1 : ∀ i : grid0.Coords, EltTy.bits .bf16 = 32 ∨ (Rect.block (s := S1000x128) S1000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S1000x128.size a
  hwx0_2 : ∀ i : grid0.Coords, EltTy.bits .bf16 = 32 ∨ (Rect.block (s := S1000x128) S1000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x136.size a ≤ S1000x136.size a
  hwx0_3 : ∀ i : grid0.Coords, EltTy.bits .bf16 = 32 ∨ (Rect.block (s := S1000x136) S1000x136.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1000x1.size a ≤ S1000x1.size a
  hwx0_4 : ∀ i : grid0.Coords, EltTy.bits .f32 = 32 ∨ (Rect.block (s := S1000x1) S1000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1000x256.size a < S1000x16382.size a
  hwx0_5 : ∀ i : grid0.Coords, EltTy.bits .f32 = 32 ∨ (Rect.unit (s := S1000x16382) (fun a => cc0_transform_5 i a * S1000x256.size a) (fun a => (Pipeline.Clip.of (cc0_transform_5 i a) (S1000x256.size a) (S1000x16382.size a)).extent (S1000x256.size a)) fun a => Pipeline.Clip.inb (Pipeline.Clip.ok_of (hstart0_5 i a))).WholeWords (EltTy.packing .f32)
  hwxs0_5 : ∀ i : grid0.Coords, EltTy.bits .f32 = 32 ∨ (Rect.unit (s := S1000x256) (fun _ => 0) (fun a => (Pipeline.Clip.of (cc0_transform_5 i a) (S1000x256.size a) (S1000x16382.size a)).extent (S1000x256.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x256.size a < S1x16382.size a
  hwx0_6 : ∀ i : grid0.Coords, EltTy.bits .f32 = 32 ∨ (Rect.unit (s := S1x16382) (fun a => cc0_transform_6 i a * S1x256.size a) (fun a => (Pipeline.Clip.of (cc0_transform_6 i a) (S1x256.size a) (S1x16382.size a)).extent (S1x256.size a)) fun a => Pipeline.Clip.inb (Pipeline.Clip.ok_of (hstart0_6 i a))).WholeWords (EltTy.packing .f32)
  hwxs0_6 : ∀ i : grid0.Coords, EltTy.bits .f32 = 32 ∨ (Rect.unit (s := S1x256) (fun _ => 0) (fun a => (Pipeline.Clip.of (cc0_transform_6 i a) (S1x256.size a) (S1x16382.size a)).extent (S1x256.size a)) fun a => (Nat.zero_add _).trans_le (Pipeline.Clip.extent_le (Pipeline.Clip.ok_of (hstart0_6 i a)))).WholeWords (EltTy.packing .f32)

variable [Facts₀]

def dot_S264x1000_S1000x128_S264x128_1_0_0_1_n_n : DotDims S264x1000 S1000x128 S264x128 where
  lhsContracting := [1]
  rhsContracting := [0]
  lhsNonContracting := [0]
  rhsNonContracting := [1]
  lhsBatch := []
  rhsBatch := []
  wf := dot_S264x1000_S1000x128_S264x128_1_0_0_1_n_n_wf
def dot_S1000x128_S256x128_S1000x256_1_1_0_0_n_n : DotDims S1000x128 S256x128 S1000x256 where
  lhsContracting := [1]
  rhsContracting := [1]
  lhsNonContracting := [0]
  rhsNonContracting := [0]
  lhsBatch := []
  rhsBatch := []
  wf := dot_S1000x128_S256x128_S1000x256_1_1_0_0_n_n_wf
def dot_S256x1000_S1000x136_S256x136_1_0_0_1_n_n : DotDims S256x1000 S1000x136 S256x136 where
  lhsContracting := [1]
  rhsContracting := [0]
  lhsNonContracting := [0]
  rhsNonContracting := [1]
  lhsBatch := []
  rhsBatch := []
  wf := dot_S256x1000_S1000x136_S256x136_1_0_0_1_n_n_wf

abbrev win0_0 : Pipeline.Window sig grid0 :=
  Pipeline.Window.ofSpec (Memref.whole main_v7) S1x264x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1000x136.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1000x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v14_0) S1000x256.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v14_1) S1x256.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384 : Shape := ⟨1, ![16384]⟩
abbrev S1000x128 : Shape := ⟨2, ![1000, 128]⟩
abbrev S1000 : Shape := ⟨1, ![1000]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S16382x128 : Shape := ⟨2, ![16382, 128]⟩
abbrev S128x1000 : Shape := ⟨2, ![128, 1000]⟩
abbrev S16382x1000 : Shape := ⟨2, ![16382, 1000]⟩
abbrev S1x1000 : Shape := ⟨2, ![1, 1000]⟩
abbrev S16382 : Shape := ⟨1, ![16382]⟩
abbrev S16382x1 : Shape := ⟨2, ![16382, 1]⟩
abbrev S16382x1x1 : Shape := ⟨3, ![16382, 1, 1]⟩
abbrev S1x1x1 : Shape := ⟨3, ![1, 1, 1]⟩

abbrev nBuf : Space → Nat
  | .hbm => 96
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000x128, .f32⟩
  | .hbm, ⟨2, _⟩ => ⟨S1000x128, .f32⟩
  | .hbm, ⟨3, _⟩ => ⟨S1000, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16382x128, .f32⟩
  | .hbm, ⟨29, _⟩ => ⟨S16382x128, .f32⟩
  | .hbm, ⟨30, _⟩ => ⟨S16382x128, .f32⟩
  | .hbm, ⟨31, _⟩ => ⟨S128x1000, .f32⟩
  | .hbm, ⟨32, _⟩ => ⟨S16382x1000, .f32⟩
  | .hbm, ⟨33, _⟩ => ⟨S1x1000, .f32⟩
  | .hbm, ⟨34, _⟩ => ⟨S16382x1000, .f32⟩
  | .hbm, ⟨35, _⟩ => ⟨S16382x1000, .f32⟩
  | .hbm, ⟨36, _⟩ => ⟨S_, .f32⟩
  | .hbm, ⟨37, _⟩ => ⟨S16382, .f32⟩
  | .hbm, ⟨38, _⟩ => ⟨S_, .f32⟩
  | .hbm, ⟨39, _⟩ => ⟨S16382, .f32⟩
  | .hbm, ⟨40, _⟩ => ⟨S16382, .f32⟩
  | .hbm, ⟨41, _⟩ => ⟨S16382x1, .f32⟩
  | .hbm, ⟨42, _⟩ => ⟨S16382x1000, .f32⟩
  | .hbm, ⟨43, _⟩ => ⟨S16382x1000, .f32⟩
  | .hbm, ⟨44, _⟩ => ⟨S16382x1000, .f32⟩
  | .hbm, ⟨45, _⟩ => ⟨S_, .f32⟩
  | .hbm, ⟨46, _⟩ => ⟨S16382, .f32⟩
  | .hbm, ⟨47, _⟩ => ⟨S16382x1, .f32⟩
  | .hbm, ⟨48, _⟩ => ⟨S16382x1, .f32⟩
  | .hbm, ⟨49, _⟩ => ⟨S16382x1000, .f32⟩
  | .hbm, ⟨50, _⟩ => ⟨S16382x1000, .f32⟩
  | .hbm, ⟨51, _⟩ => ⟨S16382, .i32⟩
  | .hbm, ⟨52, _⟩ => ⟨S_, .f32⟩
  | .hbm, ⟨53, _⟩ => ⟨S16382, .f32⟩
  | .hbm, ⟨54, _⟩ => ⟨S_, .f32⟩
  | .hbm, ⟨55, _⟩ => ⟨S16382, .f32⟩
  | .hbm, ⟨56, _⟩ => ⟨S16382, .f32⟩
  | .hbm, ⟨57, _⟩ => ⟨S16382x1, .f32⟩
  | .hbm, ⟨58, _⟩ => ⟨S16382x1000, .f32⟩
  | .hbm, ⟨59, _⟩ => ⟨S16382x1000, .f32⟩
  | .hbm, ⟨60, _⟩ => ⟨S16382x1000, .f32⟩
  | .hbm, ⟨61, _⟩ => ⟨S_, .f32⟩
  | .hbm, ⟨62, _⟩ => ⟨S16382, .f32⟩
  | .hbm, ⟨63, _⟩ => ⟨S16382x1, .f32⟩
  | .hbm, ⟨64, _⟩ => ⟨S16382x1, .f32⟩
  | .hbm, ⟨65, _⟩ => ⟨S16382x1000, .f32⟩
  | .hbm, ⟨66, _⟩ => ⟨S16382x1000, .f32⟩
  | .hbm, ⟨67, _⟩ => ⟨S16382x1, .i32⟩
  | .hbm, ⟨68, _⟩ => ⟨S_, .i32⟩
  | .hbm, ⟨69, _⟩ => ⟨S16382x1, .i32⟩
  | .hbm, ⟨70, _⟩ => ⟨S16382x1, .i1⟩
  | .hbm, ⟨71, _⟩ => ⟨S_, .i32⟩
  | .hbm, ⟨72, _⟩ => ⟨S16382x1, .i32⟩
  | .hbm, ⟨73, _⟩ => ⟨S16382x1, .i32⟩
  | .hbm, ⟨74, _⟩ => ⟨S16382x1, .i32⟩
  | .hbm, ⟨75, _⟩ => ⟨S16382x1x1, .i32⟩
  | .hbm, ⟨76, _⟩ => ⟨S1, .i32⟩
  | .hbm, ⟨77, _⟩ => ⟨S_, .i32⟩
  | .hbm, ⟨78, _⟩ => ⟨S16382x1x1, .i32⟩
  | .hbm, ⟨79, _⟩ => ⟨S16382x1x1, .i1⟩
  | .hbm, ⟨80, _⟩ => ⟨S1x1x1, .i32⟩
  | .hbm, ⟨81, _⟩ => ⟨S16382x1x1, .i32⟩
  | .hbm, ⟨82, _⟩ => ⟨S16382x1x1, .i1⟩
  | .hbm, ⟨83, _⟩ => ⟨S16382x1x1, .i1⟩
  | .hbm, ⟨84, _⟩ => ⟨S_, .i1⟩
  | .hbm, ⟨85, _⟩ => ⟨S16382x1, .i1⟩
  | .hbm, ⟨86, _⟩ => ⟨S16382x1, .f32⟩
  | .hbm, ⟨87, _⟩ => ⟨S_, .f32⟩
  | .hbm, ⟨88, _⟩ => ⟨S16382x1, .f32⟩
  | .hbm, ⟨89, _⟩ => ⟨S16382x1, .f32⟩
  | .hbm, ⟨90, _⟩ => ⟨S16382, .f32⟩
  | .hbm, ⟨91, _⟩ => ⟨S16382, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_call1_cst : Ref sig .tc := ⟨.hbm, 36, rfl⟩
abbrev main_call1_v0 : Ref sig .tc := ⟨.hbm, 37, rfl⟩
abbrev main_call1_cst_0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_cst_1 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_v10 : Ref sig .tc := ⟨.hbm, 50, rfl⟩
abbrev main_v11 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v12 : Ref sig .tc := ⟨.hbm, 66, rfl⟩
abbrev main_v13 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_cst : Ref sig .tc := ⟨.hbm, 92, rfl⟩
abbrev main_v17 : Ref sig .tc := ⟨.hbm, 93, rfl⟩
abbrev main_cst_0 : Ref sig .tc := ⟨.hbm, 94, rfl⟩
abbrev main_v18 : Ref sig .tc := ⟨.hbm, 95, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  slices_S16384x128_S16382x128_0_0 : S16384x128.Slices ![0, 0] S16382x128
  slices_S16384x128_S16382x128_2_0 : S16384x128.Slices ![2, 0] S16382x128
  transposes_S1000x128_S128x1000_1_0 : S1000x128.Transposes [1, 0] S128x1000
  bcast_S1000_S1x1000_1 : S1000.BroadcastsInDim S1x1000 (![1] : Fin 1 → Fin S1x1000.rank)
  bcast_S1x1000_S16382x1000_0_1 : S1x1000.BroadcastsInDim S16382x1000 (![0, 1] : Fin 2 → Fin S16382x1000.rank)
  reducesTo_S16382x1000_S16382_d1 : S16382x1000.ReducesTo [1] S16382
  bcast_S_S16382 : S_.BroadcastsInDim S16382 (![] : Fin 0 → Fin S16382.rank)
  bcast_S16382_S16382x1_0 : S16382.BroadcastsInDim S16382x1 (![0] : Fin 1 → Fin S16382x1.rank)
  bcast_S16382x1_S16382x1000_0_1 : S16382x1.BroadcastsInDim S16382x1000 (![0, 1] : Fin 2 → Fin S16382x1000.rank)
  slices_S16384_S16382_1 : S16384.Slices ![1] S16382
  bcast_S_S16382x1 : S_.BroadcastsInDim S16382x1 (![] : Fin 0 → Fin S16382x1.rank)
  shapeCasts_S16382x1_S16382x1x1 : S16382x1.ShapeCasts S16382x1x1
  bcast_S_S16382x1x1 : S_.BroadcastsInDim S16382x1x1 (![] : Fin 0 → Fin S16382x1x1.rank)
  bcast_S1_S1x1x1_2 : S1.BroadcastsInDim S1x1x1 (![2] : Fin 1 → Fin S1x1x1.rank)
  bcast_S1x1x1_S16382x1x1_0_1_2 : S1x1x1.BroadcastsInDim S16382x1x1 (![0, 1, 2] : Fin 3 → Fin S16382x1x1.rank)
  reducesTo_S16382x1x1_S16382x1_d2 : S16382x1x1.ReducesTo [2] S16382x1
  shapeCasts_S16382x1_S16382 : S16382x1.ShapeCasts S16382
  reducesTo_S16382_S_d0 : S16382.ReducesTo [0] S_
  gather_S1000x128_S16384x1_S16384x128_1_0_n_n_0_1_1128_wf : GatherDims.WF S1000x128 S16384x1 S16384x128 [1] [0] [] [0] [] 1 ![1, 128]
  dot_S16382x128_S128x1000_S16382x1000_1_0_0_1_n_n_wf : DotDims.WF S16382x128 S128x1000 S16382x1000 [1] [0] [0] [1] [] []
  gather_S16382x1000_S16382x1x1_S16382x1_n_1_0_0_1_2_11_wf : GatherDims.WF S16382x1000 S16382x1x1 S16382x1 [] [1] [0] [1] [0] 2 ![1, 1]

variable [Facts₀]

def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf
def dot_S16382x128_S128x1000_S16382x1000_1_0_0_1_n_n : DotDims S16382x128 S128x1000 S16382x1000 where
  lhsContracting := [1]
  rhsContracting := [0]
  lhsNonContracting := [0]
  rhsNonContracting := [1]
  lhsBatch := []
  rhsBatch := []
  wf := dot_S16382x128_S128x1000_S16382x1000_1_0_0_1_n_n_wf
def gather_S16382x1000_S16382x1x1_S16382x1_n_1_0_0_1_2_11 : GatherDims S16382x1000 S16382x1x1 S16382x1 where
  offsetDims := []
  collapsedSliceDims := [1]
  operandBatchingDims := [0]
  startIndicesBatchingDims := [0]
  startIndexMap := [1]
  indexVectorDim := 2
  sliceSizes := ![1, 1]
  wf := gather_S16382x1000_S16382x1x1_S16382x1_n_1_0_0_1_2_11_wf

class Facts : Prop extends Facts₀ where

variable [Facts]
-- ==== Proof.WordBody.lean ====
/-
  The run of the program around its one pallas_call, for any float instance.

  @main is sixteen host operations (the overlapping windows of token ids built by reshapes and concatenations,
  the two tables narrowed, the bias laid down a column, the projection table with the bias appended as column 128
  and seven zero columns), the region of 64 grid points, and seven host operations after it (the row of per-position
  losses reshaped, summed and divided by the count; the targets sliced; the block of log-probabilities transposed).

  At grid point `t` the body reads five input blocks — the 264 ids of window `t`, the two tables, the extended
  projection table, the bias column — and overwrites both output blocks whole: the [1000, 256] block of
  log-probabilities (`predBlock`) and the [1, 256] row of losses (`nllBlock`), each a pure function of the input
  blocks. The last block of either output overhangs its array by two columns; the body writes those columns too (from
  ids that are defined: the windows are padded with zeros), and the write-back keeps only the part inside the array.
-/
import proofs.«115835_g2070174237271_cont_8to1_761_7_alg».proof.Proof.Gen.Kernel.Launch
import proofs.«115835_g2070174237271_cont_8to1_761_7_alg».proof.Proof.Gen.Kernel.Skeleton
import proofs.«115835_g2070174237271_cont_8to1_761_7_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the sixteen host operations applied to the launch memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it only; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- they allocate nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and each writes its own result buffer, which is none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- An argument array is written by no host operation, before or after the region. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    rcases hb with rfl | rfl | rfl | rfl
    all_goals (repeat' apply And.intro) <;> exact StableHlo.devRef_ne_of_ne (by decide)))

theorem tail_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2 ∨ b = main_arg3) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      rcases hb with rfl | rfl | rfl | rfl
      all_goals (repeat' apply And.intro) <;> exact StableHlo.devRef_ne_of_ne (by decide))),
    Pipeline.withArrays_of_ne _ c (V0 m c) _ b (by
      rcases hb with rfl | rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2)
      · exact (by decide : ∀ w, Pipeline.arrRef spec0 w ≠ main_arg3))]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

abbrev rIds : Rect S1x264x1 := Rect.unit (s := S1x264x1) ![0, 0, 0] S1x264x1.size inb_S1x264x1_S1x264x1_0_0_0
abbrev rTab : Rect S1000x128 := Rect.unit (s := S1000x128) ![0, 0] S1000x128.size inb_S1000x128_S1000x128_0_0
abbrev rExt : Rect S1000x136 := Rect.unit (s := S1000x136) ![0, 0] S1000x136.size inb_S1000x136_S1000x136_0_0
abbrev rCol : Rect S1000x1 := Rect.unit (s := S1000x1) ![0, 0] S1000x1.size inb_S1000x1_S1000x1_0_0
abbrev rPred : Rect S1000x256 := Rect.unit (s := S1000x256) ![0, 0] S1000x256.size inb_S1000x256_S1000x256_0_0
abbrev rRow : Rect S1x256 := Rect.unit (s := S1x256) ![0, 0] S1x256.size inb_S1x256_S1x256_0_0

/-- The block of log-probabilities the body stores, from the ids, the two tables and the bias column. -/
def predBlock (x0 : Vec F S1x264x1 .i32) (x1 x2 : Vec F S1000x128 .bf16) (x4 : Vec F S1000x1 .f32) : Vec F S1000x256 .f32 :=
  View.canon [⟨rPred, k0_pay6 (View.ld x0 rIds) (View.ld x1 rTab) (View.ld x2 rTab) (View.ld x4 rCol)⟩]

/-- The row of losses the body stores, from all five input blocks. -/
def nllBlock (x0 : Vec F S1x264x1 .i32) (x1 x2 : Vec F S1000x128 .bf16) (x3 : Vec F S1000x136 .bf16) (x4 : Vec F S1000x1 .f32) : Vec F S1x256 .f32 :=
  View.canon [⟨rRow, k0_pay1 (k0_pay3 (View.ld x0 rIds) (View.ld x1 rTab)) (k0_pay5 (View.ld x0 rIds) (View.ld x1 rTab) (View.ld x2 rTab) (View.ld x4 rCol))
    (k0_pay7 (View.ld x0 rIds) (View.ld x3 rExt)) (k0_pay8 (View.ld x0 rIds) (View.ld x3 rExt))⟩]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Each store covers its buffer, so the blocks are the stored values of the loaded contents. -/
theorem predBlock_eq (x0 : Vec F S1x264x1 .i32) (x1 x2 : Vec F S1000x128 .bf16) (x4 : Vec F S1000x1 .f32) :
    predBlock x0 x1 x2 x4 = k0_pay6 x0 x1 x2 x4 := by
  unfold predBlock
  rw [View.canon_unit_zero zeros2, View.ld_unit_zero (S := S1x264x1) zeros3, View.ld_unit_zero (S := S1000x128) zeros2,
    View.ld_unit_zero (S := S1000x128) zeros2, View.ld_unit_zero (S := S1000x1) zeros2]

theorem nllBlock_eq (x0 : Vec F S1x264x1 .i32) (x1 x2 : Vec F S1000x128 .bf16) (x3 : Vec F S1000x136 .bf16) (x4 : Vec F S1000x1 .f32) :
    nllBlock x0 x1 x2 x3 x4 = k0_pay1 (k0_pay3 x0 x1) (k0_pay5 x0 x1 x2 x4) (k0_pay7 x0 x3) (k0_pay8 x0 x3) := by
  unfold nllBlock
  rw [View.canon_unit_zero zeros2, View.ld_unit_zero (S := S1x264x1) zeros3, View.ld_unit_zero (S := S1000x128) zeros2,
    View.ld_unit_zero (S := S1000x128) zeros2, View.ld_unit_zero (S := S1000x1) zeros2, View.ld_unit_zero (S := S1000x136) zeros2]

/-! ## The body's triple -/

set_option maxHeartbeats 2000000 in
/-- On whole staging buffers — the five inputs at contents `x0 … x4`, the two outputs at anything — the body runs to the
    continuation holding the inputs as they were and the outputs at `predBlock` and `nllBlock` of the inputs. -/
theorem sound_kernel (c : Dev nD) (E : Set ℕ) (i : grid0.Coords)
    (a1 : Memref sig .tc .vmem S1x264x1 .i32) (h1 : a1.IsWhole) (a2 : Memref sig .tc .vmem S1000x128 .bf16) (h2 : a2.IsWhole)
    (a3 : Memref sig .tc .vmem S1000x128 .bf16) (h3 : a3.IsWhole) (a4 : Memref sig .tc .vmem S1000x136 .bf16) (h4 : a4.IsWhole)
    (a5 : Memref sig .tc .vmem S1000x1 .f32) (h5 : a5.IsWhole) (a6 : Memref sig .tc .vmem S1000x256 .f32) (h6 : a6.IsWhole)
    (a7 : Memref sig .tc .vmem S1x256 .f32) (h7 : a7.IsWhole)
    (x0 : Vec F S1x264x1 .i32) (x1 x2 : Vec F S1000x128 .bf16) (x3 : Vec F S1000x136 .bf16) (x4 : Vec F S1000x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (predBlock x0 x1 x2 x4)
            ∗ owns (c : Thread nD τ) a7 fullShare (nllBlock x0 x1 x2 x3 x4)) -∗ K ⟨⟩))
      ⊢ wp frame (wpE (defs₀ (F := F)) Variants.none c none) E (cc0__cbow_block i a1 h1 a2 h2 a3 h3 a4 h4 a5 h5 a6 h6 a7 h7) K := by
  simp only [cc0__cbow_block_eq_skeleton]; unfold cc0__cbow_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fun y => ⟨_, List.mem_singleton_self _, View.mem_set_unit_zero zeros2 inb_S1000x256_S1000x256_0_0 y⟩)
  · iexists _; isplitr
    swap; · iexact H6
    ipureintro
    exact View.read_writes_eq_canon _ _ _ (fun y => ⟨_, List.mem_singleton_self _, View.mem_set_unit_zero zeros2 inb_S1x256_S1x256_0_0 y⟩)

end Cert.Kernel.Hand

end
-- ==== Proof.WordRun.lean ====
/-
  The proof data of the one pallas_call and the program's run, for any float instance.

  Each of the five input windows tiles its array, so the body finds every input's staging buffer at the window's
  block of the array as the region found it — fetched at this point, or (the four whole-array windows) fetched at
  the first point and kept since. Both outputs are overwritten whole at every point. The run therefore ends with the
  region's two result arrays at what the 64 write-backs leave, the argument arrays as launched, and every buffer the
  later host operations write at those operations' values.
-/
import proofs.«115835_g2070174237271_cont_8to1_761_7_alg».proof.Proof.WordBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; after the body at point `t` each input's buffer
    at its block and the two outputs' at the blocks the body computes from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => predBlock (iblk m c 0 t) (iblk m c 1 t) (iblk m c 2 t) (iblk m c 4 t)
    | ⟨6, _⟩ => nllBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = predBlock (iblk m c 0 t) (iblk m c 1 t) (iblk m c 2 t) (iblk m c 4 t) := by dsimp only [dats]
theorem after_6 (c : Dev nD) (t : Fin cfg0.N) : (dats m 0 c).after 6 t
    = nllBlock (iblk m c 0 t) (iblk m c 1 t) (iblk m c 2 t) (iblk m c 3 t) (iblk m c 4 t) := by dsimp only [dats]

/-- An input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates without a fault, every array of the region at what the write-backs
    leave and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (tail_arg m (dats m) c main_arg0 (Or.inl rfl)),
     ((h c).2 main_arg1 (Pipeline.mem_restRefs_of main_arg1 (by decide) (by decide))).trans (tail_arg m (dats m) c main_arg1 (Or.inr (Or.inl rfl))),
     ((h c).2 main_arg2 (Pipeline.mem_restRefs_of main_arg2 (by decide) (by decide))).trans (tail_arg m (dats m) c main_arg2 (Or.inr (Or.inr (Or.inl rfl)))),
     ((h c).2 main_arg3 (Pipeline.mem_restRefs_of main_arg3 (by decide) (by decide))).trans (tail_arg m (dats m) c main_arg3 (Or.inr (Or.inr (Or.inr rfl))))⟩)
    (run_main m ρ)

end Cert.Kernel.Hand

end
-- ==== Proof.IdealBody.lean ====
/-
  The run of the program around its one pallas_call, for any float instance.

  @main is sixteen host operations (the overlapping windows of token ids built by reshapes and concatenations,
  the two tables narrowed, the bias laid down a column, the projection table with the bias appended as column 128
  and seven zero columns), the region of 64 grid points, and seven host operations after it (the row of per-position
  losses reshaped, summed and divided by the count; the targets sliced; the block of log-probabilities transposed).

  At grid point `t` the body reads five input blocks — the 264 ids of window `t`, the two tables, the extended
  projection table, the bias column — and overwrites both output blocks whole: the [1000, 256] block of
  log-probabilities (`predBlock`) and the [1, 256] row of losses (`nllBlock`), each a pure function of the input
  blocks. The last block of either output overhangs its array by two columns; the body writes those columns too (from
  ids that are defined: the windows are padded with zeros), and the write-back keeps only the part inside the array.
-/
import proofs.«115835_g2070174237271_cont_8to1_761_7_alg».proof.Proof.Gen.KernelIdeal.Launch
import proofs.«115835_g2070174237271_cont_8to1_761_7_alg».proof.Proof.Gen.KernelIdeal.Skeleton
import proofs.«115835_g2070174237271_cont_8to1_761_7_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the sixteen host operations applied to the launch memory. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the operations before the region, the region, and the operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch the region's arrays and the buffers that bypass it only; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- they allocate nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and each writes its own result buffer, which is none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- An argument array is written by no host operation, before or after the region. -/
theorem V_arg (c : Dev nD) (b : Ref sig .tc) (hb : b = main_arg0 ∨ b = main_arg1 ∨ b = main_arg2 ∨ b = main_arg3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    rcases hb with rfl | rfl | rfl | rfl
    all_goals (repeat' apply And.intro) <;> exact StableHlo.devRef_ne_of_ne (by decide)))

theorem tail_arg (dats : (p : Fin 1) → (c : Dev nD) → Dat τ (Elt F) Unit ℕ (UR sig nD τ) ℕ (cfgs p) c) (c : Dev nD)
    (b : Ref sig .tc) (hb : b = main_arg0 ∨ b = main_arg1 ∨ b = main_arg2 ∨ b = main_arg3) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      rcases hb with rfl | rfl | rfl | rfl
      all_goals (repeat' apply And.intro) <;> exact StableHlo.devRef_ne_of_ne (by decide))),
    Pipeline.withArrays_of_ne _ c (V0 m c) _ b (by
      rcases hb with rfl | rfl | rfl | rfl
      · exact (by decide : ∀ w, Pipeline.arrRef spec0 w ≠ main_arg0)
      · exact (by decide : ∀ w, Pipeline.arrRef spec0 w ≠ main_arg1)
      · exact (by decide : ∀ w, Pipeline.arrRef spec0 w ≠ main_arg2)
      · exact (by decide : ∀ w, Pipeline.arrRef spec0 w ≠ main_arg3))]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves -/

abbrev rIds : Rect S1x264x1 := Rect.unit (s := S1x264x1) ![0, 0, 0] S1x264x1.size inb_S1x264x1_S1x264x1_0_0_0
abbrev rTab : Rect S1000x128 := Rect.unit (s := S1000x128) ![0, 0] S1000x128.size inb_S1000x128_S1000x128_0_0
abbrev rExt : Rect S1000x136 := Rect.unit (s := S1000x136) ![0, 0] S1000x136.size inb_S1000x136_S1000x136_0_0
abbrev rCol : Rect S1000x1 := Rect.unit (s := S1000x1) ![0, 0] S1000x1.size inb_S1000x1_S1000x1_0_0
abbrev rPred : Rect S1000x256 := Rect.unit (s := S1000x256) ![0, 0] S1000x256.size inb_S1000x256_S1000x256_0_0
abbrev rRow : Rect S1x256 := Rect.unit (s := S1x256) ![0, 0] S1x256.size inb_S1x256_S1x256_0_0

/-- The block of log-probabilities the body stores, from the ids, the two tables and the bias column. -/
def predBlock (x0 : Vec F S1x264x1 .i32) (x1 x2 : Vec F S1000x128 .bf16) (x4 : Vec F S1000x1 .f32) : Vec F S1000x256 .f32 :=
  View.canon [⟨rPred, k0_pay6 (View.ld x0 rIds) (View.ld x1 rTab) (View.ld x2 rTab) (View.ld x4 rCol)⟩]

/-- The row of losses the body stores, from all five input blocks. -/
def nllBlock (x0 : Vec F S1x264x1 .i32) (x1 x2 : Vec F S1000x128 .bf16) (x3 : Vec F S1000x136 .bf16) (x4 : Vec F S1000x1 .f32) : Vec F S1x256 .f32 :=
  View.canon [⟨rRow, k0_pay1 (k0_pay3 (View.ld x0 rIds) (View.ld x1 rTab)) (k0_pay5 (View.ld x0 rIds) (View.ld x1 rTab) (View.ld x2 rTab) (View.ld x4 rCol))
    (k0_pay7 (View.ld x0 rIds) (View.ld x3 rExt)) (k0_pay8 (View.ld x0 rIds) (View.ld x3 rExt))⟩]

theorem zeros2 : (![0, 0] : Fin 2 → Nat) = fun _ => 0 := funext fun a => by fin_cases a <;> rfl
theorem zeros3 : (![0, 0, 0] : Fin 3 → Nat) = fun _ => 0 := funext fun a => by fin_cases a <;> rfl

/-- Each store covers its buffer, so the blocks are the stored values of the loaded contents. -/
theorem predBlock_eq (x0 : Vec F S1x264x1 .i32) (x1 x2 : Vec F S1000x128 .bf16) (x4 : Vec F S1000x1 .f32) :
    predBlock x0 x1 x2 x4 = k0_pay6 x0 x1 x2 x4 := by
  unfold predBlock
  rw [View.canon_unit_zero zeros2, View.ld_unit_zero (S := S1x264x1) zeros3, View.ld_unit_zero (S := S1000x128) zeros2,
    View.ld_unit_zero (S := S1000x128) zeros2, View.ld_unit_zero (S := S1000x1) zeros2]

theorem nllBlock_eq (x0 : Vec F S1x264x1 .i32) (x1 x2 : Vec F S1000x128 .bf16) (x3 : Vec F S1000x136 .bf16) (x4 : Vec F S1000x1 .f32) :
    nllBlock x0 x1 x2 x3 x4 = k0_pay1 (k0_pay3 x0 x1) (k0_pay5 x0 x1 x2 x4) (k0_pay7 x0 x3) (k0_pay8 x0 x3) := by
  unfold nllBlock
  rw [View.canon_unit_zero zeros2, View.ld_unit_zero (S := S1x264x1) zeros3, View.ld_unit_zero (S := S1000x128) zeros2,
    View.ld_unit_zero (S := S1000x128) zeros2, View.ld_unit_zero (S := S1000x1) zeros2, View.ld_unit_zero (S := S1000x136) zeros2]

/-! ## The body's triple -/

set_option maxHeartbeats 2000000 in
/-- On whole staging buffers — the five inputs at contents `x0 … x4`, the two outputs at anything — the body runs to the
    continuation holding the inputs as they were and the outputs at `predBlock` and `nllBlock` of the inputs. -/
theorem sound_kernel (c : Dev nD) (E : Set ℕ) (i : grid0.Coords)
    (a1 : Memref sig .tc .vmem S1x264x1 .i32) (h1 : a1.IsWhole) (a2 : Memref sig .tc .vmem S1000x128 .bf16) (h2 : a2.IsWhole)
    (a3 : Memref sig .tc .vmem S1000x128 .bf16) (h3 : a3.IsWhole) (a4 : Memref sig .tc .vmem S1000x136 .bf16) (h4 : a4.IsWhole)
    (a5 : Memref sig .tc .vmem S1000x1 .f32) (h5 : a5.IsWhole) (a6 : Memref sig .tc .vmem S1000x256 .f32) (h6 : a6.IsWhole)
    (a7 : Memref sig .tc .vmem S1x256 .f32) (h7 : a7.IsWhole)
    (x0 : Vec F S1x264x1 .i32) (x1 x2 : Vec F S1000x128 .bf16) (x3 : Vec F S1000x136 .bf16) (x4 : Vec F S1000x1 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ owns (c : Thread nD τ) a6 fullShare (predBlock x0 x1 x2 x4)
            ∗ owns (c : Thread nD τ) a7 fullShare (nllBlock x0 x1 x2 x3 x4)) -∗ K ⟨⟩))
      ⊢ wp frame (wpE (defs₀ (F := F)) Variants.none c none) E (cc0__cbow_block i a1 h1 a2 h2 a3 h3 a4 h4 a5 h5 a6 h6 a7 h7) K := by
  simp only [cc0__cbow_block_eq_skeleton]; unfold cc0__cbow_block_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fun y => ⟨_, List.mem_singleton_self _, View.mem_set_unit_zero zeros2 inb_S1000x256_S1000x256_0_0 y⟩)
  · iexists _; isplitr
    swap; · iexact H6
    ipureintro
    exact View.read_writes_eq_canon _ _ _ (fun y => ⟨_, List.mem_singleton_self _, View.mem_set_unit_zero zeros2 inb_S1x256_S1x256_0_0 y⟩)

end Cert.KernelIdeal.Hand

end
-- ==== Proof.IdealRun.lean ====
/-
  The proof data of the one pallas_call and the program's run, for any float instance.

  Each of the five input windows tiles its array, so the body finds every input's staging buffer at the window's
  block of the array as the region found it — fetched at this point, or (the four whole-array windows) fetched at
  the first point and kept since. Both outputs are overwritten whole at every point. The run therefore ends with the
  region's two result arrays at what the 64 write-backs leave, the argument arrays as launched, and every buffer the
  later host operations write at those operations' values.
-/
import proofs.«115835_g2070174237271_cont_8to1_761_7_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as the region finds them; after the body at point `t` each input's buffer
    at its block and the two outputs' at the blocks the body computes from the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => predBlock (iblk m c 0 t) (iblk m c 1 t) (iblk m c 2 t) (iblk m c 4 t)
    | ⟨6, _⟩ => nllBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = predBlock (iblk m c 0 t) (iblk m c 1 t) (iblk m c 2 t) (iblk m c 4 t) := by dsimp only [dats]
theorem after_6 (c : Dev nD) (t : Fin cfg0.N) : (dats m 0 c).after 6 t
    = nllBlock (iblk m c 0 t) (iblk m c 1 t) (iblk m c 2 t) (iblk m c 3 t) (iblk m c 4 t) := by dsimp only [dats]

/-- An input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates without a fault, every array of the region at what the write-backs
    leave and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (tail_arg m (dats m) c main_arg0 (Or.inl rfl)),
     ((h c).2 main_arg1 (Pipeline.mem_restRefs_of main_arg1 (by decide) (by decide))).trans (tail_arg m (dats m) c main_arg1 (Or.inr (Or.inl rfl))),
     ((h c).2 main_arg2 (Pipeline.mem_restRefs_of main_arg2 (by decide) (by decide))).trans (tail_arg m (dats m) c main_arg2 (Or.inr (Or.inr (Or.inl rfl)))),
     ((h c).2 main_arg3 (Pipeline.mem_restRefs_of main_arg3 (by decide) (by decide))).trans (tail_arg m (dats m) c main_arg3 (Or.inr (Or.inr (Or.inr rfl))))⟩)
    (run_main m ρ)

end Cert.KernelIdeal.Hand

end
-- ==== Proof.IdealBlocks.lean ====
/-
  The five input windows' blocks, read off the arrays the region finds.

  The window of ids moves with the grid point: its block at point `t` is plane `t` of the [64, 264, 1] array of
  overlapping id windows. The other four windows stage their whole arrays at every point.
-/
import proofs.«115835_g2070174237271_cont_8to1_761_7_alg».proof.Proof.IdealRun
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The printed index maps, decided over the grid: the id window's block index is the point on the leading axis, and
    every other block index of an input window is zero. -/
theorem in_index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 64 := lt_of_lt_of_eq t.isLt N_0

/-- Row `q` of the id window at point `t`. -/
theorem iblk_ids (c : Dev nD) (t : Fin cfg0.N) (q : Fin 264) :
    iblk m c 0 t (ix3 (0 : Fin 1) q (0 : Fin 1)) = V m c main_v7 (ix3 (⟨t.val, point_lt t⟩ : Fin 64) q (0 : Fin 1)) := by
  show V m c main_v7 (((cfg0.win 0).blk t).view.emb (ix3 (0 : Fin 1) q (0 : Fin 1))) = _
  refine congrArg (V m c main_v7) (funext fun a => Fin.ext ?_)
  obtain ⟨e0, e1, e2, -⟩ := in_index_facts t
  match a with
  | ⟨0, _⟩ => show win0_0.index t (0 : Fin 3) * 1 + 1 * 0 = t.val; omega
  | ⟨1, _⟩ => show win0_0.index t (1 : Fin 3) * 264 + 1 * q.val = q.val; omega
  | ⟨2, _⟩ => show win0_0.index t (2 : Fin 3) * 1 + 1 * 0 = 0; omega

/-- The embedding table's, the projection table's, the extended table's and the bias column's blocks are the arrays. -/
theorem iblk_emb (c : Dev nD) (t : Fin cfg0.N) : (iblk m c 1 t : S1000x128.Idx → Elt F .bf16) = V m c main_v8 := by
  funext y
  show V m c main_v8 (((cfg0.win 1).blk t).view.emb y) = _
  refine congrArg (V m c main_v8) (funext fun a => Fin.ext ?_)
  obtain ⟨-, -, -, e0, e1, -⟩ := in_index_facts t
  match a with
  | ⟨0, _⟩ => show win0_1.index t (0 : Fin 2) * 1000 + 1 * (y 0).val = (y 0).val; omega
  | ⟨1, _⟩ => show win0_1.index t (1 : Fin 2) * 128 + 1 * (y 1).val = (y 1).val; omega

theorem iblk_proj (c : Dev nD) (t : Fin cfg0.N) : (iblk m c 2 t : S1000x128.Idx → Elt F .bf16) = V m c main_v9 := by
  funext y
  show V m c main_v9 (((cfg0.win 2).blk t).view.emb y) = _
  refine congrArg (V m c main_v9) (funext fun a => Fin.ext ?_)
  obtain ⟨-, -, -, -, -, e0, e1, -⟩ := in_index_facts t
  match a with
  | ⟨0, _⟩ => show win0_2.index t (0 : Fin 2) * 1000 + 1 * (y 0).val = (y 0).val; omega
  | ⟨1, _⟩ => show win0_2.index t (1 : Fin 2) * 128 + 1 * (y 1).val = (y 1).val; omega

theorem iblk_ext (c : Dev nD) (t : Fin cfg0.N) : (iblk m c 3 t : S1000x136.Idx → Elt F .bf16) = V m c main_v13 := by
  funext y
  show V m c main_v13 (((cfg0.win 3).blk t).view.emb y) = _
  refine congrArg (V m c main_v13) (funext fun a => Fin.ext ?_)
  obtain ⟨-, -, -, -, -, -, -, e0, e1, -⟩ := in_index_facts t
  match a with
  | ⟨0, _⟩ => show win0_3.index t (0 : Fin 2) * 1000 + 1 * (y 0).val = (y 0).val; omega
  | ⟨1, _⟩ => show win0_3.index t (1 : Fin 2) * 136 + 1 * (y 1).val = (y 1).val; omega

theorem iblk_bias (c : Dev nD) (t : Fin cfg0.N) : (iblk m c 4 t : S1000x1.Idx → Elt F .f32) = V m c main_v10 := by
  funext y
  show V m c main_v10 (((cfg0.win 4).blk t).view.emb y) = _
  refine congrArg (V m c main_v10) (funext fun a => Fin.ext ?_)
  obtain ⟨-, -, -, -, -, -, -, -, -, e0, e1⟩ := in_index_facts t
  match a with
  | ⟨0, _⟩ => show win0_4.index t (0 : Fin 2) * 1000 + 1 * (y 0).val = (y 0).val; omega
  | ⟨1, _⟩ => show win0_4.index t (1 : Fin 2) * 1 + 1 * (y 1).val = (y 1).val; omega

end Cert.KernelIdeal.Hand

end
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibLastAxisFolds.lean ====
/-
  Folds along the LAST axis of a rank-2 array at the ideal values, in the form a kernel's own text takes.

  A kernel's `vector.multi_reduction` carries two facts besides its operand: that its float type is one the
  operation is defined at, and that its accumulator is the operation's neutral word. A printed kernel states the
  first as the disjunction itself and the second as an equation between the two literal words. The lemmas here take
  the two facts in exactly that spelling, for any extents, so they rewrite a kernel's value as it stands:

  * `rowsum_fn` / `rowmax_fn`: the reduction, as a function of the row, is the sum over the row / the fold of `max`
    over the row from minus infinity. They contain no index, so `rw` can replace every reduction of a value before
    the value is read at an entry, also the ones that end up under a sum or a fold;
  * `rowsum_apply` / `rowmax_apply`: the same at a row given by its coordinate.

  With them: a one-column matrix `[a, 1]` laid out as one row `[1, a]` read at `(u, i)` is the column at `(i, 0)`, the
  counterpart of a vector laid out as a row; and square root, exponential and sigmoid of a vector read at an index.
-/
import Idealize.ShloMosaic.PureOps.Ideal.Laws
import Idealize.ShloMosaic.Lib.ValueIdx
import Idealize.ShloMosaic.Lib.Pipeline.Value

noncomputable section

namespace Cert.Lib.LastAxisFolds

open Idealize.ShloMosaic Idealize.ShloMosaic.ValueIdx

/-- A sum along the last axis from zero, read at its row: the sum over the row. -/
theorem rowsum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the last axis from minus infinity, read at its row: the fold of `max` over the row. -/
theorem rowmax_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) := by
  refine (Ideal.multiReduction_maximumf_single src 0xFF800000#32 h hφ hacc (ix1 p)).trans ?_
  refine congrArg (fun f => (Finset.univ : Finset (Fin b)).fold max (Ideal.ofBits .f32 0xFF800000#32) f) (funext fun k => ?_)
  exact congrArg src (funext fun d => Fin.ext (by match d with | ⟨0, _⟩ => rfl | ⟨1, _⟩ => rfl))

/-- The sum along the last axis as a function of the row. -/
theorem rowsum_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec FTy.f32.bits) = 0x00000000#32) :
    multiReduction .add [1] ⟨1, ![a]⟩ src 0x00000000#32 h hφ hacc = fun j => ∑ k : Fin b, src (ix2 (j 0) k) :=
  funext fun j => by
    rw [eq_ix1 j]
    exact rowsum_apply src h hφ hacc (j 0)

/-- The maximum along the last axis as a function of the row. -/
theorem rowmax_fn {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0xFF800000#32 : BitVec FTy.f32.bits) = 0xFF800000#32) :
    multiReduction .maximumf [1] ⟨1, ![a]⟩ src 0xFF800000#32 h hφ hacc
      = fun j => (Finset.univ : Finset (Fin b)).fold max (Ideal.ofBits .f32 0xFF800000#32) (fun k => src (ix2 (j 0) k)) :=
  funext fun j => by
    rw [eq_ix1 j]
    exact rowmax_apply src h hφ hacc (j 0)

/-- A one-column matrix laid out as one row reads, at `(u, i)`, the column's entry in row `i`. -/
theorem shapeCast_a1_1a_apply {α : Type} {a : ℕ} (x : (⟨2, ![a, 1]⟩ : Shape).Idx → α)
    (h : (⟨2, ![a, 1]⟩ : Shape).ShapeCasts ⟨2, ![1, a]⟩) (u : Fin 1) (i : Fin a) :
    shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.mul_one, Nat.add_zero, Nat.zero_add])

/-- The square root of a vector read at an index. -/
theorem sqrt_apply {s : Shape} {φ : FTy} (a : FVec Ideal s φ) (i : s.Idx) : sqrt a i = Ideal.sqrt (a i) := rfl
/-- The exponential of a vector read at an index. -/
theorem exp_apply {s : Shape} {φ : FTy} (a : FVec Ideal s φ) (i : s.Idx) : exp a i = Ideal.exp (a i) := rfl
/-- The sigmoid of a vector read at an index. -/
theorem logistic_apply {s : Shape} {φ : FTy} (a : FVec Ideal s φ) (i : s.Idx) : logistic a i = Ideal.logistic (a i) := rfl

end Cert.Lib.LastAxisFolds

end
-- ==== Proof.LibFirstAxisFolds.lean ====
/-
  Folds along the FIRST axis of a rank-2 array at the ideal values, in the form a kernel's own text takes.

  A kernel that keeps the long axis of a matrix on the leading coordinate takes a column's sum or maximum by a
  `vector.multi_reduction` over axis 0. Read at a column `p` the result is the sum over the rows `k` of the entries
  `(k, p)`, or the fold of `max` over them from minus infinity. The two facts a printed reduction carries besides its
  operand (its float type is one the operation is defined at; its accumulator is the operation's neutral word) are taken
  in the spelling a printed kernel gives them, for any extents, so the lemmas rewrite a kernel's value as it stands.
-/
import Idealize.ShloMosaic.PureOps.Ideal.Laws
import Idealize.ShloMosaic.Lib.ValueIdx
import Idealize.ShloMosaic.Lib.Pipeline.Value

noncomputable section

namespace Cert.Lib.FirstAxisFolds

open Idealize.ShloMosaic Idealize.ShloMosaic.ValueIdx

/-- A sum along the first axis from zero, read at its column: the sum down the column. -/
theorem colsum_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0x00000000#32 : BitVec FTy.f32.bits) = 0x00000000#32) (p : Fin b) :
    multiReduction .add [0] ⟨1, ![b]⟩ src 0x00000000#32 h hφ hacc (ix1 p) = ∑ k : Fin a, src (ix2 k p) := by
  refine (Ideal.multiReduction_add_single src 0x00000000#32 h hφ hacc (ix1 p)).trans ?_
  refine Finset.sum_congr rfl fun k _ => ?_
  exact congrArg src (funext fun d => Fin.ext (by match d with | ⟨0, _⟩ => rfl | ⟨1, _⟩ => rfl))

/-- A maximum along the first axis from minus infinity, read at its column: the fold of `max` down the column. -/
theorem colmax_apply {a b : ℕ} (src : FVec Ideal ⟨2, ![a, b]⟩ .f32)
    (h : (⟨2, ![a, b]⟩ : Shape).Reduces [0] ⟨1, ![b]⟩) (hφ : FTy.f32 = FTy.f32 ∨ FTy.f32 = FTy.bf16)
    (hacc : (0xFF800000#32 : BitVec FTy.f32.bits) = 0xFF800000#32) (p : Fin b) :
    multiReduction .maximumf [0] ⟨1, ![b]⟩ src 0xFF800000#32 h hφ hacc (ix1 p)
      = (Finset.univ : Finset (Fin a)).fold max (⊥ : EReal) (fun k => src (ix2 k p)) := by
  refine (Ideal.multiReduction_maximumf_single src 0xFF800000#32 h hφ hacc (ix1 p)).trans ?_
  have hbot : (FloatOps.ofBits (F := Ideal) .f32 0xFF800000#32 : EReal) = ⊥ := by
    show Ideal.ofBits .f32 0xFF800000#32 = ⊥
    simp [Ideal.ofBits, Ideal.ieee]
  rw [hbot]
  refine congrArg (fun f => (Finset.univ : Finset (Fin a)).fold max (⊥ : EReal) f) (funext fun k => ?_)
  exact congrArg src (funext fun d => Fin.ext (by match d with | ⟨0, _⟩ => rfl | ⟨1, _⟩ => rfl))

end Cert.Lib.FirstAxisFolds

end
-- ==== Proof.IdealPayload.lean ====
/-
  The body's arithmetic at the ideal values, read entry by entry.

  The body compares each of the 264 ids of its window with the vocabulary indices 0..999, which gives a matrix of ones
  and zeros with at most one 1 per row, and multiplies that matrix with a table: row `r` of the product is the sum over
  the vocabulary of `hot (id r) v` times row `v` of the table. From the embedded rows it forms the 256 contexts (row `r`
  plus row `r + 2`, after `tanh`), the logits against the projection table plus the bias, each column's log-sum-exp, the
  log-probabilities, and — with the extended table, whose column 128 is the bias — the target's logit of each position
  (row `r + 1`'s id is the target), hence the position's loss.
-/
import proofs.«115835_g2070174237271_cont_8to1_761_7_alg».proof.Proof.Gen.KernelIdeal.Skeleton
import proofs.«115835_g2070174237271_cont_8to1_761_7_alg».proof.Proof.LibColumnLayout
import proofs.«115835_g2070174237271_cont_8to1_761_7_alg».proof.Proof.LibPlainMatmul
import proofs.«115835_g2070174237271_cont_8to1_761_7_alg».proof.Proof.LibTransposedMatmul
import proofs.«115835_g2070174237271_cont_8to1_761_7_alg».proof.Proof.LibLastAxisFolds
import proofs.«115835_g2070174237271_cont_8to1_761_7_alg».proof.Proof.LibFirstAxisFolds
import Idealize.ShloMosaic.Lib.ValueLayout
import Idealize.ShloMosaic.Lib.Pipeline.Value

noncomputable section

namespace Cert.KernelIdeal.HandValue

open Cert.KernelIdeal Cert.KernelIdeal.Gen
open Idealize.ShloMosaic Idealize.ShloMosaic.ValueIdx
open scoped BigOperators

/-- The weight a token id gives vocabulary index `v`: one if it is that index, else zero. -/
def hot (w : BitVec 32) (v : Fin 1000) : EReal := if w = BitVec.ofNat 32 v.val then 1 else 0

/-- An equality test widened to a word and read as a signed integer is one or zero. -/
theorem toInt_eq_test (x y : BitVec 32) :
    (((((IntOp.cmpi .eq x y).setWidth 32).toInt : ℤ) : ℝ) : EReal) = if x = y then 1 else 0 := by
  unfold IntOp.cmpi
  by_cases h : x = y
  · subst h; simp
  · have : (x == y) = false := by simpa using h
    simp [this, h]

variable (x0 : Vec Ideal S1x264x1 .i32) (x1 x2 : Vec Ideal S1000x128 .bf16) (x3 : Vec Ideal S1000x136 .bf16)
  (x4 : Vec Ideal S1000x1 .f32)

/-- The comparison matrix at row `r`, column `v`. -/
theorem onehot_apply (r : Fin 264) (v : Fin 1000) :
    k0_pay2 (F := Ideal) x0 (ix2 r v) = hot (x0 (ix3 (0 : Fin 1) r (0 : Fin 1))) v := by
  unfold k0_pay2 hot
  show (((((IntOp.cmpi .eq
      (broadcastTo S264x1000 (shapeCast S264x1 x0 shapeCasts_S1x264x1_S264x1) broadcasts_S264x1_S264x1000 (ix2 r v))
      (iota .tc S264x1000 32 [1] iota_S264x1000_d1_w32 (ix2 r v))).setWidth 32).toInt : ℤ) : ℝ) : EReal) = _
  rw [ColumnLayout.broadcastTo_a1_ab_apply, iota_single_apply, shapeCast_1ab_ab_apply]
  exact toInt_eq_test _ _

/-- The comparison matrix times a table, row `r`, column `c`. -/
theorem gathered_apply {C : ℕ} (T : FVec Ideal ⟨2, ![1000, C]⟩ .bf16)
    (d : DotDims S264x1000 ⟨2, ![1000, C]⟩ ⟨2, ![264, C]⟩)
    (hlc : d.lhsContracting = [1]) (hrc : d.rhsContracting = [0])
    (hln : d.lhsNonContracting = [0]) (hrn : d.rhsNonContracting = [1])
    (hlb : d.lhsBatch = []) (hrb : d.rhsBatch = []) (r : Fin 264) (c : Fin C) :
    matmul d none (k0_pay2 (F := Ideal) x0) T (constant ⟨2, ![264, C]⟩ .f32 0x00000000#32) (ix2 r c)
      = ∑ v : Fin 1000, hot (x0 (ix3 (0 : Fin 1) r (0 : Fin 1))) v * T (ix2 v c) := by
  show FloatOps.matmul d none (k0_pay2 (F := Ideal) x0) T (constant ⟨2, ![264, C]⟩ .f32 0x00000000#32) (ix2 r c) = _
  rw [Cert.Lib.PlainMatmul.matmul_zero_apply d hlc hrc hln hrn hlb hrb]
  exact Finset.sum_congr rfl fun v _ => by rw [onehot_apply]

/-- A plain product with a table of 1000 rows, in the payload's spelling, row `r`, column `c`. -/
theorem plain_apply {R C : ℕ} (L : FVec Ideal ⟨2, ![R, 1000]⟩ .bf16) (T : FVec Ideal ⟨2, ![1000, C]⟩ .bf16)
    (d : DotDims ⟨2, ![R, 1000]⟩ ⟨2, ![1000, C]⟩ ⟨2, ![R, C]⟩)
    (hlc : d.lhsContracting = [1]) (hrc : d.rhsContracting = [0])
    (hln : d.lhsNonContracting = [0]) (hrn : d.rhsNonContracting = [1])
    (hlb : d.lhsBatch = []) (hrb : d.rhsBatch = []) (r : Fin R) (c : Fin C) :
    matmul d none L T (constant ⟨2, ![R, C]⟩ .f32 0x00000000#32) (ix2 r c) = ∑ v : Fin 1000, L (ix2 r v) * T (ix2 v c) := by
  show FloatOps.matmul d none L T (constant ⟨2, ![R, C]⟩ .f32 0x00000000#32) (ix2 r c) = _
  exact Cert.Lib.PlainMatmul.matmul_zero_apply d hlc hrc hln hrn hlb hrb none L T r c

/-- The contexts: row `r` of the embedded window plus row `r + 2`. -/
theorem pay3_apply (r : Fin 256) (c : Fin 128) :
    k0_pay3 (F := Ideal) x0 x1 (ix2 r c)
      = Ideal.tanh (∑ v : Fin 1000, hot (x0 (ix3 (0 : Fin 1) (⟨r.val, by omega⟩ : Fin 264) (0 : Fin 1))) v * x1 (ix2 v c))
        + Ideal.tanh (∑ v : Fin 1000, hot (x0 (ix3 (0 : Fin 1) (⟨r.val + 2, by omega⟩ : Fin 264) (0 : Fin 1))) v * x1 (ix2 v c)) := by
  unfold k0_pay3
  rw [addf_apply]
  rw [slice2_axis0_apply 0 _ _ r c (⟨r.val, by omega⟩ : Fin 264) (by simp),
    slice2_axis0_apply 2 _ _ r c (⟨r.val + 2, by omega⟩ : Fin 264) (by simp; omega)]
  show Ideal.tanh _ + Ideal.tanh _ = _
  rw [shapeCast_self]
  rw [gathered_apply x0 x1 _ rfl rfl rfl rfl rfl rfl, gathered_apply x0 x1 _ rfl rfl rfl rfl rfl rfl]

/-- The logits, vocabulary row `v`, position `r`: the projection row against the context, plus the bias. -/
theorem pay4_apply (v : Fin 1000) (r : Fin 256) :
    k0_pay4 (F := Ideal) x0 x1 x2 x4 (ix2 v r)
      = (∑ c : Fin 128, x2 (ix2 v c) * k0_pay3 (F := Ideal) x0 x1 (ix2 r c)) + x4 (ix2 v (0 : Fin 1)) := by
  unfold k0_pay4
  rw [addf_apply, ColumnLayout.broadcastTo_a1_ab_apply, shapeCast_self, shapeCast_self]
  refine congrArg (· + x4 (ix2 v (0 : Fin 1))) ?_
  exact Cert.Lib.TransposedMatmul.matmul_zero_apply dot_S1000x128_S256x128_S1000x256_1_1_0_0_n_n rfl rfl rfl rfl rfl rfl none x2 _ v r

/-- A position's logits as a row over the vocabulary. -/
def logitRow (r : Fin 256) (v : Fin 1000) : EReal := k0_pay4 (F := Ideal) x0 x1 x2 x4 (ix2 v r)

/-- The log-sum-exp of position `r`'s logits: their maximum plus the log of the sum of the shifted exponentials. -/
theorem pay5_apply (r : Fin 256) :
    k0_pay5 (F := Ideal) x0 x1 x2 x4 (ix2 (0 : Fin 1) r)
      = (Finset.univ : Finset (Fin 1000)).fold max (⊥ : EReal) (logitRow x0 x1 x2 x4 r)
        + Ideal.log (∑ v : Fin 1000, Ideal.exp (logitRow x0 x1 x2 x4 r v
            - (Finset.univ : Finset (Fin 1000)).fold max (⊥ : EReal) (logitRow x0 x1 x2 x4 r))) := by
  unfold k0_pay5
  rw [addf_apply, shapeCast_a_1a_apply, Cert.Lib.FirstAxisFolds.colmax_apply]
  show _ + Ideal.log (shapeCast S1x256 _ shapeCasts_S256_S1x256 (ix2 (0 : Fin 1) r)) = _
  rw [shapeCast_a_1a_apply, Cert.Lib.FirstAxisFolds.colsum_apply]
  refine congrArg (fun z => _ + Ideal.log z) (Finset.sum_congr rfl fun v _ => ?_)
  refine congrArg Ideal.exp ?_
  rw [subf_apply, broadcastTo_1b_ab_apply, shapeCast_a_1a_apply, Cert.Lib.FirstAxisFolds.colmax_apply]
  rfl

/-- The log-probabilities: each logit less its position's log-sum-exp. -/
theorem pay6_apply (v : Fin 1000) (r : Fin 256) :
    k0_pay6 (F := Ideal) x0 x1 x2 x4 (ix2 v r)
      = logitRow x0 x1 x2 x4 r v - k0_pay5 (F := Ideal) x0 x1 x2 x4 (ix2 (0 : Fin 1) r) := by
  unfold k0_pay6
  rw [subf_apply, broadcastTo_1b_ab_apply]
  rfl

/-- The extended table's row of each position's TARGET (the id in row `r + 1` of the window). -/
theorem pay7_apply (r : Fin 256) (c : Fin 136) :
    k0_pay7 (F := Ideal) x0 x3 (ix2 r c)
      = ∑ v : Fin 1000, hot (x0 (ix3 (0 : Fin 1) (⟨r.val + 1, by omega⟩ : Fin 264) (0 : Fin 1))) v * x3 (ix2 v c) := by
  unfold k0_pay7
  rw [shapeCast_self]
  rw [plain_apply _ x3 _ rfl rfl rfl rfl rfl rfl]
  refine Finset.sum_congr rfl fun v _ => ?_
  rw [slice2_axis0_apply 1 _ _ r v (⟨r.val + 1, by omega⟩ : Fin 264) (by simp; omega), onehot_apply]

theorem pay8_apply (r : Fin 256) (c : Fin 128) :
    k0_pay8 (F := Ideal) x0 x3 (ix2 r c) = k0_pay7 (F := Ideal) x0 x3 (ix2 r (⟨c.val, by omega⟩ : Fin 136)) := by
  unfold k0_pay8
  exact slice2_axis1_apply 0 _ _ r c (⟨c.val, by omega⟩ : Fin 136) (by simp)

/-- The loss of position `r`: its log-sum-exp less the target's logit, the latter as the target's projection row
    against the context plus the target's bias (column 128 of the extended table). -/
theorem pay1_apply (v14 : FVec Ideal S256x128 .f32) (v31 : FVec Ideal S1x256 .f32) (v38 : FVec Ideal S256x136 .f32)
    (v39 : FVec Ideal S256x128 .f32) (r : Fin 256) :
    k0_pay1 (F := Ideal) v14 v31 v38 v39 (ix2 (0 : Fin 1) r)
      = v31 (ix2 (0 : Fin 1) r)
        - ((∑ c : Fin 128, v39 (ix2 r c) * v14 (ix2 r c)) + v38 (ix2 r (⟨128, by omega⟩ : Fin 136))) := by
  unfold k0_pay1
  rw [subf_apply, Cert.Lib.LastAxisFolds.shapeCast_a1_1a_apply, addf_apply, ColumnLayout.shapeCast_a_a1_apply,
    Cert.Lib.LastAxisFolds.rowsum_apply, slice2_axis1_apply 128 _ _ r (0 : Fin 1) (⟨128, by omega⟩ : Fin 136) (by simp)]
  rfl

end Cert.KernelIdeal.HandValue

end
-- ==== Proof.Spec.lean ====
/-
  The function both programs compute, stated once over the argument arrays at the extended reals.

  A sentence of 16384 token ids in a vocabulary of 1000; an embedding table `E` and a projection table `W`,
  both [1000, 128]; a bias `b` [1000]. Position `j` of the 16382 interior positions sees the context
  `tanh E[tok j] + tanh E[tok (j+2)]`, projects it on every vocabulary row, adds the bias, and takes the
  log-softmax of that row of 1000 logits. The loss is the mean over positions of the negative log-probability
  of the middle token `tok (j+1)`.

  Two spellings of the row's normalisation are defined: `x - (M + log S)` (the log-sum-exp subtracted once) and
  `(x - M) - log S` taken twice in succession (a log-softmax of a log-softmax); they agree on finite rows, which is
  the algebra this certificate rests on.
-/
import Idealize.ShloMosaic.PureOps.Ideal
import Idealize.ShloMosaic.Lib.ValueIdx

noncomputable section

namespace Cert.Cbow

open Idealize.ShloMosaic Idealize.ShloMosaic.ValueIdx
open scoped BigOperators

/-- The arrays: token ids, the embedding table, the projection table, the bias. -/
abbrev Ids := (⟨1, ![16384]⟩ : Shape).Idx → BitVec 32
abbrev Table := (⟨2, ![1000, 128]⟩ : Shape).Idx → EReal
abbrev Bias := (⟨1, ![1000]⟩ : Shape).Idx → EReal

/-- Every token id is a vocabulary index: as a signed word it lies in [0, 1000). -/
def InVocab (s : Ids) : Prop := ∀ i : Fin 16384, (s (ix1 i)).toNat < 1000

/-- Every entry of a table (of a bias) is a real number. -/
def FiniteT (W : Table) : Prop := ∀ i, W i ≠ ⊤ ∧ W i ≠ ⊥
def FiniteB (b : Bias) : Prop := ∀ i, b i ≠ ⊤ ∧ b i ≠ ⊥

/-- The token at position `i`, as a vocabulary index (the id itself when it is one). -/
def tok (s : Ids) (i : Fin 16384) : Fin 1000 := ⟨(s (ix1 i)).toNat % 1000, Nat.mod_lt _ (by norm_num)⟩

/-- The embedded token: `tanh` of its row of `E`. -/
def emb (s : Ids) (E : Table) (i : Fin 16384) (d : Fin 128) : EReal := Ideal.tanh (E (ix2 (tok s i) d))

/-- The context of interior position `j`: the embeddings of its two neighbours, added. -/
def ctx (s : Ids) (E : Table) (j : Fin 16382) (d : Fin 128) : EReal :=
  emb s E ⟨j.val, by omega⟩ d + emb s E ⟨j.val + 2, by omega⟩ d

/-- The logit of vocabulary row `v` at position `j`. -/
def logit (s : Ids) (E W : Table) (b : Bias) (j : Fin 16382) (v : Fin 1000) : EReal :=
  (∑ d : Fin 128, ctx s E j d * W (ix2 v d)) + b (ix1 v)

/-- A row's maximum (from -∞) and the sum of its exponentials shifted by a given amount. -/
def rowMax (x : Fin 1000 → EReal) : EReal := (Finset.univ : Finset (Fin 1000)).fold max ⊥ x
def rowSum (x : Fin 1000 → EReal) (M : EReal) : EReal := ∑ v : Fin 1000, Ideal.exp (x v - M)

/-- Log-softmax of a row, the log-sum-exp subtracted once: `x - (M + log S)`. -/
def lse (x : Fin 1000 → EReal) : EReal := rowMax x + Ideal.log (rowSum x (rowMax x))
def logSoftmax₁ (x : Fin 1000 → EReal) (v : Fin 1000) : EReal := x v - lse x

/-- Log-softmax of a row, shifted then normalised: `(x - M) - log S`. -/
def logSoftmax₂ (x : Fin 1000 → EReal) (v : Fin 1000) : EReal := (x v - rowMax x) - Ideal.log (rowSum x (rowMax x))

/-- The middle token of interior position `j`. -/
def target (s : Ids) (j : Fin 16382) : Fin 1000 := tok s ⟨j.val + 1, by omega⟩

/-- The log-probabilities, in either spelling. -/
def logp₁ (s : Ids) (E W : Table) (b : Bias) (j : Fin 16382) (v : Fin 1000) : EReal := logSoftmax₁ (logit s E W b j) v
def logp₂ (s : Ids) (E W : Table) (b : Bias) (j : Fin 16382) (v : Fin 1000) : EReal := logSoftmax₂ (logit s E W b j) v

/-- The negative log-likelihood of the middle token: the log-sum-exp less the target's logit; or the negated
    target entry of the log-softmax applied twice. -/
def nll₁ (s : Ids) (E W : Table) (b : Bias) (j : Fin 16382) : EReal :=
  lse (logit s E W b j) - logit s E W b j (target s j)
def nll₂ (s : Ids) (E W : Table) (b : Bias) (j : Fin 16382) : EReal :=
  -(logSoftmax₂ (logSoftmax₂ (logit s E W b j)) (target s j))

/-- The mean over the 16382 positions, as the initial zero plus the sum, divided by the count. -/
def mean (x : Fin 16382 → EReal) (zero count : EReal) : EReal := Ideal.div (zero + ∑ j : Fin 16382, x j) count

end Cert.Cbow

end
-- ==== Proof.RowAlgebra.lean ====
/-
  The row algebra of the log-softmax on the extended reals.

  A row of 1000 real numbers `x` has a real maximum `M` and a positive real sum `S = ∑ exp (x v - M)`, so
  `log S` is a real and `x v - (M + log S) = (x v - M) - log S`: the two spellings of the log-softmax agree.
  For `p = (x - M) - log S` the maximum is `-log S`, `p v - max p = x v - M`, the shifted exponentials sum to `S`
  again, and the log-softmax of `p` is `p`. Everything is proved on real rows and carried to the extended reals by
  the coercion, which commutes with every operation involved as long as no infinity occurs. The logits are real
  because `tanh` of any extended real is real and the tables are real.
-/
import proofs.«115835_g2070174237271_cont_8to1_761_7_alg».proof.Proof.Spec

noncomputable section

namespace Cert.Cbow

open Idealize.ShloMosaic Idealize.ShloMosaic.ValueIdx
open scoped BigOperators

/-! ### Real numbers inside the extended reals -/

/-- An extended real that is neither infinity is a real number. -/
theorem exists_coe {x : EReal} (h : x ≠ ⊤ ∧ x ≠ ⊥) : ∃ r : ℝ, x = (r : EReal) :=
  ⟨x.toReal, (EReal.coe_toReal h.1 h.2).symm⟩

theorem coe_finite (r : ℝ) : (r : EReal) ≠ ⊤ ∧ (r : EReal) ≠ ⊥ :=
  ⟨EReal.coe_ne_top r, EReal.coe_ne_bot r⟩

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A one-hot weighted sum picks its entry. -/
theorem sum_onehot_mul {n : Nat} (t : Fin n) (f : Fin n → EReal) :
    ∑ v : Fin n, (if v = t then (1 : EReal) else 0) * f v = f t := by
  rw [Finset.sum_eq_single t]
  · rw [if_pos rfl, one_mul]
  · intro v _ hv
    rw [if_neg hv, zero_mul]
  · intro h
    exact absurd (Finset.mem_univ t) h

/-! ### The logits are real -/

/-- `tanh` of any extended real is a real number: `tanh ⊤ = 1`, `tanh ⊥ = -1`. -/
theorem tanh_finite (x : EReal) : Ideal.tanh x ≠ ⊤ ∧ Ideal.tanh x ≠ ⊥ := by
  induction x using EReal.rec with
  | bot =>
    rw [Ideal.tanh_bot, ← EReal.coe_one, ← EReal.coe_neg]
    exact coe_finite _
  | coe r =>
    rw [Ideal.tanh_coe]
    exact coe_finite _
  | top =>
    rw [Ideal.tanh_top, ← EReal.coe_one]
    exact coe_finite _

theorem emb_finite (s : Ids) (E : Table) (i : Fin 16384) (d : Fin 128) :
    emb s E i d ≠ ⊤ ∧ emb s E i d ≠ ⊥ :=
  tanh_finite _

theorem logit_finite (s : Ids) (E W : Table) (b : Bias) (hW : FiniteT W) (hb : FiniteB b)
    (j : Fin 16382) (v : Fin 1000) : logit s E W b j v ≠ ⊤ ∧ logit s E W b j v ≠ ⊥ := by
  have hc : ∀ d, ∃ c : ℝ, ctx s E j d = (c : EReal) := by
    intro d
    obtain ⟨a, ha⟩ := exists_coe (emb_finite s E ⟨j.val, by omega⟩ d)
    obtain ⟨a', ha'⟩ := exists_coe (emb_finite s E ⟨j.val + 2, by omega⟩ d)
    refine ⟨a + a', ?_⟩
    unfold ctx
    rw [ha, ha', EReal.coe_add]
  choose c hc using hc
  have hw : ∀ d, ∃ w : ℝ, W (ix2 v d) = (w : EReal) := fun d => exists_coe (hW _)
  choose w hw using hw
  obtain ⟨β, hβ⟩ := exists_coe (hb (ix1 v))
  have h : logit s E W b j v = ((∑ d, c d * w d + β : ℝ) : EReal) := by
    unfold logit
    rw [hβ, EReal.coe_add, coe_sum]
    refine congrArg (· + (β : EReal)) ?_
    refine Finset.sum_congr rfl fun d _ => ?_
    rw [hc, hw, EReal.coe_mul]
  rw [h]
  exact coe_finite _

/-! ### Rows of real numbers -/

section RealRow

variable {ι : Type*} [Fintype ι] [Nonempty ι]

/-- The maximum of a nonempty finite row of reals. -/
def rmax (r : ι → ℝ) : ℝ := Finset.univ.sup' Finset.univ_nonempty r

/-- The sum of the exponentials of a row shifted by `M`. -/
def rsum (r : ι → ℝ) (M : ℝ) : ℝ := ∑ v, Real.exp (r v - M)

/-- The log-softmax of a row of reals. -/
def rls (r : ι → ℝ) (v : ι) : ℝ := (r v - rmax r) - Real.log (rsum r (rmax r))

theorem rsum_pos (r : ι → ℝ) (M : ℝ) : 0 < rsum r M :=
  Finset.sum_pos (fun _ _ => Real.exp_pos _) Finset.univ_nonempty

/-- Shifting a row shifts its maximum. -/
theorem rmax_sub (r : ι → ℝ) (c : ℝ) : rmax (fun v => r v - c) = rmax r - c := by
  unfold rmax
  apply le_antisymm
  · exact Finset.sup'_le _ _ fun v hv => sub_le_sub_right (Finset.le_sup' r hv) c
  · obtain ⟨v0, hv0, h0⟩ := Finset.exists_mem_eq_sup' (Finset.univ_nonempty (α := ι)) r
    rw [h0]
    exact Finset.le_sup' (fun v => r v - c) hv0

/-- The maximum of a log-softmax row is minus the logarithm of the sum. -/
theorem rmax_rls (r : ι → ℝ) : rmax (rls r) = -Real.log (rsum r (rmax r)) := by
  have h : rls r = fun v => r v - (rmax r + Real.log (rsum r (rmax r))) := by
    funext v
    unfold rls
    ring
  rw [h, rmax_sub]
  ring

/-- The shifted exponentials of a log-softmax row sum to the same number as those of the row. -/
theorem rsum_rls (r : ι → ℝ) : rsum (rls r) (rmax (rls r)) = rsum r (rmax r) := by
  rw [rmax_rls]
  show ∑ v, Real.exp (rls r v - -Real.log (rsum r (rmax r))) = ∑ v, Real.exp (r v - rmax r)
  refine Finset.sum_congr rfl fun v _ => ?_
  refine congrArg Real.exp ?_
  unfold rls
  ring

/-- The log-softmax of a log-softmax row is that row. -/
theorem rls_idem (r : ι → ℝ) (v : ι) : rls (rls r) v = rls r v := by
  show (rls r v - rmax (rls r)) - Real.log (rsum (rls r) (rmax (rls r))) = rls r v
  rw [rsum_rls, rmax_rls]
  ring

/-- The running maximum from `⊥` of a nonempty finite row of reals is the real maximum. -/
theorem fold_max_coe (r : ι → ℝ) :
    (Finset.univ : Finset ι).fold max ⊥ (fun v => (r v : EReal)) = (rmax r : EReal) := by
  unfold rmax
  apply le_antisymm
  · rw [Finset.fold_max_le]
    exact ⟨bot_le, fun v hv => EReal.coe_le_coe_iff.2 (Finset.le_sup' r hv)⟩
  · obtain ⟨v0, hv0, h0⟩ := Finset.exists_mem_eq_sup' (Finset.univ_nonempty (α := ι)) r
    rw [h0, Finset.le_fold_max]
    exact Or.inr ⟨v0, hv0, le_rfl⟩

end RealRow

/-! ### The row operations on a row of reals -/

theorem rowMax_coe (r : Fin 1000 → ℝ) : rowMax (fun v => (r v : EReal)) = (rmax r : EReal) :=
  fold_max_coe r

theorem rowSum_coe (r : Fin 1000 → ℝ) (M : ℝ) :
    rowSum (fun v => (r v : EReal)) (M : EReal) = (rsum r M : EReal) := by
  unfold rowSum rsum
  rw [coe_sum]
  refine Finset.sum_congr rfl fun v _ => ?_
  rw [← EReal.coe_sub, Ideal.exp_coe]

/-- The logarithm of a positive real. -/
theorem log_coe_pos {S : ℝ} (hS : 0 < S) : Ideal.log (S : EReal) = (Real.log S : EReal) := by
  rw [Ideal.log_coe, if_neg (not_le.2 hS)]

theorem lse_coe (r : Fin 1000 → ℝ) :
    lse (fun v => (r v : EReal)) = ((rmax r + Real.log (rsum r (rmax r)) : ℝ) : EReal) := by
  unfold lse
  rw [rowMax_coe, rowSum_coe, log_coe_pos (rsum_pos _ _), EReal.coe_add]

theorem logSoftmax₁_coe (r : Fin 1000 → ℝ) (v : Fin 1000) :
    logSoftmax₁ (fun v => (r v : EReal)) v = (rls r v : EReal) := by
  unfold logSoftmax₁
  rw [lse_coe]
  show (r v : EReal) - _ = _
  rw [← EReal.coe_sub]
  refine congrArg _ ?_
  unfold rls
  ring

theorem logSoftmax₂_coe (r : Fin 1000 → ℝ) (v : Fin 1000) :
    logSoftmax₂ (fun v => (r v : EReal)) v = (rls r v : EReal) := by
  unfold logSoftmax₂
  rw [rowMax_coe, rowSum_coe, log_coe_pos (rsum_pos _ _)]
  show ((r v : EReal) - _) - _ = _
  rw [← EReal.coe_sub, ← EReal.coe_sub]
  rfl

/-- A row without infinities is a row of reals. -/
theorem row_lift (x : Fin 1000 → EReal) (hx : ∀ v, x v ≠ ⊤ ∧ x v ≠ ⊥) :
    ∃ r : Fin 1000 → ℝ, x = fun v => (r v : EReal) :=
  ⟨fun v => (x v).toReal, funext fun v => (EReal.coe_toReal (hx v).1 (hx v).2).symm⟩

/-! ### The statements -/

theorem logSoftmax₁_eq_logSoftmax₂ (x : Fin 1000 → EReal) (hx : ∀ v, x v ≠ ⊤ ∧ x v ≠ ⊥) (v : Fin 1000) :
    logSoftmax₁ x v = logSoftmax₂ x v := by
  obtain ⟨r, rfl⟩ := row_lift x hx
  rw [logSoftmax₁_coe, logSoftmax₂_coe]

theorem logSoftmax₂_finite (x : Fin 1000 → EReal) (hx : ∀ v, x v ≠ ⊤ ∧ x v ≠ ⊥) (v : Fin 1000) :
    logSoftmax₂ x v ≠ ⊤ ∧ logSoftmax₂ x v ≠ ⊥ := by
  obtain ⟨r, rfl⟩ := row_lift x hx
  rw [logSoftmax₂_coe]
  exact coe_finite _

theorem logSoftmax₂_idem (x : Fin 1000 → EReal) (hx : ∀ v, x v ≠ ⊤ ∧ x v ≠ ⊥) (v : Fin 1000) :
    logSoftmax₂ (logSoftmax₂ x) v = logSoftmax₂ x v := by
  obtain ⟨r, rfl⟩ := row_lift x hx
  have h : logSoftmax₂ (fun v => (r v : EReal)) = fun v => (rls r v : EReal) :=
    funext (logSoftmax₂_coe r)
  rw [h, logSoftmax₂_coe, rls_idem]

theorem logp₁_eq_logp₂ (s : Ids) (E W : Table) (b : Bias) (hW : FiniteT W) (hb : FiniteB b)
    (j : Fin 16382) (v : Fin 1000) : logp₁ s E W b j v = logp₂ s E W b j v :=
  logSoftmax₁_eq_logSoftmax₂ _ (logit_finite s E W b hW hb j) v

theorem nll₁_eq_nll₂ (s : Ids) (E W : Table) (b : Bias) (hW : FiniteT W) (hb : FiniteB b)
    (j : Fin 16382) : nll₁ s E W b j = nll₂ s E W b j := by
  obtain ⟨r, hr⟩ := row_lift (logit s E W b j) (logit_finite s E W b hW hb j)
  unfold nll₁ nll₂
  rw [logSoftmax₂_idem _ (logit_finite s E W b hW hb j), hr, lse_coe, logSoftmax₂_coe]
  show _ - (r (target s j) : EReal) = _
  rw [← EReal.coe_sub, ← EReal.coe_neg]
  refine congrArg _ ?_
  unfold rls
  ring

end Cert.Cbow

end
-- ==== Proof.IdealPosition.lean ====
/-
  One grid point's blocks against the specification.

  At grid point `t` the window of ids holds the sentence's ids from position `256 t` on, and the other blocks hold the
  whole tables and the bias. Position `r` of the point is interior position `j = 256 t + r` of the sentence: rows
  `r`, `r + 1`, `r + 2` of the window are the ids at `j`, `j + 1`, `j + 2`. An id in the vocabulary selects exactly its row
  of a table from the comparison matrix, so the body's contexts, logits, log-sum-exp, log-probabilities and loss at
  `r` are the specification's at `j` (the log-probabilities in the spelling that subtracts the log-sum-exp once).
-/
import proofs.«115835_g2070174237271_cont_8to1_761_7_alg».proof.Proof.IdealPayload
import proofs.«115835_g2070174237271_cont_8to1_761_7_alg».proof.Proof.RowAlgebra

noncomputable section

namespace Cert.KernelIdeal.HandValue

open Cert.KernelIdeal Cert.KernelIdeal.Gen Cert.Cbow
open Idealize.ShloMosaic Idealize.ShloMosaic.ValueIdx
open scoped BigOperators

/-- An id that is a vocabulary index picks its own row out of a sum weighted by `hot`. -/
theorem sum_hot (w : BitVec 32) (hw : w.toNat < 1000) (f : Fin 1000 → EReal) :
    ∑ v : Fin 1000, hot w v * f v = f ⟨w.toNat, hw⟩ := by
  have hh : ∀ v : Fin 1000, hot w v = if v = ⟨w.toNat, hw⟩ then (1 : EReal) else 0 := fun v => by
    unfold hot
    by_cases h : w = BitVec.ofNat 32 v.val
    · rw [if_pos h, if_pos]
      apply Fin.ext
      show v.val = w.toNat
      rw [h, BitVec.toNat_ofNat]
      have := v.isLt
      omega
    · rw [if_neg h, if_neg]
      intro hv
      apply h
      rw [hv]
      show w = BitVec.ofNat 32 w.toNat
      simp
  simp only [hh]
  exact sum_onehot_mul _ f

variable (s : Cert.Cbow.Ids) (E W : Cert.Cbow.Table) (b : Cert.Cbow.Bias) (hs : InVocab s)

include hs in
/-- In the vocabulary, the token at a position is the id itself. -/
theorem tok_eq (i : Fin 16384) : tok s i = ⟨(s (ix1 i)).toNat, hs i⟩ :=
  Fin.ext (Nat.mod_eq_of_lt (hs i))

variable (x0 : Vec Ideal S1x264x1 .i32) (x1 x2 : Vec Ideal S1000x128 .bf16) (x3 : Vec Ideal S1000x136 .bf16)
  (x4 : Vec Ideal S1000x1 .f32) (t : ℕ)
  (hx0 : ∀ (q : Fin 264) (h : 256 * t + q.val < 16384), x0 (ix3 (0 : Fin 1) q (0 : Fin 1)) = s (ix1 ⟨256 * t + q.val, h⟩))
  (hx1 : x1 = E) (hx2 : x2 = W)
  (hx3p : ∀ (v : Fin 1000) (k : Fin 128), x3 (ix2 v (⟨k.val, by omega⟩ : Fin 136)) = W (ix2 v k))
  (hx3b : ∀ v : Fin 1000, x3 (ix2 v (⟨128, by omega⟩ : Fin 136)) = b (ix1 v))
  (hx4 : ∀ v : Fin 1000, x4 (ix2 v (0 : Fin 1)) = b (ix1 v))

include hs hx0 in
/-- Row `q` of the comparison matrix against a table is the table's row of the token at position `256 t + q`. -/
theorem window_row (q : Fin 264) (h : 256 * t + q.val < 16384) (f : Fin 1000 → EReal) :
    ∑ v : Fin 1000, hot (x0 (ix3 (0 : Fin 1) q (0 : Fin 1))) v * f v = f (tok s ⟨256 * t + q.val, h⟩) := by
  rw [hx0 q h, sum_hot _ (hs _), tok_eq s hs]

include hs hx0 hx1 in
theorem ctx_of_window (r : Fin 256) (hj : 256 * t + r.val < 16382) (c : Fin 128) :
    k0_pay3 (F := Ideal) x0 x1 (ix2 r c) = ctx s E ⟨256 * t + r.val, hj⟩ c := by
  rw [pay3_apply, window_row s hs x0 t hx0 ⟨r.val, by omega⟩ (by show 256 * t + r.val < 16384; omega) (fun v => x1 (ix2 v c)),
    window_row s hs x0 t hx0 ⟨r.val + 2, by omega⟩ (by show 256 * t + (r.val + 2) < 16384; omega) (fun v => x1 (ix2 v c)), hx1]
  rfl

include hs hx0 hx1 hx2 hx4 in
theorem logit_of_window (r : Fin 256) (hj : 256 * t + r.val < 16382) (v : Fin 1000) :
    logitRow x0 x1 x2 x4 r v = logit s E W b ⟨256 * t + r.val, hj⟩ v := by
  unfold logitRow logit
  rw [pay4_apply, hx4, hx2]
  refine congrArg (· + b (ix1 v)) (Finset.sum_congr rfl fun c _ => ?_)
  rw [ctx_of_window s E hs x0 x1 t hx0 hx1 r hj c, mul_comm]

include hs hx0 hx1 hx2 hx4 in
theorem lse_of_window (r : Fin 256) (hj : 256 * t + r.val < 16382) :
    k0_pay5 (F := Ideal) x0 x1 x2 x4 (ix2 (0 : Fin 1) r) = lse (logit s E W b ⟨256 * t + r.val, hj⟩) := by
  rw [pay5_apply, show logitRow x0 x1 x2 x4 r = logit s E W b ⟨256 * t + r.val, hj⟩ from
    funext (logit_of_window s E W b hs x0 x1 x2 x4 t hx0 hx1 hx2 hx4 r hj)]
  rfl

include hs hx0 hx1 hx2 hx4 in
/-- The stored log-probability at vocabulary row `v`, position `r`. -/
theorem pred_of_window (r : Fin 256) (hj : 256 * t + r.val < 16382) (v : Fin 1000) :
    k0_pay6 (F := Ideal) x0 x1 x2 x4 (ix2 v r) = logp₁ s E W b ⟨256 * t + r.val, hj⟩ v := by
  rw [pay6_apply, lse_of_window s E W b hs x0 x1 x2 x4 t hx0 hx1 hx2 hx4 r hj,
    logit_of_window s E W b hs x0 x1 x2 x4 t hx0 hx1 hx2 hx4 r hj v]
  rfl

include hs hx0 hx1 hx2 hx3p hx3b hx4 in
/-- The stored loss at position `r`. -/
theorem nll_of_window (r : Fin 256) (hj : 256 * t + r.val < 16382) :
    k0_pay1 (F := Ideal) (k0_pay3 x0 x1) (k0_pay5 x0 x1 x2 x4) (k0_pay7 x0 x3) (k0_pay8 x0 x3) (ix2 (0 : Fin 1) r)
      = nll₁ s E W b ⟨256 * t + r.val, hj⟩ := by
  rw [pay1_apply, lse_of_window s E W b hs x0 x1 x2 x4 t hx0 hx1 hx2 hx4 r hj]
  unfold nll₁ logit
  have hrow : ∀ c : Fin 136, k0_pay7 (F := Ideal) x0 x3 (ix2 r c)
      = x3 (ix2 (target s ⟨256 * t + r.val, hj⟩) c) := fun c => by
    rw [pay7_apply, window_row s hs x0 t hx0 ⟨r.val + 1, by omega⟩ (by show 256 * t + (r.val + 1) < 16384; omega) (fun v => x3 (ix2 v c))]
    rfl
  refine congrArg (lse _ - ·) ?_
  rw [hrow, hx3b]
  refine congrArg (· + b (ix1 _)) (Finset.sum_congr rfl fun c _ => ?_)
  rw [pay8_apply, hrow, hx3p, ctx_of_window s E hs x0 x1 t hx0 hx1 r hj c, mul_comm]

end Cert.KernelIdeal.HandValue

end
-- ==== Proof.IdealHost.lean ====
/-
  The host operations around the region, read as functions of the argument arrays and of the region's results.

  Before the region: the two tables are narrowed, which at the extended reals changes nothing; the bias is laid down a
  column, so its entry (v, 0) is the bias at v; the extended projection table is the projection table with the bias as
  column 128 (and seven zero columns after it); and the 64 windows of 264 token ids overlap: window t holds ids
  256 t … 256 t + 263, its first 256 the sentence cut in rows of 256 and its last 8 the first 8 of the next row, taken
  from the sentence shifted left by 256 and padded with 256 zeros (a position past the sentence's end reads a zero).

  After the region: the block of log-probabilities is transposed, the row of losses is summed from zero and divided by
  the count, and the targets are the sentence from position 1 on.
-/
import proofs.«115835_g2070174237271_cont_8to1_761_7_alg».proof.Proof.IdealRun
import Idealize.ShloMosaic.Lib.StableHlo.Run
import Idealize.ShloMosaic.Lib.ValueLayout
import Idealize.ShloMosaic.Lib.Pipeline.Value

set_option maxRecDepth 16384

noncomputable section

namespace Cert.KernelIdeal.HandHost

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ) (c : Dev nD)

/-- The results of a line of operations, one rewrite per operation and reference (the line already unfolded). -/
macro "results_steps" : tactic =>
  `(tactic| (repeat (first
      | rw [StableHlo.nullary_result] | rw [StableHlo.unary_result] | rw [StableHlo.binary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide))))
/-! ## Before the region -/

/-- An operation of three operands leaves its function's value, each operand read at its own reference. -/
theorem nary3_result {τ' : Topo} {sg : RefSig} {Val : EltTy → Type} {x a b y : Ref sg .tc}
    (f : ((k : Fin 3) → ((![x, a, b] : Fin 3 → Ref sg .tc) k).ty.Contents Val) → y.ty.Contents Val) (hxs hy)
    (F : Valuation τ' sg Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem V_bias_eq : (V m c main_v10 : S1000x1.Idx → EReal)
    = shapeCast S1000x1 (m ((c : Thread nD τ).loc main_arg3) : S1000.Idx → EReal) shapeCasts_S1000_S1000x1 := by
  show StableHlo.after hostOps0 (fun b => m (c, b)) (Proc.devRef .tc main_v10) = _
  after_results
  rfl

theorem V_bias (v : Fin 1000) : V m c main_v10 (ix2 v (0 : Fin 1)) = m ((c : Thread nD τ).loc main_arg3) (ix1 v) := by
  rw [V_bias_eq]
  have hk : (S1000.rowMajor (ix1 v)).val = (S1000x1.rowMajor (ix2 v (0 : Fin 1))).val := by
    rw [Shape.rowMajor_val_two, Shape.rowMajor_val_one]
    show v.val = v.val * 1 + 0
    omega
  exact shapeCast_apply (s := S1000) (t := S1000x1) _ _ _ _ hk

theorem V_ext_eq : (V m c main_v13 : S1000x136.Idx → EReal)
    = concatenate S1000x136 1 [⟨S1000x128, (m ((c : Thread nD τ).loc main_arg2) : S1000x128.Idx → EReal)⟩,
        ⟨S1000x1, shapeCast S1000x1 (m ((c : Thread nD τ).loc main_arg3) : S1000.Idx → EReal) shapeCasts_S1000_S1000x1⟩,
        ⟨S1000x7, broadcastInDim S1000x7 ![] bcast_S_S1000x7 (constant (F := Ideal) S_ .bf16 0x0000#16)⟩]
        concatenates_S1000x128_S1000x1_S1000x7_S1000x136_d1 := by
  show StableHlo.after hostOps0 (fun b => m (c, b)) (Proc.devRef .tc main_v13) = _
  simp only [StableHlo.after_cons, StableHlo.after_nil]
  rw [nary3_result]
  results_steps
  rfl

theorem V_emb : V m c main_v8 = m ((c : Thread nD τ).loc main_arg1) := by
  show StableHlo.after hostOps0 (fun b => m (c, b)) (Proc.devRef .tc main_v8) = _
  after_results
  rfl

theorem V_proj : V m c main_v9 = m ((c : Thread nD τ).loc main_arg2) := by
  show StableHlo.after hostOps0 (fun b => m (c, b)) (Proc.devRef .tc main_v9) = _
  after_results
  rfl

theorem V_ext_proj (v : Fin 1000) (k : Fin 128) :
    V m c main_v13 (ix2 v (⟨k.val, by omega⟩ : Fin 136)) = m ((c : Thread nD τ).loc main_arg2) (ix2 v k) := by
  rw [V_ext_eq]
  refine concatenate_apply_piece (t := S1000x136) (1 : Fin 2) _ _ _ 0 ?_ S1000x128 _ ?_ rfl 0 ?_ (ix2 v k) (fun b hb => ?_) ?_
  · show (0 : ℕ) < 3
    omega
  · rfl
  · rfl
  · match b with
    | ⟨0, _⟩ => rfl
    | ⟨1, _⟩ => exact absurd rfl hb
  · show 0 + k.val = k.val
    omega

theorem V_ext_bias (v : Fin 1000) :
    V m c main_v13 (ix2 v (⟨128, by omega⟩ : Fin 136)) = m ((c : Thread nD τ).loc main_arg3) (ix1 v) := by
  rw [V_ext_eq]
  refine (concatenate_apply_piece (t := S1000x136) (1 : Fin 2) _ _ _ 1 ?_ S1000x1
    (shapeCast S1000x1 (m ((c : Thread nD τ).loc main_arg3) : S1000.Idx → EReal) shapeCasts_S1000_S1000x1) ?_ rfl 128 ?_
    (ix2 v (0 : Fin 1)) (fun b hb => ?_) ?_).trans ?_
  · show (1 : ℕ) < 3
    omega
  · rfl
  · rfl
  · match b with
    | ⟨0, _⟩ => rfl
    | ⟨1, _⟩ => exact absurd rfl hb
  · show 128 + 0 = 128
    rfl
  · have hk : (S1000.rowMajor (ix1 v)).val = (S1000x1.rowMajor (ix2 v (0 : Fin 1))).val := by
      rw [Shape.rowMajor_val_two, Shape.rowMajor_val_one]
      show v.val = v.val * 1 + 0
      omega
    exact shapeCast_apply (s := S1000) (t := S1000x1) _ _ _ _ hk

theorem V_ids_eq : (V m c main_v7 : S64x264x1.Idx → BitVec 32)
    = shapeCast S64x264x1 (concatenate S64x264 1
        [⟨S64x256, shapeCast S64x256 (m ((c : Thread nD τ).loc main_arg0) : S16384.Idx → BitVec 32) shapeCasts_S16384_S64x256⟩,
         ⟨S64x8, extractStridedSlice S64x8 ![0, 0] (shapeCast S64x256 (concatenate S16384 0
            [⟨S16128, extractStridedSlice S16128 ![256] (m ((c : Thread nD τ).loc main_arg0) : S16384.Idx → BitVec 32) slices_S16384_S16128_256⟩,
             ⟨S256, broadcastInDim S256 ![] bcast_S_S256 (constantI S_ 32 0#32)⟩] concatenates_S16128_S256_S16384_d0)
            shapeCasts_S16384_S64x256) slices_S64x256_S64x8_0_0⟩] concatenates_S64x256_S64x8_S64x264_d1)
        shapeCasts_S64x264_S64x264x1 := by
  show StableHlo.after hostOps0 (fun b => m (c, b)) (Proc.devRef .tc main_v7) = _
  after_results
  rfl

theorem V_ids (t : Fin 64) (q : Fin 264) (h : 256 * t.val + q.val < 16384) :
    V m c main_v7 (ix3 t q (0 : Fin 1)) = m ((c : Thread nD τ).loc main_arg0) (ix1 ⟨256 * t.val + q.val, h⟩) := by
  rw [V_ids_eq]
  have h1 : (S64x264.rowMajor (ix2 t q)).val = (S64x264x1.rowMajor (ix3 t q (0 : Fin 1))).val := by
    rw [Shape.rowMajor_val_two, Shape.rowMajor_val_three]
    show t.val * 264 + q.val = (t.val * 264 + q.val) * 1 + 0
    omega
  refine (shapeCast_apply (s := S64x264) (t := S64x264x1) _ _ _ (ix2 t q) h1).trans ?_
  by_cases hq : q.val < 256
  · -- the window's first 256 ids: the sentence cut in rows of 256
    refine (concatenate_pair_apply_left (t := S64x264) (s₁ := S64x256) (s₂ := S64x8) (1 : Fin 2) _ _ _ (ix2 t q) rfl (ix2 t (⟨q.val, hq⟩ : Fin 256)) (fun b => ?_)).trans ?_
    · match b with
      | ⟨0, _⟩ => rfl
      | ⟨1, _⟩ => rfl
    · have h2 : (S16384.rowMajor (ix1 (⟨256 * t.val + q.val, h⟩ : Fin 16384))).val
          = (S64x256.rowMajor (ix2 t (⟨q.val, hq⟩ : Fin 256))).val := by
        rw [Shape.rowMajor_val_two, Shape.rowMajor_val_one]
        show 256 * t.val + q.val = t.val * 256 + q.val
        omega
      exact shapeCast_apply (s := S16384) (t := S64x256) _ _ _ _ h2
  · -- its last 8: the first 8 of the next row, read off the sentence shifted by 256
    have hq8 : q.val - 256 < 8 := by have := q.isLt; omega
    have hq256 : q.val - 256 < 256 := by omega
    have hlt : 256 * t.val + q.val - 256 < 16384 := by omega
    have hlt' : 256 * t.val + q.val - 256 < 16128 := by omega
    refine (concatenate_pair_apply_right (t := S64x264) (s₁ := S64x256) (s₂ := S64x8) (1 : Fin 2) _ _ _ (ix2 t q) rfl rfl (ix2 t (⟨q.val - 256, hq8⟩ : Fin 8)) (fun b hb => ?_) ?_).trans ?_
    · match b with
      | ⟨0, _⟩ => rfl
      | ⟨1, _⟩ => exact absurd rfl hb
    · show (q.val - 256) + 256 = q.val
      omega
    refine (slice2_axis1_apply 0 _ _ t (⟨q.val - 256, hq8⟩ : Fin 8) (⟨q.val - 256, hq256⟩ : Fin 256) (by show q.val - 256 = 0 + (q.val - 256); omega)).trans ?_
    have h3 : (S16384.rowMajor (ix1 (⟨256 * t.val + q.val - 256, hlt⟩ : Fin 16384))).val
        = (S64x256.rowMajor (ix2 t (⟨q.val - 256, hq256⟩ : Fin 256))).val := by
      rw [Shape.rowMajor_val_two, Shape.rowMajor_val_one]
      show 256 * t.val + q.val - 256 = t.val * 256 + (q.val - 256)
      omega
    refine (shapeCast_apply (s := S16384) (t := S64x256) _ _ _ _ h3).trans ?_
    refine (concatenate_pair_apply_left (t := S16384) (s₁ := S16128) (s₂ := S256) (0 : Fin 1) _ _ _ _ rfl (ix1 (⟨256 * t.val + q.val - 256, hlt'⟩ : Fin 16128)) (fun b => ?_)).trans ?_
    · match b with
      | ⟨0, _⟩ => rfl
    · refine extractStridedSlice_apply _ _ _ _ _ (fun a => ?_)
      match a with
      | ⟨0, _⟩ =>
        show 256 * t.val + q.val = 256 + (256 * t.val + q.val - 256)
        omega

/-! ## After the region -/

/-- The predictions: the region's block of log-probabilities, transposed. -/
theorem tail_pred : Pipeline.afterTail₀ cfgs (dats m) 0 (V0 m) [hostOps1] c main_v19
    = transpose S16382x1000 [1, 0] ((dats m 0 c).arrAt 5 cfg0.N) transposes_S1000x16382_S16382x1000_1_0 := by
  unfold Pipeline.afterTail₀
  show StableHlo.after hostOps1 _ (Proc.devRef .tc main_v19) = _
  after_results
  exact congrArg (fun x : S1000x16382.Idx → EReal => transpose S16382x1000 [1, 0] x transposes_S1000x16382_S16382x1000_1_0)
    (Pipeline.withArrays_arr spec0 launch0.win.arr_inj c _ _ (5 : Fin 7))

/-- The loss: the region's row of losses summed from zero, divided by the count. -/
theorem tail_loss : Pipeline.afterTail₀ cfgs (dats m) 0 (V0 m) [hostOps1] c main_v17
    = Host.divf (Host.reduceAdd (shapeCast S16382 ((dats m 0 c).arrAt 6 cfg0.N) shapeCasts_S1x16382_S16382)
        (constant (F := Ideal) S_ .f32 0x00000000#32) reducesTo_S16382_S_d0 h_S_) (constant (F := Ideal) S_ .f32 0x467FF800#32) := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v14_1)
      = (dats m 0 c).arrAt 6 cfg0.N := Pipeline.withArrays_arr spec0 launch0.win.arr_inj c _ _ (6 : Fin 7)
  rw [hw]
  rfl

/-- The targets: the sentence from position 1 on. -/
theorem tail_targets : Pipeline.afterTail₀ cfgs (dats m) 0 (V0 m) [hostOps1] c main_v18
    = extractStridedSlice S16382 ![1] (m ((c : Thread nD τ).loc main_arg0)) slices_S16384_S16382_1 := by
  unfold Pipeline.afterTail₀
  show StableHlo.after hostOps1 _ (Proc.devRef .tc main_v18) = _
  after_results
  refine congrArg (fun x : S16384.Idx → BitVec 32 => extractStridedSlice S16382 ![1] x slices_S16384_S16382_1) ?_
  refine (Pipeline.withArrays_of_ne _ c (V0 m c) _ main_arg0 (by decide : ∀ w, Pipeline.arrRef spec0 w ≠ main_arg0)).trans ?_
  exact V_arg m c main_arg0 (Or.inl rfl)

end Cert.KernelIdeal.HandHost

end
-- ==== Proof.IdealGeometry.lean ====
/-
  The geometry of the two output windows: a [1000, 16382] array written in column blocks of 256 and a [1, 16382]
  array likewise, on a grid of 64 points. Block `t` starts at column `256 t`; since 16382 = 63 * 256 + 254 the last
  block overhangs the array by two columns and only its part inside the array is written back. An element of the
  part of block `t` inside the array, at row `v` and column `r` of the block, sits in the array at row `v` and column
  `256 t + r`; and every column `c` of the array lies in block `c / 256`, so the blocks cover the array.
-/
import proofs.«115835_g2070174237271_cont_8to1_761_7_alg».proof.Proof.Gen.KernelIdeal.Points
import proofs.«115835_g2070174237271_cont_8to1_761_7_alg».proof.Proof.Gen.KernelIdeal.Launch
import Idealize.ShloMosaic.Lib.Pipeline.Value
import Idealize.ShloMosaic.Lib.ValueIdx

noncomputable section

namespace Cert.KernelIdeal.HandGeom

open Cert.KernelIdeal Cert.KernelIdeal.Gen
open Idealize.ShloMosaic Idealize.ShloMosaic.ValueIdx

/-- A coordinate of the array that lies in the full block at index `ix` lies in the block's part inside the array,
    however the block is cut at the array's end. -/
theorem lt_extent_of_ok {ix k d : Nat} {c : Pipeline.Clip} (h : Pipeline.Clip.Ok ix k d c) {x : Nat}
    (hx : x < d) (hk : x < ix * k + k) : x < ix * k + c.extent k := by
  cases c with
  | none => exact hk
  | some n =>
    have h3 : ix * k + n = d := h.2.2
    show x < ix * k + n
    omega

/-! ## The block indices, decided over the grid -/

/-- Window 5's block index at point `t` is `(0, t)`. -/
theorem idx5 : ∀ t : Fin cfg0.N, win0_5.index t (0 : Fin 2) = 0 ∧ win0_5.index t (1 : Fin 2) = t.val :=
  (by decide +kernel : ∀ t : Fin grid0.N, win0_5.index t (0 : Fin 2) = 0 ∧ win0_5.index t (1 : Fin 2) = t.val)

/-- Window 6's block index at point `t` is `(0, t)`. -/
theorem idx6 : ∀ t : Fin cfg0.N, win0_6.index t (0 : Fin 2) = 0 ∧ win0_6.index t (1 : Fin 2) = t.val :=
  (by decide +kernel : ∀ t : Fin grid0.N, win0_6.index t (0 : Fin 2) = 0 ∧ win0_6.index t (1 : Fin 2) = t.val)

/-! ## Window 5: blocks [1000, 256] of the [1000, 16382] array -/

/-- What point `t` writes back of a full block `X` is block `t` of `G` when `X` agrees with `G` at row `v`, column
    `256 t + r` wherever that column is inside the array. -/
theorem read_blk5 {Val : EltTy → Type} (G : S1000x16382.Idx → Val .f32) (X : S1000x256.Idx → Val .f32) (t : Fin cfg0.N)
    (h : ∀ (v : Fin 1000) (r : Fin 256) (hj : 256 * t.val + r.val < 16382),
      X (ix2 v r) = G (ix2 v ⟨256 * t.val + r.val, hj⟩)) :
    (cfg0.win 5).cut (cfg0.grid.coords t) X = ((cfg0.win 5).blk t).view.read Val G := by
  funext j
  rw [View.read_apply]
  obtain ⟨e0, e1⟩ := idx5 t
  have hx0 : (j 0).val < win0_5.xsize (grid0.coords t) (0 : Fin 2) := (j 0).isLt
  have hx1 : (j 1).val < win0_5.xsize (grid0.coords t) (1 : Fin 2) := (j 1).isLt
  have hl0 : win0_5.xsize (grid0.coords t) (0 : Fin 2) ≤ 1000 := win0_5.xsize_le (grid0.coords t) 0
  have hl1 : win0_5.xsize (grid0.coords t) (1 : Fin 2) ≤ 256 := win0_5.xsize_le (grid0.coords t) 1
  have hin : win0_5.index t (1 : Fin 2) * 256 + win0_5.xsize (grid0.coords t) (1 : Fin 2) ≤ 16382 :=
    Pipeline.Clip.inb (win0_5.hclip (grid0.coords t) 1)
  have hj0 : (j 0).val < 1000 := by omega
  have hj1 : (j 1).val < 256 := by omega
  have hlt : 256 * t.val + (j 1).val < 16382 := by rw [e1] at hin; omega
  have hh := h ⟨(j 0).val, hj0⟩ ⟨(j 1).val, hj1⟩ hlt
  have ex : win0_5.xinj (grid0.coords t) j = ix2 (⟨(j 0).val, hj0⟩ : Fin 1000) (⟨(j 1).val, hj1⟩ : Fin 256) := by
    funext a
    match a with
    | ⟨0, _⟩ => rfl
    | ⟨1, _⟩ => rfl
  have eg : (win0_5.rect t).emb j
      = ix2 (⟨(j 0).val, hj0⟩ : Fin 1000) (⟨256 * t.val + (j 1).val, hlt⟩ : Fin 16382) := by
    funext a
    apply Fin.ext
    match a with
    | ⟨0, _⟩ =>
      show win0_5.index t (0 : Fin 2) * 1000 + 1 * (j 0).val = (j 0).val
      rw [e0]; omega
    | ⟨1, _⟩ =>
      show win0_5.index t (1 : Fin 2) * 256 + 1 * (j 1).val = 256 * t.val + (j 1).val
      rw [e1]; omega
  show X (win0_5.xinj (grid0.coords t) j) = G ((win0_5.rect t).emb j)
  rw [ex, eg]
  exact hh

/-- An index of the array is in point `t`'s block iff each coordinate is in the range of the block's part inside the
    array on its axis. -/
theorem mem_blk5 (t : Fin cfg0.N) (i : S1000x16382.Idx) :
    i ∈ ((cfg0.win 5).blk t).view.set ↔ ∀ a : Fin 2, win0_5.index t a * S1000x256.size a ≤ (i a).val
      ∧ (i a).val < win0_5.index t a * S1000x256.size a + win0_5.xsize (grid0.coords t) a := by
  show i ∈ ((View.whole main_v14_0).slice (win0_5.rect t)).set ↔ _
  rw [View.set_slice_whole, Rect.mem_set_unit]
  exact Iff.rfl

/-- Column `c` of the array lies in block `c / 256`, which is written back: the blocks cover the array. -/
theorem cover5 (i : S1000x16382.Idx) :
    ∃ t : Fin cfg0.N, (cfg0.win 5).flush t = true ∧ i ∈ ((cfg0.win 5).blk t).view.set := by
  have h0 : (i 0).val < 1000 := (i 0).isLt
  have h1 : (i 1).val < 16382 := (i 1).isLt
  have hN : (i 1).val / 256 < cfg0.N := by
    show (i 1).val / 256 < 64
    omega
  refine ⟨⟨(i 1).val / 256, hN⟩, flush0_5 _, ?_⟩
  rw [mem_blk5]
  obtain ⟨e0, e1⟩ := idx5 ⟨(i 1).val / 256, hN⟩
  have e1' : win0_5.index ⟨(i 1).val / 256, hN⟩ (1 : Fin 2) = (i 1).val / 256 := e1
  have c0 : Pipeline.Clip.Ok (win0_5.index ⟨(i 1).val / 256, hN⟩ (0 : Fin 2)) 1000 1000
      (win0_5.clip (grid0.coords ⟨(i 1).val / 256, hN⟩) (0 : Fin 2)) := win0_5.hclip _ 0
  have c1 : Pipeline.Clip.Ok (win0_5.index ⟨(i 1).val / 256, hN⟩ (1 : Fin 2)) 256 16382
      (win0_5.clip (grid0.coords ⟨(i 1).val / 256, hN⟩) (1 : Fin 2)) := win0_5.hclip _ 1
  intro a
  match a with
  | ⟨0, _⟩ =>
    show win0_5.index ⟨(i 1).val / 256, hN⟩ (0 : Fin 2) * 1000 ≤ (i 0).val
      ∧ (i 0).val < win0_5.index ⟨(i 1).val / 256, hN⟩ (0 : Fin 2) * 1000
        + (win0_5.clip (grid0.coords ⟨(i 1).val / 256, hN⟩) (0 : Fin 2)).extent 1000
    have hk := lt_extent_of_ok c0 (x := (i 0).val) h0 (by rw [e0]; omega)
    rw [e0] at hk ⊢
    exact ⟨by omega, hk⟩
  | ⟨1, _⟩ =>
    show win0_5.index ⟨(i 1).val / 256, hN⟩ (1 : Fin 2) * 256 ≤ (i 1).val
      ∧ (i 1).val < win0_5.index ⟨(i 1).val / 256, hN⟩ (1 : Fin 2) * 256
        + (win0_5.clip (grid0.coords ⟨(i 1).val / 256, hN⟩) (1 : Fin 2)).extent 256
    have hk := lt_extent_of_ok c1 (x := (i 1).val) h1 (by rw [e1']; omega)
    rw [e1'] at hk ⊢
    exact ⟨by omega, hk⟩

/-! ## Window 6: blocks [1, 256] of the [1, 16382] array -/

/-- What point `t` writes back of a full block `X` is block `t` of `G` when `X` agrees with `G` at column `256 t + r`
    wherever that column is inside the array. -/
theorem read_blk6 {Val : EltTy → Type} (G : S1x16382.Idx → Val .f32) (X : S1x256.Idx → Val .f32) (t : Fin cfg0.N)
    (h : ∀ (r : Fin 256) (hj : 256 * t.val + r.val < 16382),
      X (ix2 (0 : Fin 1) r) = G (ix2 (0 : Fin 1) ⟨256 * t.val + r.val, hj⟩)) :
    (cfg0.win 6).cut (cfg0.grid.coords t) X = ((cfg0.win 6).blk t).view.read Val G := by
  funext j
  rw [View.read_apply]
  obtain ⟨e0, e1⟩ := idx6 t
  have hx0 : (j 0).val < win0_6.xsize (grid0.coords t) (0 : Fin 2) := (j 0).isLt
  have hx1 : (j 1).val < win0_6.xsize (grid0.coords t) (1 : Fin 2) := (j 1).isLt
  have hl0 : win0_6.xsize (grid0.coords t) (0 : Fin 2) ≤ 1 := win0_6.xsize_le (grid0.coords t) 0
  have hl1 : win0_6.xsize (grid0.coords t) (1 : Fin 2) ≤ 256 := win0_6.xsize_le (grid0.coords t) 1
  have hin : win0_6.index t (1 : Fin 2) * 256 + win0_6.xsize (grid0.coords t) (1 : Fin 2) ≤ 16382 :=
    Pipeline.Clip.inb (win0_6.hclip (grid0.coords t) 1)
  have hj0 : (j 0).val = 0 := by omega
  have hj1 : (j 1).val < 256 := by omega
  have hlt : 256 * t.val + (j 1).val < 16382 := by rw [e1] at hin; omega
  have hh := h ⟨(j 1).val, hj1⟩ hlt
  have ex : win0_6.xinj (grid0.coords t) j = ix2 (0 : Fin 1) (⟨(j 1).val, hj1⟩ : Fin 256) := by
    funext a
    match a with
    | ⟨0, _⟩ => exact Fin.ext hj0
    | ⟨1, _⟩ => rfl
  have eg : (win0_6.rect t).emb j = ix2 (0 : Fin 1) (⟨256 * t.val + (j 1).val, hlt⟩ : Fin 16382) := by
    funext a
    apply Fin.ext
    match a with
    | ⟨0, _⟩ =>
      show win0_6.index t (0 : Fin 2) * 1 + 1 * (j 0).val = 0
      rw [e0]; omega
    | ⟨1, _⟩ =>
      show win0_6.index t (1 : Fin 2) * 256 + 1 * (j 1).val = 256 * t.val + (j 1).val
      rw [e1]; omega
  show X (win0_6.xinj (grid0.coords t) j) = G ((win0_6.rect t).emb j)
  rw [ex, eg]
  exact hh

/-- An index of the array is in point `t`'s block iff each coordinate is in the range of the block's part inside the
    array on its axis. -/
theorem mem_blk6 (t : Fin cfg0.N) (i : S1x16382.Idx) :
    i ∈ ((cfg0.win 6).blk t).view.set ↔ ∀ a : Fin 2, win0_6.index t a * S1x256.size a ≤ (i a).val
      ∧ (i a).val < win0_6.index t a * S1x256.size a + win0_6.xsize (grid0.coords t) a := by
  show i ∈ ((View.whole main_v14_1).slice (win0_6.rect t)).set ↔ _
  rw [View.set_slice_whole, Rect.mem_set_unit]
  exact Iff.rfl

/-- Column `c` of the array lies in block `c / 256`, which is written back: the blocks cover the array. -/
theorem cover6 (i : S1x16382.Idx) :
    ∃ t : Fin cfg0.N, (cfg0.win 6).flush t = true ∧ i ∈ ((cfg0.win 6).blk t).view.set := by
  have h0 : (i 0).val < 1 := (i 0).isLt
  have h1 : (i 1).val < 16382 := (i 1).isLt
  have hN : (i 1).val / 256 < cfg0.N := by
    show (i 1).val / 256 < 64
    omega
  refine ⟨⟨(i 1).val / 256, hN⟩, flush0_6 _, ?_⟩
  rw [mem_blk6]
  obtain ⟨e0, e1⟩ := idx6 ⟨(i 1).val / 256, hN⟩
  have e1' : win0_6.index ⟨(i 1).val / 256, hN⟩ (1 : Fin 2) = (i 1).val / 256 := e1
  have c0 : Pipeline.Clip.Ok (win0_6.index ⟨(i 1).val / 256, hN⟩ (0 : Fin 2)) 1 1
      (win0_6.clip (grid0.coords ⟨(i 1).val / 256, hN⟩) (0 : Fin 2)) := win0_6.hclip _ 0
  have c1 : Pipeline.Clip.Ok (win0_6.index ⟨(i 1).val / 256, hN⟩ (1 : Fin 2)) 256 16382
      (win0_6.clip (grid0.coords ⟨(i 1).val / 256, hN⟩) (1 : Fin 2)) := win0_6.hclip _ 1
  intro a
  match a with
  | ⟨0, _⟩ =>
    show win0_6.index ⟨(i 1).val / 256, hN⟩ (0 : Fin 2) * 1 ≤ (i 0).val
      ∧ (i 0).val < win0_6.index ⟨(i 1).val / 256, hN⟩ (0 : Fin 2) * 1
        + (win0_6.clip (grid0.coords ⟨(i 1).val / 256, hN⟩) (0 : Fin 2)).extent 1
    have hk := lt_extent_of_ok c0 (x := (i 0).val) h0 (by rw [e0]; omega)
    rw [e0] at hk ⊢
    exact ⟨by omega, hk⟩
  | ⟨1, _⟩ =>
    show win0_6.index ⟨(i 1).val / 256, hN⟩ (1 : Fin 2) * 256 ≤ (i 1).val
      ∧ (i 1).val < win0_6.index ⟨(i 1).val / 256, hN⟩ (1 : Fin 2) * 256
        + (win0_6.clip (grid0.coords ⟨(i 1).val / 256, hN⟩) (1 : Fin 2)).extent 256
    have hk := lt_extent_of_ok c1 (x := (i 1).val) h1 (by rw [e1']; omega)
    rw [e1'] at hk ⊢
    exact ⟨by omega, hk⟩

end Cert.KernelIdeal.HandGeom

end
-- ==== Proof.IdealFinal.lean ====
/-
  The region's two result arrays after the run, and the program's three results, as functions of the arguments.

  Every grid point writes back the part of its two blocks that lies inside the arrays; what it writes at column
  `256 t + r` is the log-probabilities, respectively the loss, of interior position `256 t + r` (the per-position bridge),
  and the 64 blocks cover both arrays. So the [1000, 16382] array ends holding the log-probabilities with the vocabulary
  on the leading axis, and the [1, 16382] array the losses. The host operations after the region transpose the first,
  average the second, and slice the targets out of the ids.
-/
import proofs.«115835_g2070174237271_cont_8to1_761_7_alg».proof.Proof.IdealBlocks
import proofs.«115835_g2070174237271_cont_8to1_761_7_alg».proof.Proof.IdealPosition
import proofs.«115835_g2070174237271_cont_8to1_761_7_alg».proof.Proof.IdealHost
import proofs.«115835_g2070174237271_cont_8to1_761_7_alg».proof.Proof.IdealGeometry

set_option maxRecDepth 16384

noncomputable section

namespace Cert.KernelIdeal.HandValue

open Cert.KernelIdeal Cert.KernelIdeal.Gen Cert.KernelIdeal.Hand Cert.KernelIdeal.HandHost Cert.KernelIdeal.HandGeom Cert.Cbow
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The four argument arrays on core `c`. -/
abbrev ids : Cert.Cbow.Ids := m ((c : Thread nD τ).loc main_arg0)
abbrev embT : Cert.Cbow.Table := m ((c : Thread nD τ).loc main_arg1)
abbrev projT : Cert.Cbow.Table := m ((c : Thread nD τ).loc main_arg2)
abbrev biasV : Cert.Cbow.Bias := m ((c : Thread nD τ).loc main_arg3)

/-- The log-probabilities with the vocabulary on the leading axis, and the row of losses. -/
def predArr (s : Cert.Cbow.Ids) (E W : Cert.Cbow.Table) (b : Cert.Cbow.Bias) : S1000x16382.Idx → EReal :=
  fun i => logp₁ s E W b ⟨(i 1).val, idx2_lt1 i⟩ ⟨(i 0).val, idx2_lt0 i⟩
def nllArr (s : Cert.Cbow.Ids) (E W : Cert.Cbow.Table) (b : Cert.Cbow.Bias) : S1x16382.Idx → EReal :=
  fun i => nll₁ s E W b ⟨(i 1).val, idx2_lt1 i⟩

variable (hs : InVocab (ids m c))

include hs in
/-- What point `t` writes back into the array of log-probabilities is its block of `predArr`. -/
theorem flushed5_eq (t : Fin cfg0.N) :
    (dats m 0 c).flushed 5 t = ((cfg0.win 5).blk t).view.read (Elt Ideal) (predArr (ids m c) (embT m c) (projT m c) (biasV m c)) := by
  show (cfg0.win 5).cut (grid0.coords t) ((dats m 0 c).after 5 t) = _
  rw [after_5, predBlock_eq]
  refine read_blk5 (Val := Elt Ideal) _ _ t fun v r hj => ?_
  exact pred_of_window (ids m c) (embT m c) (projT m c) (biasV m c) hs
    (iblk m c 0 t) (iblk m c 1 t) (iblk m c 2 t) (iblk m c 4 t) t.val
    (fun q h => (iblk_ids m c t q).trans (V_ids m c ⟨t.val, point_lt t⟩ q h))
    ((iblk_emb m c t).trans (V_emb m c)) ((iblk_proj m c t).trans (V_proj m c))
    (fun v => (congrFun (iblk_bias m c t) _).trans (V_bias m c v)) r hj v

include hs in
/-- What point `t` writes back into the row of losses is its block of `nllArr`. -/
theorem flushed6_eq (t : Fin cfg0.N) :
    (dats m 0 c).flushed 6 t = ((cfg0.win 6).blk t).view.read (Elt Ideal) (nllArr (ids m c) (embT m c) (projT m c) (biasV m c)) := by
  show (cfg0.win 6).cut (grid0.coords t) ((dats m 0 c).after 6 t) = _
  rw [after_6, nllBlock_eq]
  refine read_blk6 (Val := Elt Ideal) _ _ t fun r hj => ?_
  exact nll_of_window (ids m c) (embT m c) (projT m c) (biasV m c) hs
    (iblk m c 0 t) (iblk m c 1 t) (iblk m c 2 t) (iblk m c 3 t) (iblk m c 4 t) t.val
    (fun q h => (iblk_ids m c t q).trans (V_ids m c ⟨t.val, point_lt t⟩ q h))
    ((iblk_emb m c t).trans (V_emb m c)) ((iblk_proj m c t).trans (V_proj m c))
    (fun v k => (congrFun (iblk_ext m c t) _).trans (V_ext_proj m c v k))
    (fun v => (congrFun (iblk_ext m c t) _).trans (V_ext_bias m c v))
    (fun v => (congrFun (iblk_bias m c t) _).trans (V_bias m c v)) r hj

include hs in
/-- The two arrays after the last write-back. -/
theorem final_pred : (dats m 0 c).arrAt 5 cfg0.N = predArr (ids m c) (embT m c) (projT m c) (biasV m c) :=
  (dats m 0 c).arrAt_eq_of_cover 5 _ (fun t _ => flushed5_eq m c hs t) cover5

include hs in
theorem final_nll : (dats m 0 c).arrAt 6 cfg0.N = nllArr (ids m c) (embT m c) (projT m c) (biasV m c) :=
  (dats m 0 c).arrAt_eq_of_cover 6 _ (fun t _ => flushed6_eq m c hs t) cover6

end Cert.KernelIdeal.HandValue

end
-- ==== Proof.HostReads.lean ====
/-
  The host operations around the kernel, read at an index on the extended reals.

  The loss is the host's sum of the 16382 per-position terms from an initial zero, divided by the count: the host's
  float sum is the exact sum, its quotient the extended reals' division, and a splat constant reads the extended real
  its word encodes, so the quotient at the one index of the rank-0 result is the mean of the terms as the
  specification spells it. A [1, 16382] array cast to [16382] reads at `j` the operand at `(0, j)`. The targets
  are the slice of the 16384 token ids that drops the first and the last: at `j` it reads the id at `j + 1`.
-/
import proofs.«115835_g2070174237271_cont_8to1_761_7_alg».proof.Proof.Spec
import Idealize.ShloMosaic.Lib.IdealHost
import Idealize.ShloMosaic.Lib.ValueLayout
import Idealize.ShloMosaic.Lib.Pipeline.Value

noncomputable section

namespace Cert.Cbow

open Idealize.ShloMosaic Idealize.ShloMosaic.ValueIdx
open scoped BigOperators

namespace HostReads

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end HostReads

/-- The host's sum of a [16382] vector from the zero splat, divided by the count splat, is the mean of its entries. -/
theorem mean_read_vec (x : (⟨1, ![16382]⟩ : Shape).Idx → EReal)
    (h2 : (⟨1, ![16382]⟩ : Shape).ReducesTo [0] ⟨0, ![]⟩) (h3 : 0 < (⟨0, ![]⟩ : Shape).numel) :
    Host.divf (F := Ideal) (Host.reduceAdd x (constant (F := Ideal) ⟨0, ![]⟩ .f32 0x00000000#32) h2 h3)
        (constant (F := Ideal) ⟨0, ![]⟩ .f32 0x467FF800#32) ix0
      = mean (fun j => x (ix1 j)) (Ideal.ofBits .f32 0x00000000#32) (Ideal.ofBits .f32 0x467FF800#32) := by
  rw [hostDivf_apply, hostReduceAdd_apply, constant_apply, constant_apply,
    Ideal.hostReduceAdd_total h2 (fun b => b.elim0), HostReads.sum_idx1]
  rfl

/-- The same for a [1, 16382] array summed through its cast to [16382]. -/
theorem mean_read (L : (⟨2, ![1, 16382]⟩ : Shape).Idx → EReal)
    (h1 : (⟨2, ![1, 16382]⟩ : Shape).ShapeCasts ⟨1, ![16382]⟩)
    (h2 : (⟨1, ![16382]⟩ : Shape).ReducesTo [0] ⟨0, ![]⟩) (h3 : 0 < (⟨0, ![]⟩ : Shape).numel) :
    Host.divf (F := Ideal) (Host.reduceAdd (shapeCast ⟨1, ![16382]⟩ L h1) (constant (F := Ideal) ⟨0, ![]⟩ .f32 0x00000000#32) h2 h3)
        (constant (F := Ideal) ⟨0, ![]⟩ .f32 0x467FF800#32) ix0
      = mean (fun j => L (ix2 (0 : Fin 1) j)) (Ideal.ofBits .f32 0x00000000#32) (Ideal.ofBits .f32 0x467FF800#32) := by
  rw [mean_read_vec]
  unfold mean
  refine congrArg (fun S => Ideal.div (Ideal.ofBits .f32 0x00000000#32 + S) (Ideal.ofBits .f32 0x467FF800#32)) ?_
  exact Finset.sum_congr rfl fun j _ => shapeCast_1a_a_apply L h1 j

/-- The slice [1 : 16383] of the token ids reads at `j` the id at `j + 1`. -/
theorem slice_read (s : Ids) (h : (⟨1, ![16384]⟩ : Shape).Slices ![1] ⟨1, ![16382]⟩) (j : Fin 16382) :
    extractStridedSlice ⟨1, ![16382]⟩ ![1] s h (ix1 j) = s (ix1 ⟨j.val + 1, by omega⟩) := by
  refine extractStridedSlice_apply ![1] s h (ix1 j) (ix1 ⟨j.val + 1, by omega⟩) fun a => ?_
  match a with
  | ⟨0, _⟩ =>
    show j.val + 1 = 1 + j.val
    omega

end Cert.Cbow

end
-- ==== Proof.IdealResults.lean ====
/-
  The program's three results as functions of the arguments, in the specification's reference spelling.

  The transposed array of log-probabilities reads, at (position, vocabulary row), the log-softmax of the position's
  logits; on finite tables the spelling that subtracts the log-sum-exp once is the spelling that shifts then normalises.
  The averaged row of losses is the mean of the per-position losses, and on finite tables the log-sum-exp less the
  target's logit is the negated target entry of the log-softmax applied twice. The targets are the ids shifted by one.
-/
import proofs.«115835_g2070174237271_cont_8to1_761_7_alg».proof.Proof.IdealFinal
import proofs.«115835_g2070174237271_cont_8to1_761_7_alg».proof.Proof.HostReads

set_option maxRecDepth 16384

noncomputable section

namespace Cert.KernelIdeal.HandValue

open Cert.KernelIdeal Cert.KernelIdeal.Gen Cert.KernelIdeal.Hand Cert.KernelIdeal.HandHost Cert.Cbow
open Idealize.ShloMosaic Idealize.ShloMosaic.TcCoe Idealize.ShloMosaic.ValueIdx
open Idealize.SL.Sem
open scoped BigOperators

/-- The three results, as the specification states them. -/
def lossSpec (s : Cert.Cbow.Ids) (E W : Cert.Cbow.Table) (b : Cert.Cbow.Bias) : S_.Idx → EReal :=
  fun _ => mean (nll₂ s E W b) (Ideal.ofBits .f32 0x00000000#32) (Ideal.ofBits .f32 0x467FF800#32)
def targetsSpec (s : Cert.Cbow.Ids) : S16382.Idx → BitVec 32 :=
  fun i => s (ix1 ⟨(i 0).val + 1, by have := (eq_ix1 i ▸ (i 0).isLt : (i 0).val < 16382); omega⟩)
def predSpec (s : Cert.Cbow.Ids) (E W : Cert.Cbow.Table) (b : Cert.Cbow.Bias) : S16382x1000.Idx → EReal :=
  fun i => logp₂ s E W b ⟨(i 0).val, idx2_lt0 i⟩ ⟨(i 1).val, idx2_lt1 i⟩

variable (m : (ℓ : Loc nD τ sig) → Buf (Elt Ideal) ℓ) (c : Dev nD)
variable (hs : InVocab (ids m c)) (hW : FiniteT (projT m c)) (hb : FiniteB (biasV m c))

include hs hW hb in
theorem result_pred :
    Pipeline.afterTail₀ cfgs (dats m) 0 (V0 m) [hostOps1] c main_v19 = predSpec (ids m c) (embT m c) (projT m c) (biasV m c) := by
  rw [tail_pred, final_pred m c hs]
  funext i
  obtain ⟨p, q, rfl⟩ : ∃ (p : Fin 16382) (q : Fin 1000), i = ix2 p q := ⟨i 0, i 1, eq_ix2 i⟩
  rw [transpose_ix2_apply]
  exact logp₁_eq_logp₂ _ _ _ _ hW hb p q

include hs hW hb in
theorem result_loss :
    Pipeline.afterTail₀ cfgs (dats m) 0 (V0 m) [hostOps1] c main_v17 = lossSpec (ids m c) (embT m c) (projT m c) (biasV m c) := by
  rw [tail_loss, final_nll m c hs]
  funext i
  rw [eq_ix0 i, mean_read]
  unfold lossSpec
  refine congrArg (fun f => mean f _ _) (funext fun j => ?_)
  exact nll₁_eq_nll₂ _ _ _ _ hW hb j

theorem result_targets :
    Pipeline.afterTail₀ cfgs (dats m) 0 (V0 m) [hostOps1] c main_v18 = targetsSpec (ids m c) := by
  rw [tail_targets]
  funext i
  obtain ⟨j, rfl⟩ : ∃ j : Fin 16382, i = ix1 j := ⟨i 0, eq_ix1 i⟩
  exact slice_read _ _ j

end Cert.KernelIdeal.HandValue

end
-- ==== Proof.RefRun.lean ====
/-
  The reference program's run, and its three results as pure terms of the four argument arrays.

  The reference is a straight line of 92 tensor operations once its four calls (the row lookup, the two
  log-softmaxes, the lookup along an axis) are unfolded at their call sites over the calls' buffer records.
  `ops` lists them in order; `main_eq` says the program is that list run in sequence; `val_‹buffer›` names
  the value each operation leaves in its buffer as a function of the argument arrays it depends on (each
  the operation's function applied to the values of its operands); `run` says every execution ends with
  the three result buffers at `lossOf`, `targetsOf`, `predOf` of the arguments, and the arguments unchanged.
-/
import proofs.«115835_g2070174237271_cont_8to1_761_7_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 92 operations, in order, each call's operations in the call's place over its buffer record. -/
abbrev ops : List (HloOp τ sig (Elt F)) :=
  [
    StableHlo.TRef.nullary main_call0.c (constantI S_ 32 0#32),
    StableHlo.TRef.unary main_call0.c main_call0.v0 (broadcastInDim S16384 ![] bcast_S_S16384),
    StableHlo.TRef.binary (StableHlo.TRef.of (T := ⟨S16384, .i32⟩) main_arg0) main_call0.v0 main_call0.v1 (cmpi .slt),
    StableHlo.TRef.nullary main_call0.c_0 (constantI S_ 32 1000#32),
    StableHlo.TRef.unary main_call0.c_0 main_call0.v2 (broadcastInDim S16384 ![] bcast_S_S16384),
    StableHlo.TRef.binary (StableHlo.TRef.of (T := ⟨S16384, .i32⟩) main_arg0) main_call0.v2 main_call0.v3 addi,
    StableHlo.TRef.ternary main_call0.v1 main_call0.v3 (StableHlo.TRef.of (T := ⟨S16384, .i32⟩) main_arg0) main_call0.call0.v0 select,
    StableHlo.TRef.unary main_call0.call0.v0 main_call0.v5 (broadcastInDim S16384x1 ![0] bcast_S16384_S16384x1_0),
    StableHlo.TRef.nullary main_call0.c_1 (constantI S1 32 999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (StableHlo.TRef.of (T := ⟨S1000x128, .f32⟩) main_arg1) main_call0.v5 main_call0.v13 (fun x i => Host.gather gather_S1000x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select,
    StableHlo.unary main_v0 main_v1 (Host.tanh : (⟨S16384x128, .f32⟩ : BufTy).Contents (Elt F) → (⟨S16384x128, .f32⟩ : BufTy).Contents (Elt F)),
    StableHlo.unary main_v1 main_v2 ((extractStridedSlice S16382x128 ![0, 0] · slices_S16384x128_S16382x128_0_0) : (⟨S16384x128, .f32⟩ : BufTy).Contents (Elt F) → (⟨S16382x128, .f32⟩ : BufTy).Contents (Elt F)),
    StableHlo.unary main_v1 main_v3 ((extractStridedSlice S16382x128 ![2, 0] · slices_S16384x128_S16382x128_2_0) : (⟨S16384x128, .f32⟩ : BufTy).Contents (Elt F) → (⟨S16382x128, .f32⟩ : BufTy).Contents (Elt F)),
    StableHlo.binary main_v2 main_v3 main_v4 (addf : (⟨S16382x128, .f32⟩ : BufTy).Contents (Elt F) → (⟨S16382x128, .f32⟩ : BufTy).Contents (Elt F) → (⟨S16382x128, .f32⟩ : BufTy).Contents (Elt F)),
    StableHlo.unary main_arg2 main_v5 ((transpose S128x1000 [1, 0] · transposes_S1000x128_S128x1000_1_0) : (⟨S1000x128, .f32⟩ : BufTy).Contents (Elt F) → (⟨S128x1000, .f32⟩ : BufTy).Contents (Elt F)),
    StableHlo.binary main_v4 main_v5 main_v6 ((fun l r => Host.dotGeneral dot_S16382x128_S128x1000_S16382x1000_1_0_0_1_n_n none l r) : (⟨S16382x128, .f32⟩ : BufTy).Contents (Elt F) → (⟨S128x1000, .f32⟩ : BufTy).Contents (Elt F) → (⟨S16382x1000, .f32⟩ : BufTy).Contents (Elt F)),
    StableHlo.unary main_arg3 main_v7 (broadcastInDim S1x1000 ![1] bcast_S1000_S1x1000_1 : (⟨S1000, .f32⟩ : BufTy).Contents (Elt F) → (⟨S1x1000, .f32⟩ : BufTy).Contents (Elt F)),
    StableHlo.unary main_v7 main_v8 (broadcastInDim S16382x1000 ![0, 1] bcast_S1x1000_S16382x1000_0_1 : (⟨S1x1000, .f32⟩ : BufTy).Contents (Elt F) → (⟨S16382x1000, .f32⟩ : BufTy).Contents (Elt F)),
    StableHlo.binary main_v6 main_v8 main_v9 (addf : (⟨S16382x1000, .f32⟩ : BufTy).Contents (Elt F) → (⟨S16382x1000, .f32⟩ : BufTy).Contents (Elt F) → (⟨S16382x1000, .f32⟩ : BufTy).Contents (Elt F)),
    StableHlo.TRef.nullary main_call1.cst (constant S_ .f32 0xFF800000#32),
    StableHlo.TRef.binary (StableHlo.TRef.of (T := ⟨S16382x1000, .f32⟩) main_v9) main_call1.cst main_call1.v0 (fun x v => Host.reduce FloatOps.maximumf x v reducesTo_S16382x1000_S16382_d1 h_S_),
    StableHlo.TRef.nullary main_call1.cst_0 (constant S_ .f32 0xFF800000#32),
    StableHlo.TRef.unary main_call1.cst_0 main_call1.v1 (broadcastInDim S16382 ![] bcast_S_S16382),
    StableHlo.TRef.binary main_call1.v1 main_call1.v0 main_call1.v2 maximumf,
    StableHlo.TRef.unary main_call1.v2 main_call1.v3 (broadcastInDim S16382x1 ![0] bcast_S16382_S16382x1_0),
    StableHlo.TRef.unary main_call1.v3 main_call1.v4 (broadcastInDim S16382x1000 ![0, 1] bcast_S16382x1_S16382x1000_0_1),
    StableHlo.TRef.binary (StableHlo.TRef.of (T := ⟨S16382x1000, .f32⟩) main_v9) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S16382x1000_S16382_d1 h_S_),
    StableHlo.TRef.unary main_call1.v7 main_call1.v8 (broadcastInDim S16382x1 ![0] bcast_S16382_S16382x1_0),
    StableHlo.TRef.unary main_call1.v8 main_call1.v9 Host.log,
    StableHlo.TRef.unary main_call1.v9 main_call1.v10 (broadcastInDim S16382x1000 ![0, 1] bcast_S16382x1_S16382x1000_0_1),
    StableHlo.TRef.binary main_call1.v5 main_call1.v10 main_call1.v11 subf,
    StableHlo.unary main_arg0 main_v11 ((extractStridedSlice S16382 ![1] · slices_S16384_S16382_1) : (⟨S16384, .i32⟩ : BufTy).Contents (Elt F) → (⟨S16382, .i32⟩ : BufTy).Contents (Elt F)),
    StableHlo.TRef.nullary main_call2.cst (constant S_ .f32 0xFF800000#32),
    StableHlo.TRef.binary (StableHlo.TRef.of (T := ⟨S16382x1000, .f32⟩) main_v10) main_call2.cst main_call2.v0 (fun x v => Host.reduce FloatOps.maximumf x v reducesTo_S16382x1000_S16382_d1 h_S_),
    StableHlo.TRef.nullary main_call2.cst_0 (constant S_ .f32 0xFF800000#32),
    StableHlo.TRef.unary main_call2.cst_0 main_call2.v1 (broadcastInDim S16382 ![] bcast_S_S16382),
    StableHlo.TRef.binary main_call2.v1 main_call2.v0 main_call2.v2 maximumf,
    StableHlo.TRef.unary main_call2.v2 main_call2.v3 (broadcastInDim S16382x1 ![0] bcast_S16382_S16382x1_0),
    StableHlo.TRef.unary main_call2.v3 main_call2.v4 (broadcastInDim S16382x1000 ![0, 1] bcast_S16382x1_S16382x1000_0_1),
    StableHlo.TRef.binary (StableHlo.TRef.of (T := ⟨S16382x1000, .f32⟩) main_v10) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S16382x1000_S16382_d1 h_S_),
    StableHlo.TRef.unary main_call2.v7 main_call2.v8 (broadcastInDim S16382x1 ![0] bcast_S16382_S16382x1_0),
    StableHlo.TRef.unary main_call2.v8 main_call2.v9 Host.log,
    StableHlo.TRef.unary main_call2.v9 main_call2.v10 (broadcastInDim S16382x1000 ![0, 1] bcast_S16382x1_S16382x1000_0_1),
    StableHlo.TRef.binary main_call2.v5 main_call2.v10 main_call2.v11 subf,
    StableHlo.unary main_v11 main_v13 (broadcastInDim S16382x1 ![0] bcast_S16382_S16382x1_0 : (⟨S16382, .i32⟩ : BufTy).Contents (Elt F) → (⟨S16382x1, .i32⟩ : BufTy).Contents (Elt F)),
    StableHlo.TRef.nullary main_call3.c (constantI S_ 32 0#32),
    StableHlo.TRef.unary main_call3.c main_call3.v0 (broadcastInDim S16382x1 ![] bcast_S_S16382x1),
    StableHlo.TRef.binary (StableHlo.TRef.of (T := ⟨S16382x1, .i32⟩) main_v13) main_call3.v0 main_call3.v1 (cmpi .slt),
    StableHlo.TRef.nullary main_call3.c_0 (constantI S_ 32 1000#32),
    StableHlo.TRef.unary main_call3.c_0 main_call3.v2 (broadcastInDim S16382x1 ![] bcast_S_S16382x1),
    StableHlo.TRef.binary (StableHlo.TRef.of (T := ⟨S16382x1, .i32⟩) main_v13) main_call3.v2 main_call3.v3 addi,
    StableHlo.TRef.ternary main_call3.v1 main_call3.v3 (StableHlo.TRef.of (T := ⟨S16382x1, .i32⟩) main_v13) main_call3.v4 select,
    StableHlo.TRef.reshape main_call3.v4 main_call3.v5 rfl shapeCasts_S16382x1_S16382x1x1,
    StableHlo.TRef.nullary main_call3.c_1 (constantI S1 32 999#32),
    StableHlo.TRef.nullary main_call3.c_2 (constantI S_ 32 0#32),
    StableHlo.TRef.unary main_call3.c_2 main_call3.v6 (broadcastInDim S16382x1x1 ![] bcast_S_S16382x1x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S16382x1x1 ![0, 1, 2] bcast_S1x1x1_S16382x1x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16382x1x1_S16382x1_d2 h_S_),
    StableHlo.TRef.binary (StableHlo.TRef.of (T := ⟨S16382x1000, .f32⟩) main_v12) main_call3.v5 main_call3.v13 (fun x i => Host.gather gather_S16382x1000_S16382x1x1_S16382x1_n_1_0_0_1_2_11 x i),
    StableHlo.TRef.nullary main_call3.cst (constant S_ .f32 0x7FC00000#32),
    StableHlo.TRef.unary main_call3.cst main_call3.v14 (broadcastInDim S16382x1 ![] bcast_S_S16382x1),
    StableHlo.TRef.ternary main_call3.v12 main_call3.v13 main_call3.v14 main_call3.v15 select,
    StableHlo.reshape main_v14 main_v15 rfl shapeCasts_S16382x1_S16382,
    StableHlo.unary main_v15 main_v16 (Host.negf : (⟨S16382, .f32⟩ : BufTy).Contents (Elt F) → (⟨S16382, .f32⟩ : BufTy).Contents (Elt F)),
    StableHlo.nullary main_cst (constant S_ .f32 0x00000000#32),
    StableHlo.binary main_v16 main_cst main_v17 ((fun x v => Host.reduceAdd x v reducesTo_S16382_S_d0 h_S_) : (⟨S16382, .f32⟩ : BufTy).Contents (Elt F) → (⟨S_, .f32⟩ : BufTy).Contents (Elt F) → (⟨S_, .f32⟩ : BufTy).Contents (Elt F)),
    StableHlo.nullary main_cst_0 (constant S_ .f32 0x467FF800#32),
    StableHlo.binary main_v17 main_cst_0 main_v18 (Host.divf : (⟨S_, .f32⟩ : BufTy).Contents (Elt F) → (⟨S_, .f32⟩ : BufTy).Contents (Elt F) → (⟨S_, .f32⟩ : BufTy).Contents (Elt F)) ]

-- ninety-two binds re-associated: the rewrite under the chain recurses once per statement
set_option maxRecDepth 4096 in
set_option maxHeartbeats 1600000 in
/-- The program is that straight line: the functions' definitions unfolded at their calls and the records at their
    fields, both sides are one chain of steps once sequencing is re-associated. -/
theorem main_eq (c : Dev nD) : main (F := F) c = seq ops := by
  simp only [main, fn_take.body, fn_where.body, fn_log_softmax.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    unary_bufs_sub .., unary_bufs_sub .., binary_bufs_sub .., unary_bufs_sub .., binary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub .., unary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., reshape_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., nullary_bufs_sub ..,
    unary_bufs_sub .., ternary_bufs_sub .., reshape_bufs_sub .., unary_bufs_sub .., nullary_bufs_sub .., binary_bufs_sub ..,
    nullary_bufs_sub .., binary_bufs_sub ..⟩

/-! ## The value each operation leaves in its buffer -/

def val_main_call0_c : (⟨S_, .i32⟩ : BufTy).Contents (Elt F) :=
  (constantI S_ 32 0#32)
def val_main_call0_v0 : (⟨S16384, .i32⟩ : BufTy).Contents (Elt F) :=
  ((broadcastInDim S16384 ![] bcast_S_S16384) : (⟨S_, .i32⟩ : BufTy).Contents (Elt F) → (⟨S16384, .i32⟩ : BufTy).Contents (Elt F)) (val_main_call0_c (F := F))
def val_main_call0_v1 (a0 : (⟨S16384, .i32⟩ : BufTy).Contents (Elt F)) : (⟨S16384, .i1⟩ : BufTy).Contents (Elt F) :=
  ((cmpi .slt) : (⟨S16384, .i32⟩ : BufTy).Contents (Elt F) → (⟨S16384, .i32⟩ : BufTy).Contents (Elt F) → (⟨S16384, .i1⟩ : BufTy).Contents (Elt F)) a0 (val_main_call0_v0 (F := F))
def val_main_call0_c_0 : (⟨S_, .i32⟩ : BufTy).Contents (Elt F) :=
  (constantI S_ 32 1000#32)
def val_main_call0_v2 : (⟨S16384, .i32⟩ : BufTy).Contents (Elt F) :=
  ((broadcastInDim S16384 ![] bcast_S_S16384) : (⟨S_, .i32⟩ : BufTy).Contents (Elt F) → (⟨S16384, .i32⟩ : BufTy).Contents (Elt F)) (val_main_call0_c_0 (F := F))
def val_main_call0_v3 (a0 : (⟨S16384, .i32⟩ : BufTy).Contents (Elt F)) : (⟨S16384, .i32⟩ : BufTy).Contents (Elt F) :=
  (addi : (⟨S16384, .i32⟩ : BufTy).Contents (Elt F) → (⟨S16384, .i32⟩ : BufTy).Contents (Elt F) → (⟨S16384, .i32⟩ : BufTy).Contents (Elt F)) a0 (val_main_call0_v2 (F := F))
def val_main_call0_v4 (a0 : (⟨S16384, .i32⟩ : BufTy).Contents (Elt F)) : (⟨S16384, .i32⟩ : BufTy).Contents (Elt F) :=
  (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) (val_main_call0_v1 (F := F) a0) (val_main_call0_v3 (F := F) a0) a0
def val_main_call0_v5 (a0 : (⟨S16384, .i32⟩ : BufTy).Contents (Elt F)) : (⟨S16384x1, .i32⟩ : BufTy).Contents (Elt F) :=
  ((broadcastInDim S16384x1 ![0] bcast_S16384_S16384x1_0) : (⟨S16384, .i32⟩ : BufTy).Contents (Elt F) → (⟨S16384x1, .i32⟩ : BufTy).Contents (Elt F)) (val_main_call0_v4 (F := F) a0)
def val_main_call0_c_1 : (⟨S1, .i32⟩ : BufTy).Contents (Elt F) :=
  (constantI S1 32 999#32)
def val_main_call0_c_2 : (⟨S_, .i32⟩ : BufTy).Contents (Elt F) :=
  (constantI S_ 32 0#32)
def val_main_call0_v6 : (⟨S16384x1, .i32⟩ : BufTy).Contents (Elt F) :=
  ((broadcastInDim S16384x1 ![] bcast_S_S16384x1) : (⟨S_, .i32⟩ : BufTy).Contents (Elt F) → (⟨S16384x1, .i32⟩ : BufTy).Contents (Elt F)) (val_main_call0_c_2 (F := F))
def val_main_call0_v7 (a0 : (⟨S16384, .i32⟩ : BufTy).Contents (Elt F)) : (⟨S16384x1, .i1⟩ : BufTy).Contents (Elt F) :=
  ((cmpi .sge) : (⟨S16384x1, .i32⟩ : BufTy).Contents (Elt F) → (⟨S16384x1, .i32⟩ : BufTy).Contents (Elt F) → (⟨S16384x1, .i1⟩ : BufTy).Contents (Elt F)) (val_main_call0_v5 (F := F) a0) (val_main_call0_v6 (F := F))
def val_main_call0_v8 : (⟨S1x1, .i32⟩ : BufTy).Contents (Elt F) :=
  ((broadcastInDim S1x1 ![1] bcast_S1_S1x1_1) : (⟨S1, .i32⟩ : BufTy).Contents (Elt F) → (⟨S1x1, .i32⟩ : BufTy).Contents (Elt F)) (val_main_call0_c_1 (F := F))
def val_main_call0_v9 : (⟨S16384x1, .i32⟩ : BufTy).Contents (Elt F) :=
  ((broadcastInDim S16384x1 ![0, 1] bcast_S1x1_S16384x1_0_1) : (⟨S1x1, .i32⟩ : BufTy).Contents (Elt F) → (⟨S16384x1, .i32⟩ : BufTy).Contents (Elt F)) (val_main_call0_v8 (F := F))
def val_main_call0_v10 (a0 : (⟨S16384, .i32⟩ : BufTy).Contents (Elt F)) : (⟨S16384x1, .i1⟩ : BufTy).Contents (Elt F) :=
  ((cmpi .sle) : (⟨S16384x1, .i32⟩ : BufTy).Contents (Elt F) → (⟨S16384x1, .i32⟩ : BufTy).Contents (Elt F) → (⟨S16384x1, .i1⟩ : BufTy).Contents (Elt F)) (val_main_call0_v5 (F := F) a0) (val_main_call0_v9 (F := F))
def val_main_call0_v11 (a0 : (⟨S16384, .i32⟩ : BufTy).Contents (Elt F)) : (⟨S16384x1, .i1⟩ : BufTy).Contents (Elt F) :=
  (andi : (⟨S16384x1, .i1⟩ : BufTy).Contents (Elt F) → (⟨S16384x1, .i1⟩ : BufTy).Contents (Elt F) → (⟨S16384x1, .i1⟩ : BufTy).Contents (Elt F)) (val_main_call0_v7 (F := F) a0) (val_main_call0_v10 (F := F) a0)
def val_main_call0_c_3 : (⟨S_, .i1⟩ : BufTy).Contents (Elt F) :=
  (constantI S_ 1 1#1)
def val_main_call0_v12 (a0 : (⟨S16384, .i32⟩ : BufTy).Contents (Elt F)) : (⟨S16384, .i1⟩ : BufTy).Contents (Elt F) :=
  ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)) (val_main_call0_v11 (F := F) a0) (val_main_call0_c_3 (F := F))
def val_main_call0_v13 (a0 : (⟨S16384, .i32⟩ : BufTy).Contents (Elt F)) (a1 : (⟨S1000x128, .f32⟩ : BufTy).Contents (Elt F)) : (⟨S16384x128, .f32⟩ : BufTy).Contents (Elt F) :=
  ((fun x i => Host.gather gather_S1000x128_S16384x1_S16384x128_1_0_n_n_0_1_1128 x i) : (⟨S1000x128, .f32⟩ : BufTy).Contents (Elt F) → (⟨S16384x1, .i32⟩ : BufTy).Contents (Elt F) → (⟨S16384x128, .f32⟩ : BufTy).Contents (Elt F)) a1 (val_main_call0_v5 (F := F) a0)
def val_main_call0_v14 (a0 : (⟨S16384, .i32⟩ : BufTy).Contents (Elt F)) : (⟨S16384x128, .i1⟩ : BufTy).Contents (Elt F) :=
  ((broadcastInDim S16384x128 ![0] bcast_S16384_S16384x128_0) : (⟨S16384, .i1⟩ : BufTy).Contents (Elt F) → (⟨S16384x128, .i1⟩ : BufTy).Contents (Elt F)) (val_main_call0_v12 (F := F) a0)
def val_main_call0_cst : (⟨S_, .f32⟩ : BufTy).Contents (Elt F) :=
  (constant S_ .f32 0x7FC00000#32)
def val_main_call0_v15 : (⟨S16384x128, .f32⟩ : BufTy).Contents (Elt F) :=
  ((broadcastInDim S16384x128 ![] bcast_S_S16384x128) : (⟨S_, .f32⟩ : BufTy).Contents (Elt F) → (⟨S16384x128, .f32⟩ : BufTy).Contents (Elt F)) (val_main_call0_cst (F := F))
def val_main_v0 (a0 : (⟨S16384, .i32⟩ : BufTy).Contents (Elt F)) (a1 : (⟨S1000x128, .f32⟩ : BufTy).Contents (Elt F)) : (⟨S16384x128, .f32⟩ : BufTy).Contents (Elt F) :=
  (select : (⟨S16384x128, .i1⟩ : BufTy).Contents (Elt F) → (⟨S16384x128, .f32⟩ : BufTy).Contents (Elt F) → (⟨S16384x128, .f32⟩ : BufTy).Contents (Elt F) → (⟨S16384x128, .f32⟩ : BufTy).Contents (Elt F)) (val_main_call0_v14 (F := F) a0) (val_main_call0_v13 (F := F) a0 a1) (val_main_call0_v15 (F := F))
def val_main_v1 (a0 : (⟨S16384, .i32⟩ : BufTy).Contents (Elt F)) (a1 : (⟨S1000x128, .f32⟩ : BufTy).Contents (Elt F)) : (⟨S16384x128, .f32⟩ : BufTy).Contents (Elt F) :=
  ((Host.tanh : (⟨S16384x128, .f32⟩ : BufTy).Contents (Elt F) → (⟨S16384x128, .f32⟩ : BufTy).Contents (Elt F)) : (⟨S16384x128, .f32⟩ : BufTy).Contents (Elt F) → (⟨S16384x128, .f32⟩ : BufTy).Contents (Elt F)) (val_main_v0 (F := F) a0 a1)
def val_main_v2 (a0 : (⟨S16384, .i32⟩ : BufTy).Contents (Elt F)) (a1 : (⟨S1000x128, .f32⟩ : BufTy).Contents (Elt F)) : (⟨S16382x128, .f32⟩ : BufTy).Contents (Elt F) :=
  (((extractStridedSlice S16382x128 ![0, 0] · slices_S16384x128_S16382x128_0_0) : (⟨S16384x128, .f32⟩ : BufTy).Contents (Elt F) → (⟨S16382x128, .f32⟩ : BufTy).Contents (Elt F)) : (⟨S16384x128, .f32⟩ : BufTy).Contents (Elt F) → (⟨S16382x128, .f32⟩ : BufTy).Contents (Elt F)) (val_main_v1 (F := F) a0 a1)
def val_main_v3 (a0 : (⟨S16384, .i32⟩ : BufTy).Contents (Elt F)) (a1 : (⟨S1000x128, .f32⟩ : BufTy).Contents (Elt F)) : (⟨S16382x128, .f32⟩ : BufTy).Contents (Elt F) :=
  (((extractStridedSlice S16382x128 ![2, 0] · slices_S16384x128_S16382x128_2_0) : (⟨S16384x128, .f32⟩ : BufTy).Contents (Elt F) → (⟨S16382x128, .f32⟩ : BufTy).Contents (Elt F)) : (⟨S16384x128, .f32⟩ : BufTy).Contents (Elt F) → (⟨S16382x128, .f32⟩ : BufTy).Contents (Elt F)) (val_main_v1 (F := F) a0 a1)
def val_main_v4 (a0 : (⟨S16384, .i32⟩ : BufTy).Contents (Elt F)) (a1 : (⟨S1000x128, .f32⟩ : BufTy).Contents (Elt F)) : (⟨S16382x128, .f32⟩ : BufTy).Contents (Elt F) :=
  ((addf : (⟨S16382x128, .f32⟩ : BufTy).Contents (Elt F) → (⟨S16382x128, .f32⟩ : BufTy).Contents (Elt F) → (⟨S16382x128, .f32⟩ : BufTy).Contents (Elt F)) : (⟨S16382x128, .f32⟩ : BufTy).Contents (Elt F) → (⟨S16382x128, .f32⟩ : BufTy).Contents (Elt F) → (⟨S16382x128, .f32⟩ : BufTy).Contents (Elt F)) (val_main_v2 (F := F) a0 a1) (val_main_v3 (F := F) a0 a1)
def val_main_v5 (a2 : (⟨S1000x128, .f32⟩ : BufTy).Contents (Elt F)) : (⟨S128x1000, .f32⟩ : BufTy).Contents (Elt F) :=
  (((transpose S128x1000 [1, 0] · transposes_S1000x128_S128x1000_1_0) : (⟨S1000x128, .f32⟩ : BufTy).Contents (Elt F) → (⟨S128x1000, .f32⟩ : BufTy).Contents (Elt F)) : (⟨S1000x128, .f32⟩ : BufTy).Contents (Elt F) → (⟨S128x1000, .f32⟩ : BufTy).Contents (Elt F)) a2
def val_main_v6 (a0 : (⟨S16384, .i32⟩ : BufTy).Contents (Elt F)) (a1 : (⟨S1000x128, .f32⟩ : BufTy).Contents (Elt F)) (a2 : (⟨S1000x128, .f32⟩ : BufTy).Contents (Elt F)) : (⟨S16382x1000, .f32⟩ : BufTy).Contents (Elt F) :=
  (((fun l r => Host.dotGeneral dot_S16382x128_S128x1000_S16382x1000_1_0_0_1_n_n none l r) : (⟨S16382x128, .f32⟩ : BufTy).Contents (Elt F) → (⟨S128x1000, .f32⟩ : BufTy).Contents (Elt F) → (⟨S16382x1000, .f32⟩ : BufTy).Contents (Elt F)) : (⟨S16382x128, .f32⟩ : BufTy).Contents (Elt F) → (⟨S128x1000, .f32⟩ : BufTy).Contents (Elt F) → (⟨S16382x1000, .f32⟩ : BufTy).Contents (Elt F)) (val_main_v4 (F := F) a0 a1) (val_main_v5 (F := F) a2)
def val_main_v7 (a3 : (⟨S1000, .f32⟩ : BufTy).Contents (Elt F)) : (⟨S1x1000, .f32⟩ : BufTy).Contents (Elt F) :=
  ((broadcastInDim S1x1000 ![1] bcast_S1000_S1x1000_1 : (⟨S1000, .f32⟩ : BufTy).Contents (Elt F) → (⟨S1x1000, .f32⟩ : BufTy).Contents (Elt F)) : (⟨S1000, .f32⟩ : BufTy).Contents (Elt F) → (⟨S1x1000, .f32⟩ : BufTy).Contents (Elt F)) a3
def val_main_v8 (a3 : (⟨S1000, .f32⟩ : BufTy).Contents (Elt F)) : (⟨S16382x1000, .f32⟩ : BufTy).Contents (Elt F) :=
  ((broadcastInDim S16382x1000 ![0, 1] bcast_S1x1000_S16382x1000_0_1 : (⟨S1x1000, .f32⟩ : BufTy).Contents (Elt F) → (⟨S16382x1000, .f32⟩ : BufTy).Contents (Elt F)) : (⟨S1x1000, .f32⟩ : BufTy).Contents (Elt F) → (⟨S16382x1000, .f32⟩ : BufTy).Contents (Elt F)) (val_main_v7 (F := F) a3)
def val_main_v9 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  ((addf : (⟨S16382x1000, .f32⟩ : BufTy).Contents (Elt F) → (⟨S16382x1000, .f32⟩ : BufTy).Contents (Elt F) → (⟨S16382x1000, .f32⟩ : BufTy).Contents (Elt F)) : (⟨S16382x1000, .f32⟩ : BufTy).Contents (Elt F) → (⟨S16382x1000, .f32⟩ : BufTy).Contents (Elt F) → (⟨S16382x1000, .f32⟩ : BufTy).Contents (Elt F)) (val_main_v6 (F := F) a0 a1 a2) (val_main_v8 (F := F) a3)
def val_main_call1_cst : (⟨S_, .f32⟩ : BufTy).Contents (Elt F) :=
  (constant S_ .f32 0xFF800000#32)
def val_main_call1_v0 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  ((fun x v => Host.reduce FloatOps.maximumf x v reducesTo_S16382x1000_S16382_d1 h_S_) : (⟨S16382x1000, .f32⟩ : BufTy).Contents (Elt F) → (⟨S_, .f32⟩ : BufTy).Contents (Elt F) → (⟨S16382, .f32⟩ : BufTy).Contents (Elt F)) (val_main_v9 (F := F) a0 a1 a2 a3) (val_main_call1_cst (F := F))
def val_main_call1_cst_0 : (⟨S_, .f32⟩ : BufTy).Contents (Elt F) :=
  (constant S_ .f32 0xFF800000#32)
def val_main_call1_v1 : (⟨S16382, .f32⟩ : BufTy).Contents (Elt F) :=
  ((broadcastInDim S16382 ![] bcast_S_S16382) : (⟨S_, .f32⟩ : BufTy).Contents (Elt F) → (⟨S16382, .f32⟩ : BufTy).Contents (Elt F)) (val_main_call1_cst_0 (F := F))
def val_main_call1_v2 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  (maximumf : (⟨S16382, .f32⟩ : BufTy).Contents (Elt F) → (⟨S16382, .f32⟩ : BufTy).Contents (Elt F) → (⟨S16382, .f32⟩ : BufTy).Contents (Elt F)) (val_main_call1_v1 (F := F)) (val_main_call1_v0 (F := F) a0 a1 a2 a3)
def val_main_call1_v3 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  ((broadcastInDim S16382x1 ![0] bcast_S16382_S16382x1_0) : (⟨S16382, .f32⟩ : BufTy).Contents (Elt F) → (⟨S16382x1, .f32⟩ : BufTy).Contents (Elt F)) (val_main_call1_v2 (F := F) a0 a1 a2 a3)
def val_main_call1_v4 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  ((broadcastInDim S16382x1000 ![0, 1] bcast_S16382x1_S16382x1000_0_1) : (⟨S16382x1, .f32⟩ : BufTy).Contents (Elt F) → (⟨S16382x1000, .f32⟩ : BufTy).Contents (Elt F)) (val_main_call1_v3 (F := F) a0 a1 a2 a3)
def val_main_call1_v5 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (subf : (⟨S16382x1000, .f32⟩ : BufTy).Contents (Elt F) → (⟨S16382x1000, .f32⟩ : BufTy).Contents (Elt F) → (⟨S16382x1000, .f32⟩ : BufTy).Contents (Elt F)) (val_main_v9 (F := F) a0 a1 a2 a3) (val_main_call1_v4 (F := F) a0 a1 a2 a3)
def val_main_call1_v6 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (Host.exp : (⟨S16382x1000, .f32⟩ : BufTy).Contents (Elt F) → (⟨S16382x1000, .f32⟩ : BufTy).Contents (Elt F)) (val_main_call1_v5 (F := F) a0 a1 a2 a3)
def val_main_call1_cst_1 : (⟨S_, .f32⟩ : BufTy).Contents (Elt F) :=
  (constant S_ .f32 0x00000000#32)
def val_main_call1_v7 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  ((fun x v => Host.reduceAdd x v reducesTo_S16382x1000_S16382_d1 h_S_) : (⟨S16382x1000, .f32⟩ : BufTy).Contents (Elt F) → (⟨S_, .f32⟩ : BufTy).Contents (Elt F) → (⟨S16382, .f32⟩ : BufTy).Contents (Elt F)) (val_main_call1_v6 (F := F) a0 a1 a2 a3) (val_main_call1_cst_1 (F := F))
def val_main_call1_v8 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  ((broadcastInDim S16382x1 ![0] bcast_S16382_S16382x1_0) : (⟨S16382, .f32⟩ : BufTy).Contents (Elt F) → (⟨S16382x1, .f32⟩ : BufTy).Contents (Elt F)) (val_main_call1_v7 (F := F) a0 a1 a2 a3)
def val_main_call1_v9 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  (Host.log : (⟨S16382x1, .f32⟩ : BufTy).Contents (Elt F) → (⟨S16382x1, .f32⟩ : BufTy).Contents (Elt F)) (val_main_call1_v8 (F := F) a0 a1 a2 a3)
def val_main_call1_v10 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  ((broadcastInDim S16382x1000 ![0, 1] bcast_S16382x1_S16382x1000_0_1) : (⟨S16382x1, .f32⟩ : BufTy).Contents (Elt F) → (⟨S16382x1000, .f32⟩ : BufTy).Contents (Elt F)) (val_main_call1_v9 (F := F) a0 a1 a2 a3)
def val_main_v10 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (subf : (⟨S16382x1000, .f32⟩ : BufTy).Contents (Elt F) → (⟨S16382x1000, .f32⟩ : BufTy).Contents (Elt F) → (⟨S16382x1000, .f32⟩ : BufTy).Contents (Elt F)) (val_main_call1_v5 (F := F) a0 a1 a2 a3) (val_main_call1_v10 (F := F) a0 a1 a2 a3)
def val_main_v11 (a0 : (⟨S16384, .i32⟩ : BufTy).Contents (Elt F)) : (⟨S16382, .i32⟩ : BufTy).Contents (Elt F) :=
  (((extractStridedSlice S16382 ![1] · slices_S16384_S16382_1) : (⟨S16384, .i32⟩ : BufTy).Contents (Elt F) → (⟨S16382, .i32⟩ : BufTy).Contents (Elt F)) : (⟨S16384, .i32⟩ : BufTy).Contents (Elt F) → (⟨S16382, .i32⟩ : BufTy).Contents (Elt F)) a0
def val_main_call2_cst : (⟨S_, .f32⟩ : BufTy).Contents (Elt F) :=
  (constant S_ .f32 0xFF800000#32)
def val_main_call2_v0 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  ((fun x v => Host.reduce FloatOps.maximumf x v reducesTo_S16382x1000_S16382_d1 h_S_) : (⟨S16382x1000, .f32⟩ : BufTy).Contents (Elt F) → (⟨S_, .f32⟩ : BufTy).Contents (Elt F) → (⟨S16382, .f32⟩ : BufTy).Contents (Elt F)) (val_main_v10 (F := F) a0 a1 a2 a3) (val_main_call2_cst (F := F))
def val_main_call2_cst_0 : (⟨S_, .f32⟩ : BufTy).Contents (Elt F) :=
  (constant S_ .f32 0xFF800000#32)
def val_main_call2_v1 : (⟨S16382, .f32⟩ : BufTy).Contents (Elt F) :=
  ((broadcastInDim S16382 ![] bcast_S_S16382) : (⟨S_, .f32⟩ : BufTy).Contents (Elt F) → (⟨S16382, .f32⟩ : BufTy).Contents (Elt F)) (val_main_call2_cst_0 (F := F))
def val_main_call2_v2 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  (maximumf : (⟨S16382, .f32⟩ : BufTy).Contents (Elt F) → (⟨S16382, .f32⟩ : BufTy).Contents (Elt F) → (⟨S16382, .f32⟩ : BufTy).Contents (Elt F)) (val_main_call2_v1 (F := F)) (val_main_call2_v0 (F := F) a0 a1 a2 a3)
def val_main_call2_v3 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  ((broadcastInDim S16382x1 ![0] bcast_S16382_S16382x1_0) : (⟨S16382, .f32⟩ : BufTy).Contents (Elt F) → (⟨S16382x1, .f32⟩ : BufTy).Contents (Elt F)) (val_main_call2_v2 (F := F) a0 a1 a2 a3)
def val_main_call2_v4 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  ((broadcastInDim S16382x1000 ![0, 1] bcast_S16382x1_S16382x1000_0_1) : (⟨S16382x1, .f32⟩ : BufTy).Contents (Elt F) → (⟨S16382x1000, .f32⟩ : BufTy).Contents (Elt F)) (val_main_call2_v3 (F := F) a0 a1 a2 a3)
def val_main_call2_v5 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (subf : (⟨S16382x1000, .f32⟩ : BufTy).Contents (Elt F) → (⟨S16382x1000, .f32⟩ : BufTy).Contents (Elt F) → (⟨S16382x1000, .f32⟩ : BufTy).Contents (Elt F)) (val_main_v10 (F := F) a0 a1 a2 a3) (val_main_call2_v4 (F := F) a0 a1 a2 a3)
def val_main_call2_v6 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (Host.exp : (⟨S16382x1000, .f32⟩ : BufTy).Contents (Elt F) → (⟨S16382x1000, .f32⟩ : BufTy).Contents (Elt F)) (val_main_call2_v5 (F := F) a0 a1 a2 a3)
def val_main_call2_cst_1 : (⟨S_, .f32⟩ : BufTy).Contents (Elt F) :=
  (constant S_ .f32 0x00000000#32)
def val_main_call2_v7 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  ((fun x v => Host.reduceAdd x v reducesTo_S16382x1000_S16382_d1 h_S_) : (⟨S16382x1000, .f32⟩ : BufTy).Contents (Elt F) → (⟨S_, .f32⟩ : BufTy).Contents (Elt F) → (⟨S16382, .f32⟩ : BufTy).Contents (Elt F)) (val_main_call2_v6 (F := F) a0 a1 a2 a3) (val_main_call2_cst_1 (F := F))
def val_main_call2_v8 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  ((broadcastInDim S16382x1 ![0] bcast_S16382_S16382x1_0) : (⟨S16382, .f32⟩ : BufTy).Contents (Elt F) → (⟨S16382x1, .f32⟩ : BufTy).Contents (Elt F)) (val_main_call2_v7 (F := F) a0 a1 a2 a3)
def val_main_call2_v9 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  (Host.log : (⟨S16382x1, .f32⟩ : BufTy).Contents (Elt F) → (⟨S16382x1, .f32⟩ : BufTy).Contents (Elt F)) (val_main_call2_v8 (F := F) a0 a1 a2 a3)
def val_main_call2_v10 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  ((broadcastInDim S16382x1000 ![0, 1] bcast_S16382x1_S16382x1000_0_1) : (⟨S16382x1, .f32⟩ : BufTy).Contents (Elt F) → (⟨S16382x1000, .f32⟩ : BufTy).Contents (Elt F)) (val_main_call2_v9 (F := F) a0 a1 a2 a3)
def val_main_v12 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1000, .f32⟩ : BufTy).Contents (Elt F) :=
  (subf : (⟨S16382x1000, .f32⟩ : BufTy).Contents (Elt F) → (⟨S16382x1000, .f32⟩ : BufTy).Contents (Elt F) → (⟨S16382x1000, .f32⟩ : BufTy).Contents (Elt F)) (val_main_call2_v5 (F := F) a0 a1 a2 a3) (val_main_call2_v10 (F := F) a0 a1 a2 a3)
def val_main_v13 (a0 : (⟨S16384, .i32⟩ : BufTy).Contents (Elt F)) : (⟨S16382x1, .i32⟩ : BufTy).Contents (Elt F) :=
  ((broadcastInDim S16382x1 ![0] bcast_S16382_S16382x1_0 : (⟨S16382, .i32⟩ : BufTy).Contents (Elt F) → (⟨S16382x1, .i32⟩ : BufTy).Contents (Elt F)) : (⟨S16382, .i32⟩ : BufTy).Contents (Elt F) → (⟨S16382x1, .i32⟩ : BufTy).Contents (Elt F)) (val_main_v11 (F := F) a0)
def val_main_call3_c : (⟨S_, .i32⟩ : BufTy).Contents (Elt F) :=
  (constantI S_ 32 0#32)
def val_main_call3_v0 : (⟨S16382x1, .i32⟩ : BufTy).Contents (Elt F) :=
  ((broadcastInDim S16382x1 ![] bcast_S_S16382x1) : (⟨S_, .i32⟩ : BufTy).Contents (Elt F) → (⟨S16382x1, .i32⟩ : BufTy).Contents (Elt F)) (val_main_call3_c (F := F))
def val_main_call3_v1 (a0 : (⟨S16384, .i32⟩ : BufTy).Contents (Elt F)) : (⟨S16382x1, .i1⟩ : BufTy).Contents (Elt F) :=
  ((cmpi .slt) : (⟨S16382x1, .i32⟩ : BufTy).Contents (Elt F) → (⟨S16382x1, .i32⟩ : BufTy).Contents (Elt F) → (⟨S16382x1, .i1⟩ : BufTy).Contents (Elt F)) (val_main_v13 (F := F) a0) (val_main_call3_v0 (F := F))
def val_main_call3_c_0 : (⟨S_, .i32⟩ : BufTy).Contents (Elt F) :=
  (constantI S_ 32 1000#32)
def val_main_call3_v2 : (⟨S16382x1, .i32⟩ : BufTy).Contents (Elt F) :=
  ((broadcastInDim S16382x1 ![] bcast_S_S16382x1) : (⟨S_, .i32⟩ : BufTy).Contents (Elt F) → (⟨S16382x1, .i32⟩ : BufTy).Contents (Elt F)) (val_main_call3_c_0 (F := F))
def val_main_call3_v3 (a0 : (⟨S16384, .i32⟩ : BufTy).Contents (Elt F)) : (⟨S16382x1, .i32⟩ : BufTy).Contents (Elt F) :=
  (addi : (⟨S16382x1, .i32⟩ : BufTy).Contents (Elt F) → (⟨S16382x1, .i32⟩ : BufTy).Contents (Elt F) → (⟨S16382x1, .i32⟩ : BufTy).Contents (Elt F)) (val_main_v13 (F := F) a0) (val_main_call3_v2 (F := F))
def val_main_call3_v4 (a0 : (⟨S16384, .i32⟩ : BufTy).Contents (Elt F)) : (⟨S16382x1, .i32⟩ : BufTy).Contents (Elt F) :=
  (select : (⟨S16382x1, .i1⟩ : BufTy).Contents (Elt F) → (⟨S16382x1, .i32⟩ : BufTy).Contents (Elt F) → (⟨S16382x1, .i32⟩ : BufTy).Contents (Elt F) → (⟨S16382x1, .i32⟩ : BufTy).Contents (Elt F)) (val_main_call3_v1 (F := F) a0) (val_main_call3_v3 (F := F) a0) (val_main_v13 (F := F) a0)
def val_main_call3_v5 (a0 : (⟨S16384, .i32⟩ : BufTy).Contents (Elt F)) : (⟨S16382x1x1, .i32⟩ : BufTy).Contents (Elt F) :=
  fun i => shapeCast S16382x1x1 (val_main_call3_v4 (F := F) a0) shapeCasts_S16382x1_S16382x1x1 i
def val_main_call3_c_1 : (⟨S1, .i32⟩ : BufTy).Contents (Elt F) :=
  (constantI S1 32 999#32)
def val_main_call3_c_2 : (⟨S_, .i32⟩ : BufTy).Contents (Elt F) :=
  (constantI S_ 32 0#32)
def val_main_call3_v6 : (⟨S16382x1x1, .i32⟩ : BufTy).Contents (Elt F) :=
  ((broadcastInDim S16382x1x1 ![] bcast_S_S16382x1x1) : (⟨S_, .i32⟩ : BufTy).Contents (Elt F) → (⟨S16382x1x1, .i32⟩ : BufTy).Contents (Elt F)) (val_main_call3_c_2 (F := F))
def val_main_call3_v7 (a0 : (⟨S16384, .i32⟩ : BufTy).Contents (Elt F)) : (⟨S16382x1x1, .i1⟩ : BufTy).Contents (Elt F) :=
  ((cmpi .sge) : (⟨S16382x1x1, .i32⟩ : BufTy).Contents (Elt F) → (⟨S16382x1x1, .i32⟩ : BufTy).Contents (Elt F) → (⟨S16382x1x1, .i1⟩ : BufTy).Contents (Elt F)) (val_main_call3_v5 (F := F) a0) (val_main_call3_v6 (F := F))
def val_main_call3_v8 : (⟨S1x1x1, .i32⟩ : BufTy).Contents (Elt F) :=
  ((broadcastInDim S1x1x1 ![2] bcast_S1_S1x1x1_2) : (⟨S1, .i32⟩ : BufTy).Contents (Elt F) → (⟨S1x1x1, .i32⟩ : BufTy).Contents (Elt F)) (val_main_call3_c_1 (F := F))
def val_main_call3_v9 : (⟨S16382x1x1, .i32⟩ : BufTy).Contents (Elt F) :=
  ((broadcastInDim S16382x1x1 ![0, 1, 2] bcast_S1x1x1_S16382x1x1_0_1_2) : (⟨S1x1x1, .i32⟩ : BufTy).Contents (Elt F) → (⟨S16382x1x1, .i32⟩ : BufTy).Contents (Elt F)) (val_main_call3_v8 (F := F))
def val_main_call3_v10 (a0 : (⟨S16384, .i32⟩ : BufTy).Contents (Elt F)) : (⟨S16382x1x1, .i1⟩ : BufTy).Contents (Elt F) :=
  ((cmpi .sle) : (⟨S16382x1x1, .i32⟩ : BufTy).Contents (Elt F) → (⟨S16382x1x1, .i32⟩ : BufTy).Contents (Elt F) → (⟨S16382x1x1, .i1⟩ : BufTy).Contents (Elt F)) (val_main_call3_v5 (F := F) a0) (val_main_call3_v9 (F := F))
def val_main_call3_v11 (a0 : (⟨S16384, .i32⟩ : BufTy).Contents (Elt F)) : (⟨S16382x1x1, .i1⟩ : BufTy).Contents (Elt F) :=
  (andi : (⟨S16382x1x1, .i1⟩ : BufTy).Contents (Elt F) → (⟨S16382x1x1, .i1⟩ : BufTy).Contents (Elt F) → (⟨S16382x1x1, .i1⟩ : BufTy).Contents (Elt F)) (val_main_call3_v7 (F := F) a0) (val_main_call3_v10 (F := F) a0)
def val_main_call3_c_3 : (⟨S_, .i1⟩ : BufTy).Contents (Elt F) :=
  (constantI S_ 1 1#1)
def val_main_call3_v12 (a0 : (⟨S16384, .i32⟩ : BufTy).Contents (Elt F)) : (⟨S16382x1, .i1⟩ : BufTy).Contents (Elt F) :=
  ((fun x v => Host.reduce IntOp.andi x v reducesTo_S16382x1x1_S16382x1_d2 h_S_) : (⟨S16382x1x1, .i1⟩ : BufTy).Contents (Elt F) → (⟨S_, .i1⟩ : BufTy).Contents (Elt F) → (⟨S16382x1, .i1⟩ : BufTy).Contents (Elt F)) (val_main_call3_v11 (F := F) a0) (val_main_call3_c_3 (F := F))
def val_main_call3_v13 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  ((fun x i => Host.gather gather_S16382x1000_S16382x1x1_S16382x1_n_1_0_0_1_2_11 x i) : (⟨S16382x1000, .f32⟩ : BufTy).Contents (Elt F) → (⟨S16382x1x1, .i32⟩ : BufTy).Contents (Elt F) → (⟨S16382x1, .f32⟩ : BufTy).Contents (Elt F)) (val_main_v12 (F := F) a0 a1 a2 a3) (val_main_call3_v5 (F := F) a0)
def val_main_call3_cst : (⟨S_, .f32⟩ : BufTy).Contents (Elt F) :=
  (constant S_ .f32 0x7FC00000#32)
def val_main_call3_v14 : (⟨S16382x1, .f32⟩ : BufTy).Contents (Elt F) :=
  ((broadcastInDim S16382x1 ![] bcast_S_S16382x1) : (⟨S_, .f32⟩ : BufTy).Contents (Elt F) → (⟨S16382x1, .f32⟩ : BufTy).Contents (Elt F)) (val_main_call3_cst (F := F))
def val_main_v14 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382x1, .f32⟩ : BufTy).Contents (Elt F) :=
  (select : (⟨S16382x1, .i1⟩ : BufTy).Contents (Elt F) → (⟨S16382x1, .f32⟩ : BufTy).Contents (Elt F) → (⟨S16382x1, .f32⟩ : BufTy).Contents (Elt F) → (⟨S16382x1, .f32⟩ : BufTy).Contents (Elt F)) (val_main_call3_v12 (F := F) a0) (val_main_call3_v13 (F := F) a0 a1 a2 a3) (val_main_call3_v14 (F := F))
def val_main_v15 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  fun i => shapeCast S16382 (val_main_v14 (F := F) a0 a1 a2 a3) shapeCasts_S16382x1_S16382 i
def val_main_v16 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S16382, .f32⟩ : BufTy).Contents (Elt F) :=
  ((Host.negf : (⟨S16382, .f32⟩ : BufTy).Contents (Elt F) → (⟨S16382, .f32⟩ : BufTy).Contents (Elt F)) : (⟨S16382, .f32⟩ : BufTy).Contents (Elt F) → (⟨S16382, .f32⟩ : BufTy).Contents (Elt F)) (val_main_v15 (F := F) a0 a1 a2 a3)
def val_main_cst : (⟨S_, .f32⟩ : BufTy).Contents (Elt F) :=
  (constant S_ .f32 0x00000000#32)
def val_main_v17 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S_, .f32⟩ : BufTy).Contents (Elt F) :=
  (((fun x v => Host.reduceAdd x v reducesTo_S16382_S_d0 h_S_) : (⟨S16382, .f32⟩ : BufTy).Contents (Elt F) → (⟨S_, .f32⟩ : BufTy).Contents (Elt F) → (⟨S_, .f32⟩ : BufTy).Contents (Elt F)) : (⟨S16382, .f32⟩ : BufTy).Contents (Elt F) → (⟨S_, .f32⟩ : BufTy).Contents (Elt F) → (⟨S_, .f32⟩ : BufTy).Contents (Elt F)) (val_main_v16 (F := F) a0 a1 a2 a3) (val_main_cst (F := F))
def val_main_cst_0 : (⟨S_, .f32⟩ : BufTy).Contents (Elt F) :=
  (constant S_ .f32 0x467FF800#32)
def val_main_v18 (a0 : (⟨S16384, .i32⟩ : BufTy).Contents (Elt F)) (a1 : (⟨S1000x128, .f32⟩ : BufTy).Contents (Elt F)) (a2 : (⟨S1000x128, .f32⟩ : BufTy).Contents (Elt F)) (a3 : (⟨S1000, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) : (⟨S_, .f32⟩ : BufTy).Contents (Elt F) → (⟨S_, .f32⟩ : BufTy).Contents (Elt F) → (⟨S_, .f32⟩ : BufTy).Contents (Elt F)) (val_main_v17 (F := F) a0 a1 a2 a3) (val_main_cst_0 (F := F))

/-! ## The line read window by window -/

/-- The contents after two lines run one after the other. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Operations 0 to 22 of the program. -/
abbrev W0 : List (HloOp τ sig (Elt F)) :=
  [
    StableHlo.TRef.nullary main_call0.c (constantI S_ 32 0#32),
    StableHlo.TRef.unary main_call0.c main_call0.v0 (broadcastInDim S16384 ![] bcast_S_S16384),
    StableHlo.TRef.binary (StableHlo.TRef.of (T := ⟨S16384, .i32⟩) main_arg0) main_call0.v0 main_call0.v1 (cmpi .slt),
    StableHlo.TRef.nullary main_call0.c_0 (constantI S_ 32 1000#32),
    StableHlo.TRef.unary main_call0.c_0 main_call0.v2 (broadcastInDim S16384 ![] bcast_S_S16384),
    StableHlo.TRef.binary (StableHlo.TRef.of (T := ⟨S16384, .i32⟩) main_arg0) main_call0.v2 main_call0.v3 addi,
    StableHlo.TRef.ternary main_call0.v1 main_call0.v3 (StableHlo.TRef.of (T := ⟨S16384, .i32⟩) main_arg0) main_call0.call0.v0 select,
    StableHlo.TRef.unary main_call0.call0.v0 main_call0.v5 (broadcastInDim S16384x1 ![0] bcast_S16384_S16384x1_0),
    StableHlo.TRef.nullary main_call0.c_1 (constantI S1 32 999#32),
    StableHlo.TRef.nullary main_call0.c_2 (constantI S_ 32 0#32),
    StableHlo.TRef.unary main_call0.c_2 main_call0.v6 (broadcastInDim S16384x1 ![] bcast_S_S16384x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S16384x1 ![0, 1] bcast_S1x1_S16384x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x1_S16384_d1 h_S_),
    StableHlo.TRef.binary (StableHlo.TRef.of (T := ⟨S1000x128, .f32⟩) main_arg1) main_call0.v5 main_call0.v13 (fun x i => Host.gather gather_S1000x128_S16384x1_S16384x128_1_0_n_n_0_1_1128 x i),
    StableHlo.TRef.unary main_call0.v12 main_call0.v14 (broadcastInDim S16384x128 ![0] bcast_S16384_S16384x128_0),
    StableHlo.TRef.nullary main_call0.cst (constant S_ .f32 0x7FC00000#32),
    StableHlo.TRef.unary main_call0.cst main_call0.v15 (broadcastInDim S16384x128 ![] bcast_S_S16384x128),
    StableHlo.TRef.ternary main_call0.v14 main_call0.v13 main_call0.v15 main_call0.v16 select ]
/-- The buffers those operations write. -/
abbrev W0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0]
set_option maxRecDepth 8192 in
theorem W0_writes : (W0 : List (HloOp τ sig (Elt F))).Forall fun op => op.writes ⊆ (W0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 1 window, from contents `V0`. -/
def val1 (V0 : Valuation τ sig (Elt F)) : Valuation τ sig (Elt F) := after W0 (V0)
theorem val1_keep (V0 : Valuation τ sig (Elt F)) (r : Ref sig .tc) (h : r ∉ W0_W) :
    val1 V0 (Proc.devRef .tc r) = V0 (Proc.devRef .tc r) :=
  after_of_writes_sub W0 _ W0_writes h
theorem val1_main_arg0 (V0 : Valuation τ sig (Elt F)) : val1 V0 (no_index (Proc.devRef .tc main_arg0)) = (V0 (Proc.devRef .tc main_arg0)) :=
  val1_keep V0 main_arg0 (by decide)
theorem val1_main_arg1 (V0 : Valuation τ sig (Elt F)) : val1 V0 (no_index (Proc.devRef .tc main_arg1)) = (V0 (Proc.devRef .tc main_arg1)) :=
  val1_keep V0 main_arg1 (by decide)
theorem val1_main_arg2 (V0 : Valuation τ sig (Elt F)) : val1 V0 (no_index (Proc.devRef .tc main_arg2)) = (V0 (Proc.devRef .tc main_arg2)) :=
  val1_keep V0 main_arg2 (by decide)
theorem val1_main_arg3 (V0 : Valuation τ sig (Elt F)) : val1 V0 (no_index (Proc.devRef .tc main_arg3)) = (V0 (Proc.devRef .tc main_arg3)) :=
  val1_keep V0 main_arg3 (by decide)
set_option maxRecDepth 8192 in
set_option maxHeartbeats 4000000 in
theorem val1_main_v0 (V0 : Valuation τ sig (Elt F)) : val1 V0 (no_index (Proc.devRef .tc main_v0)) = val_main_v0 (F := F) (V0 (Proc.devRef .tc main_arg0)) (V0 (Proc.devRef .tc main_arg1)) := by
  unfold val1
  simp only [W0]
  after_results_simp
  simp only [val_main_call0_c, val_main_call0_v0, val_main_call0_v1, val_main_call0_c_0, val_main_call0_v2, val_main_call0_v3, val_main_call0_v4, val_main_call0_v5, val_main_call0_c_1, val_main_call0_c_2, val_main_call0_v6, val_main_call0_v7, val_main_call0_v8, val_main_call0_v9, val_main_call0_v10, val_main_call0_v11, val_main_call0_c_3, val_main_call0_v12, val_main_call0_v13, val_main_call0_v14, val_main_call0_cst, val_main_call0_v15, val_main_v0, eq_mpr_eq_cast, cast_eq] <;> rfl

/-- Operations 23 to 31 of the program. -/
abbrev W1 : List (HloOp τ sig (Elt F)) :=
  [
    StableHlo.unary main_v0 main_v1 (Host.tanh : (⟨S16384x128, .f32⟩ : BufTy).Contents (Elt F) → (⟨S16384x128, .f32⟩ : BufTy).Contents (Elt F)),
    StableHlo.unary main_v1 main_v2 ((extractStridedSlice S16382x128 ![0, 0] · slices_S16384x128_S16382x128_0_0) : (⟨S16384x128, .f32⟩ : BufTy).Contents (Elt F) → (⟨S16382x128, .f32⟩ : BufTy).Contents (Elt F)),
    StableHlo.unary main_v1 main_v3 ((extractStridedSlice S16382x128 ![2, 0] · slices_S16384x128_S16382x128_2_0) : (⟨S16384x128, .f32⟩ : BufTy).Contents (Elt F) → (⟨S16382x128, .f32⟩ : BufTy).Contents (Elt F)),
    StableHlo.binary main_v2 main_v3 main_v4 (addf : (⟨S16382x128, .f32⟩ : BufTy).Contents (Elt F) → (⟨S16382x128, .f32⟩ : BufTy).Contents (Elt F) → (⟨S16382x128, .f32⟩ : BufTy).Contents (Elt F)),
    StableHlo.unary main_arg2 main_v5 ((transpose S128x1000 [1, 0] · transposes_S1000x128_S128x1000_1_0) : (⟨S1000x128, .f32⟩ : BufTy).Contents (Elt F) → (⟨S128x1000, .f32⟩ : BufTy).Contents (Elt F)),
    StableHlo.binary main_v4 main_v5 main_v6 ((fun l r => Host.dotGeneral dot_S16382x128_S128x1000_S16382x1000_1_0_0_1_n_n none l r) : (⟨S16382x128, .f32⟩ : BufTy).Contents (Elt F) → (⟨S128x1000, .f32⟩ : BufTy).Contents (Elt F) → (⟨S16382x1000, .f32⟩ : BufTy).Contents (Elt F)),
    StableHlo.unary main_arg3 main_v7 (broadcastInDim S1x1000 ![1] bcast_S1000_S1x1000_1 : (⟨S1000, .f32⟩ : BufTy).Contents (Elt F) → (⟨S1x1000, .f32⟩ : BufTy).Contents (Elt F)),
    StableHlo.unary main_v7 main_v8 (broadcastInDim S16382x1000 ![0, 1] bcast_S1x1000_S16382x1000_0_1 : (⟨S1x1000, .f32⟩ : BufTy).Contents (Elt F) → (⟨S16382x1000, .f32⟩ : BufTy).Contents (Elt F)),
    StableHlo.binary main_v6 main_v8 main_v9 (addf : (⟨S16382x1000, .f32⟩ : BufTy).Contents (Elt F) → (⟨S16382x1000, .f32⟩ : BufTy).Contents (Elt F) → (⟨S16382x1000, .f32⟩ : BufTy).Contents (Elt F)) ]
/-- The buffers those operations write. -/
abbrev W1_W : List (Ref sig .tc) := [main_v1, main_v2, main_v3, main_v4, main_v5, main_v6, main_v7, main_v8, main_v9]
set_option maxRecDepth 8192 in
theorem W1_writes : (W1 : List (HloOp τ sig (Elt F))).Forall fun op => op.writes ⊆ (W1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 2 windows, from contents `V0`. -/
def val2 (V0 : Valuation τ sig (Elt F)) : Valuation τ sig (Elt F) := after W1 (val1 V0)
theorem val2_keep (V0 : Valuation τ sig (Elt F)) (r : Ref sig .tc) (h : r ∉ W1_W) :
    val2 V0 (Proc.devRef .tc r) = val1 V0 (Proc.devRef .tc r) :=
  after_of_writes_sub W1 _ W1_writes h
theorem val2_main_arg0 (V0 : Valuation τ sig (Elt F)) : val2 V0 (no_index (Proc.devRef .tc main_arg0)) = (V0 (Proc.devRef .tc main_arg0)) :=
  (val2_keep V0 main_arg0 (by decide)).trans (val1_main_arg0 V0)
theorem val2_main_arg1 (V0 : Valuation τ sig (Elt F)) : val2 V0 (no_index (Proc.devRef .tc main_arg1)) = (V0 (Proc.devRef .tc main_arg1)) :=
  (val2_keep V0 main_arg1 (by decide)).trans (val1_main_arg1 V0)
theorem val2_main_arg2 (V0 : Valuation τ sig (Elt F)) : val2 V0 (no_index (Proc.devRef .tc main_arg2)) = (V0 (Proc.devRef .tc main_arg2)) :=
  (val2_keep V0 main_arg2 (by decide)).trans (val1_main_arg2 V0)
theorem val2_main_arg3 (V0 : Valuation τ sig (Elt F)) : val2 V0 (no_index (Proc.devRef .tc main_arg3)) = (V0 (Proc.devRef .tc main_arg3)) :=
  (val2_keep V0 main_arg3 (by decide)).trans (val1_main_arg3 V0)
set_option maxRecDepth 8192 in
set_option maxHeartbeats 4000000 in
theorem val2_main_v9 (V0 : Valuation τ sig (Elt F)) : val2 V0 (no_index (Proc.devRef .tc main_v9)) = val_main_v9 (F := F) (V0 (Proc.devRef .tc main_arg0)) (V0 (Proc.devRef .tc main_arg1)) (V0 (Proc.devRef .tc main_arg2)) (V0 (Proc.devRef .tc main_arg3)) := by
  unfold val2
  simp only [W1]
  after_results_simp
  simp only [val1_main_arg3, val1_main_arg2, val1_main_v0, val_main_v1, val_main_v2, val_main_v3, val_main_v4, val_main_v5, val_main_v6, val_main_v7, val_main_v8, val_main_v9, eq_mpr_eq_cast, cast_eq] <;> rfl

/-- Operations 32 to 46 of the program. -/
abbrev W2 : List (HloOp τ sig (Elt F)) :=
  [
    StableHlo.TRef.nullary main_call1.cst (constant S_ .f32 0xFF800000#32),
    StableHlo.TRef.binary (StableHlo.TRef.of (T := ⟨S16382x1000, .f32⟩) main_v9) main_call1.cst main_call1.v0 (fun x v => Host.reduce FloatOps.maximumf x v reducesTo_S16382x1000_S16382_d1 h_S_),
    StableHlo.TRef.nullary main_call1.cst_0 (constant S_ .f32 0xFF800000#32),
    StableHlo.TRef.unary main_call1.cst_0 main_call1.v1 (broadcastInDim S16382 ![] bcast_S_S16382),
    StableHlo.TRef.binary main_call1.v1 main_call1.v0 main_call1.v2 maximumf,
    StableHlo.TRef.unary main_call1.v2 main_call1.v3 (broadcastInDim S16382x1 ![0] bcast_S16382_S16382x1_0),
    StableHlo.TRef.unary main_call1.v3 main_call1.v4 (broadcastInDim S16382x1000 ![0, 1] bcast_S16382x1_S16382x1000_0_1),
    StableHlo.TRef.binary (StableHlo.TRef.of (T := ⟨S16382x1000, .f32⟩) main_v9) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S16382x1000_S16382_d1 h_S_),
    StableHlo.TRef.unary main_call1.v7 main_call1.v8 (broadcastInDim S16382x1 ![0] bcast_S16382_S16382x1_0),
    StableHlo.TRef.unary main_call1.v8 main_call1.v9 Host.log,
    StableHlo.TRef.unary main_call1.v9 main_call1.v10 (broadcastInDim S16382x1000 ![0, 1] bcast_S16382x1_S16382x1000_0_1),
    StableHlo.TRef.binary main_call1.v5 main_call1.v10 main_call1.v11 subf ]
/-- The buffers those operations write. -/
abbrev W2_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v10]
set_option maxRecDepth 8192 in
theorem W2_writes : (W2 : List (HloOp τ sig (Elt F))).Forall fun op => op.writes ⊆ (W2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 3 windows, from contents `V0`. -/
def val3 (V0 : Valuation τ sig (Elt F)) : Valuation τ sig (Elt F) := after W2 (val2 V0)
theorem val3_keep (V0 : Valuation τ sig (Elt F)) (r : Ref sig .tc) (h : r ∉ W2_W) :
    val3 V0 (Proc.devRef .tc r) = val2 V0 (Proc.devRef .tc r) :=
  after_of_writes_sub W2 _ W2_writes h
theorem val3_main_arg0 (V0 : Valuation τ sig (Elt F)) : val3 V0 (no_index (Proc.devRef .tc main_arg0)) = (V0 (Proc.devRef .tc main_arg0)) :=
  (val3_keep V0 main_arg0 (by decide)).trans (val2_main_arg0 V0)
theorem val3_main_arg1 (V0 : Valuation τ sig (Elt F)) : val3 V0 (no_index (Proc.devRef .tc main_arg1)) = (V0 (Proc.devRef .tc main_arg1)) :=
  (val3_keep V0 main_arg1 (by decide)).trans (val2_main_arg1 V0)
theorem val3_main_arg2 (V0 : Valuation τ sig (Elt F)) : val3 V0 (no_index (Proc.devRef .tc main_arg2)) = (V0 (Proc.devRef .tc main_arg2)) :=
  (val3_keep V0 main_arg2 (by decide)).trans (val2_main_arg2 V0)
theorem val3_main_arg3 (V0 : Valuation τ sig (Elt F)) : val3 V0 (no_index (Proc.devRef .tc main_arg3)) = (V0 (Proc.devRef .tc main_arg3)) :=
  (val3_keep V0 main_arg3 (by decide)).trans (val2_main_arg3 V0)
set_option maxRecDepth 8192 in
set_option maxHeartbeats 4000000 in
theorem val3_main_v10 (V0 : Valuation τ sig (Elt F)) : val3 V0 (no_index (Proc.devRef .tc main_v10)) = val_main_v10 (F := F) (V0 (Proc.devRef .tc main_arg0)) (V0 (Proc.devRef .tc main_arg1)) (V0 (Proc.devRef .tc main_arg2)) (V0 (Proc.devRef .tc main_arg3)) := by
  unfold val3
  simp only [W2]
  after_results_simp
  simp only [val2_main_v9, val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v10, eq_mpr_eq_cast, cast_eq] <;> rfl

/-- Operations 47 to 62 of the program. -/
abbrev W3 : List (HloOp τ sig (Elt F)) :=
  [
    StableHlo.unary main_arg0 main_v11 ((extractStridedSlice S16382 ![1] · slices_S16384_S16382_1) : (⟨S16384, .i32⟩ : BufTy).Contents (Elt F) → (⟨S16382, .i32⟩ : BufTy).Contents (Elt F)),
    StableHlo.TRef.nullary main_call2.cst (constant S_ .f32 0xFF800000#32),
    StableHlo.TRef.binary (StableHlo.TRef.of (T := ⟨S16382x1000, .f32⟩) main_v10) main_call2.cst main_call2.v0 (fun x v => Host.reduce FloatOps.maximumf x v reducesTo_S16382x1000_S16382_d1 h_S_),
    StableHlo.TRef.nullary main_call2.cst_0 (constant S_ .f32 0xFF800000#32),
    StableHlo.TRef.unary main_call2.cst_0 main_call2.v1 (broadcastInDim S16382 ![] bcast_S_S16382),
    StableHlo.TRef.binary main_call2.v1 main_call2.v0 main_call2.v2 maximumf,
    StableHlo.TRef.unary main_call2.v2 main_call2.v3 (broadcastInDim S16382x1 ![0] bcast_S16382_S16382x1_0),
    StableHlo.TRef.unary main_call2.v3 main_call2.v4 (broadcastInDim S16382x1000 ![0, 1] bcast_S16382x1_S16382x1000_0_1),
    StableHlo.TRef.binary (StableHlo.TRef.of (T := ⟨S16382x1000, .f32⟩) main_v10) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S16382x1000_S16382_d1 h_S_),
    StableHlo.TRef.unary main_call2.v7 main_call2.v8 (broadcastInDim S16382x1 ![0] bcast_S16382_S16382x1_0),
    StableHlo.TRef.unary main_call2.v8 main_call2.v9 Host.log,
    StableHlo.TRef.unary main_call2.v9 main_call2.v10 (broadcastInDim S16382x1000 ![0, 1] bcast_S16382x1_S16382x1000_0_1),
    StableHlo.TRef.binary main_call2.v5 main_call2.v10 main_call2.v11 subf ]
/-- The buffers those operations write. -/
abbrev W3_W : List (Ref sig .tc) := [main_v11, main_call2_cst, main_call2_v0, main_call2_cst_0, main_call2_v1, main_call2_v2, main_call2_v3, main_call2_v4, main_call2_v5, main_call2_v6, main_call2_cst_1, main_call2_v7, main_call2_v8, main_call2_v9, main_call2_v10, main_v12]
set_option maxRecDepth 8192 in
theorem W3_writes : (W3 : List (HloOp τ sig (Elt F))).Forall fun op => op.writes ⊆ (W3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 4 windows, from contents `V0`. -/
def val4 (V0 : Valuation τ sig (Elt F)) : Valuation τ sig (Elt F) := after W3 (val3 V0)
theorem val4_keep (V0 : Valuation τ sig (Elt F)) (r : Ref sig .tc) (h : r ∉ W3_W) :
    val4 V0 (Proc.devRef .tc r) = val3 V0 (Proc.devRef .tc r) :=
  after_of_writes_sub W3 _ W3_writes h
theorem val4_main_arg0 (V0 : Valuation τ sig (Elt F)) : val4 V0 (no_index (Proc.devRef .tc main_arg0)) = (V0 (Proc.devRef .tc main_arg0)) :=
  (val4_keep V0 main_arg0 (by decide)).trans (val3_main_arg0 V0)
theorem val4_main_arg1 (V0 : Valuation τ sig (Elt F)) : val4 V0 (no_index (Proc.devRef .tc main_arg1)) = (V0 (Proc.devRef .tc main_arg1)) :=
  (val4_keep V0 main_arg1 (by decide)).trans (val3_main_arg1 V0)
theorem val4_main_arg2 (V0 : Valuation τ sig (Elt F)) : val4 V0 (no_index (Proc.devRef .tc main_arg2)) = (V0 (Proc.devRef .tc main_arg2)) :=
  (val4_keep V0 main_arg2 (by decide)).trans (val3_main_arg2 V0)
theorem val4_main_arg3 (V0 : Valuation τ sig (Elt F)) : val4 V0 (no_index (Proc.devRef .tc main_arg3)) = (V0 (Proc.devRef .tc main_arg3)) :=
  (val4_keep V0 main_arg3 (by decide)).trans (val3_main_arg3 V0)
theorem val4_main_v10 (V0 : Valuation τ sig (Elt F)) : val4 V0 (no_index (Proc.devRef .tc main_v10)) = val_main_v10 (F := F) (V0 (Proc.devRef .tc main_arg0)) (V0 (Proc.devRef .tc main_arg1)) (V0 (Proc.devRef .tc main_arg2)) (V0 (Proc.devRef .tc main_arg3)) :=
  (val4_keep V0 main_v10 (by decide)).trans (val3_main_v10 V0)
set_option maxRecDepth 8192 in
set_option maxHeartbeats 4000000 in
theorem val4_main_v11 (V0 : Valuation τ sig (Elt F)) : val4 V0 (no_index (Proc.devRef .tc main_v11)) = val_main_v11 (F := F) (V0 (Proc.devRef .tc main_arg0)) := by
  unfold val4
  simp only [W3]
  after_results_simp
  simp only [val3_main_arg0, val_main_v11, eq_mpr_eq_cast, cast_eq] <;> rfl
set_option maxRecDepth 8192 in
set_option maxHeartbeats 4000000 in
theorem val4_main_v12 (V0 : Valuation τ sig (Elt F)) : val4 V0 (no_index (Proc.devRef .tc main_v12)) = val_main_v12 (F := F) (V0 (Proc.devRef .tc main_arg0)) (V0 (Proc.devRef .tc main_arg1)) (V0 (Proc.devRef .tc main_arg2)) (V0 (Proc.devRef .tc main_arg3)) := by
  unfold val4
  simp only [W3]
  after_results_simp
  simp only [val3_main_v10, val_main_call2_cst, val_main_call2_v0, val_main_call2_cst_0, val_main_call2_v1, val_main_call2_v2, val_main_call2_v3, val_main_call2_v4, val_main_call2_v5, val_main_call2_v6, val_main_call2_cst_1, val_main_call2_v7, val_main_call2_v8, val_main_call2_v9, val_main_call2_v10, val_main_v12, eq_mpr_eq_cast, cast_eq] <;> rfl

/-- Operations 63 to 91 of the program. -/
abbrev W4 : List (HloOp τ sig (Elt F)) :=
  [
    StableHlo.unary main_v11 main_v13 (broadcastInDim S16382x1 ![0] bcast_S16382_S16382x1_0 : (⟨S16382, .i32⟩ : BufTy).Contents (Elt F) → (⟨S16382x1, .i32⟩ : BufTy).Contents (Elt F)),
    StableHlo.TRef.nullary main_call3.c (constantI S_ 32 0#32),
    StableHlo.TRef.unary main_call3.c main_call3.v0 (broadcastInDim S16382x1 ![] bcast_S_S16382x1),
    StableHlo.TRef.binary (StableHlo.TRef.of (T := ⟨S16382x1, .i32⟩) main_v13) main_call3.v0 main_call3.v1 (cmpi .slt),
    StableHlo.TRef.nullary main_call3.c_0 (constantI S_ 32 1000#32),
    StableHlo.TRef.unary main_call3.c_0 main_call3.v2 (broadcastInDim S16382x1 ![] bcast_S_S16382x1),
    StableHlo.TRef.binary (StableHlo.TRef.of (T := ⟨S16382x1, .i32⟩) main_v13) main_call3.v2 main_call3.v3 addi,
    StableHlo.TRef.ternary main_call3.v1 main_call3.v3 (StableHlo.TRef.of (T := ⟨S16382x1, .i32⟩) main_v13) main_call3.v4 select,
    StableHlo.TRef.reshape main_call3.v4 main_call3.v5 rfl shapeCasts_S16382x1_S16382x1x1,
    StableHlo.TRef.nullary main_call3.c_1 (constantI S1 32 999#32),
    StableHlo.TRef.nullary main_call3.c_2 (constantI S_ 32 0#32),
    StableHlo.TRef.unary main_call3.c_2 main_call3.v6 (broadcastInDim S16382x1x1 ![] bcast_S_S16382x1x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S16382x1x1 ![0, 1, 2] bcast_S1x1x1_S16382x1x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S16382x1x1_S16382x1_d2 h_S_),
    StableHlo.TRef.binary (StableHlo.TRef.of (T := ⟨S16382x1000, .f32⟩) main_v12) main_call3.v5 main_call3.v13 (fun x i => Host.gather gather_S16382x1000_S16382x1x1_S16382x1_n_1_0_0_1_2_11 x i),
    StableHlo.TRef.nullary main_call3.cst (constant S_ .f32 0x7FC00000#32),
    StableHlo.TRef.unary main_call3.cst main_call3.v14 (broadcastInDim S16382x1 ![] bcast_S_S16382x1),
    StableHlo.TRef.ternary main_call3.v12 main_call3.v13 main_call3.v14 main_call3.v15 select,
    StableHlo.reshape main_v14 main_v15 rfl shapeCasts_S16382x1_S16382,
    StableHlo.unary main_v15 main_v16 (Host.negf : (⟨S16382, .f32⟩ : BufTy).Contents (Elt F) → (⟨S16382, .f32⟩ : BufTy).Contents (Elt F)),
    StableHlo.nullary main_cst (constant S_ .f32 0x00000000#32),
    StableHlo.binary main_v16 main_cst main_v17 ((fun x v => Host.reduceAdd x v reducesTo_S16382_S_d0 h_S_) : (⟨S16382, .f32⟩ : BufTy).Contents (Elt F) → (⟨S_, .f32⟩ : BufTy).Contents (Elt F) → (⟨S_, .f32⟩ : BufTy).Contents (Elt F)),
    StableHlo.nullary main_cst_0 (constant S_ .f32 0x467FF800#32),
    StableHlo.binary main_v17 main_cst_0 main_v18 (Host.divf : (⟨S_, .f32⟩ : BufTy).Contents (Elt F) → (⟨S_, .f32⟩ : BufTy).Contents (Elt F) → (⟨S_, .f32⟩ : BufTy).Contents (Elt F)) ]
/-- The buffers those operations write. -/
abbrev W4_W : List (Ref sig .tc) := [main_v13, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v14, main_v15, main_v16, main_cst, main_v17, main_cst_0, main_v18]
set_option maxRecDepth 8192 in
theorem W4_writes : (W4 : List (HloOp τ sig (Elt F))).Forall fun op => op.writes ⊆ (W4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers' contents after the first 5 windows, from contents `V0`. -/
def val5 (V0 : Valuation τ sig (Elt F)) : Valuation τ sig (Elt F) := after W4 (val4 V0)
theorem val5_keep (V0 : Valuation τ sig (Elt F)) (r : Ref sig .tc) (h : r ∉ W4_W) :
    val5 V0 (Proc.devRef .tc r) = val4 V0 (Proc.devRef .tc r) :=
  after_of_writes_sub W4 _ W4_writes h
theorem val5_main_arg0 (V0 : Valuation τ sig (Elt F)) : val5 V0 (no_index (Proc.devRef .tc main_arg0)) = (V0 (Proc.devRef .tc main_arg0)) :=
  (val5_keep V0 main_arg0 (by decide)).trans (val4_main_arg0 V0)
theorem val5_main_arg1 (V0 : Valuation τ sig (Elt F)) : val5 V0 (no_index (Proc.devRef .tc main_arg1)) = (V0 (Proc.devRef .tc main_arg1)) :=
  (val5_keep V0 main_arg1 (by decide)).trans (val4_main_arg1 V0)
theorem val5_main_arg2 (V0 : Valuation τ sig (Elt F)) : val5 V0 (no_index (Proc.devRef .tc main_arg2)) = (V0 (Proc.devRef .tc main_arg2)) :=
  (val5_keep V0 main_arg2 (by decide)).trans (val4_main_arg2 V0)
theorem val5_main_arg3 (V0 : Valuation τ sig (Elt F)) : val5 V0 (no_index (Proc.devRef .tc main_arg3)) = (V0 (Proc.devRef .tc main_arg3)) :=
  (val5_keep V0 main_arg3 (by decide)).trans (val4_main_arg3 V0)
theorem val5_main_v10 (V0 : Valuation τ sig (Elt F)) : val5 V0 (no_index (Proc.devRef .tc main_v10)) = val_main_v10 (F := F) (V0 (Proc.devRef .tc main_arg0)) (V0 (Proc.devRef .tc main_arg1)) (V0 (Proc.devRef .tc main_arg2)) (V0 (Proc.devRef .tc main_arg3)) :=
  (val5_keep V0 main_v10 (by decide)).trans (val4_main_v10 V0)
theorem val5_main_v11 (V0 : Valuation τ sig (Elt F)) : val5 V0 (no_index (Proc.devRef .tc main_v11)) = val_main_v11 (F := F) (V0 (Proc.devRef .tc main_arg0)) :=
  (val5_keep V0 main_v11 (by decide)).trans (val4_main_v11 V0)
set_option maxRecDepth 8192 in
set_option maxHeartbeats 4000000 in
theorem val5_main_v18 (V0 : Valuation τ sig (Elt F)) : val5 V0 (no_index (Proc.devRef .tc main_v18)) = val_main_v18 (F := F) (V0 (Proc.devRef .tc main_arg0)) (V0 (Proc.devRef .tc main_arg1)) (V0 (Proc.devRef .tc main_arg2)) (V0 (Proc.devRef .tc main_arg3)) := by
  unfold val5
  simp only [W4]
  after_results_simp
  simp only [val4_main_v11, val4_main_v12, val_main_v13, val_main_call3_c, val_main_call3_v0, val_main_call3_v1, val_main_call3_c_0, val_main_call3_v2, val_main_call3_v3, val_main_call3_v4, val_main_call3_v5, val_main_call3_c_1, val_main_call3_c_2, val_main_call3_v6, val_main_call3_v7, val_main_call3_v8, val_main_call3_v9, val_main_call3_v10, val_main_call3_v11, val_main_call3_c_3, val_main_call3_v12, val_main_call3_v13, val_main_call3_cst, val_main_call3_v14, val_main_v14, val_main_v15, val_main_v16, val_main_cst, val_main_v17, val_main_cst_0, val_main_v18, eq_mpr_eq_cast, cast_eq] <;> rfl

set_option maxRecDepth 100000 in
/-- The whole line is the five windows, one after the other. -/
theorem after_ops (V0 : Valuation τ sig (Elt F)) : after (ops (F := F)) V0 = val5 V0 := by
  show after (W0 ++ (W1 ++ (W2 ++ (W3 ++ W4)))) V0 = _
  simp only [after_append']
  rfl

/-- On every device, for any float values, from any memory with zero counters: every execution of the program
    terminates with each result buffer at its value term of the arguments, and the arguments unchanged. -/
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = val_main_v18 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = val_main_v11 (F := F) (m ((c.tc : Thread nD τ).loc main_arg0))
      ∧ r.2.mem ((c.tc : Thread nD τ).loc main_v10) = val_main_v10 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v18).trans (by simp only [after_ops]; exact val5_main_v18 (launchContents m c)),
      (h c main_v11).trans (by simp only [after_ops]; exact val5_main_v11 (launchContents m c)),
      (h c main_v10).trans (by simp only [after_ops]; exact val5_main_v10 (launchContents m c)),
      (h c main_arg0).trans (by simp only [after_ops]; exact val5_main_arg0 (launchContents m c)),
      (h c main_arg1).trans (by simp only [after_ops]; exact val5_main_arg1 (launchContents m c)),
      (h c main_arg2).trans (by simp only [after_ops]; exact val5_main_arg2 (launchContents m c)),
      (h c main_arg3).trans (by simp only [after_ops]; exact val5_main_arg3 (launchContents m c))⟩)
    (run_seq scopedRefs_eq scopedSems_eq defs main (fun _ => ops) main_eq (fun _ => ops_sub) m ρ)

end Cert.ReferenceIdeal.Hand

namespace Cert.ReferenceIdeal.Hand

open Cert.ReferenceIdeal Cert.ReferenceIdeal.Gen Idealize.ShloMosaic Idealize.ShloMosaic.TcCoe Idealize.SL.Sem Idealize.ShloMosaic.StableHlo

/-- The loss (the program's first result) as a term of the token ids, the embedding table, the projection table and the bias,
    at the extended reals. -/
def lossOf (a0 : (⟨S16384, .i32⟩ : BufTy).Contents (Elt Ideal)) (a1 : (⟨S1000x128, .f32⟩ : BufTy).Contents (Elt Ideal)) (a2 : (⟨S1000x128, .f32⟩ : BufTy).Contents (Elt Ideal)) (a3 : (⟨S1000, .f32⟩ : BufTy).Contents (Elt Ideal)) : (⟨S_, .f32⟩ : BufTy).Contents (Elt Ideal) :=
  val_main_v18 (F := Ideal) a0 a1 a2 a3
/-- The targets (the second result): the token ids' interior. -/
def targetsOf (a0 : (⟨S16384, .i32⟩ : BufTy).Contents (Elt Ideal)) : (⟨S16382, .i32⟩ : BufTy).Contents (Elt Ideal) :=
  val_main_v11 (F := Ideal) a0
/-- The log-probabilities (the third result). -/
def predOf (a0 : (⟨S16384, .i32⟩ : BufTy).Contents (Elt Ideal)) (a1 : (⟨S1000x128, .f32⟩ : BufTy).Contents (Elt Ideal)) (a2 : (⟨S1000x128, .f32⟩ : BufTy).Contents (Elt Ideal)) (a3 : (⟨S1000, .f32⟩ : BufTy).Contents (Elt Ideal)) : (⟨S16382x1000, .f32⟩ : BufTy).Contents (Elt Ideal) :=
  val_main_v10 (F := Ideal) a0 a1 a2 a3

/-- The run at the extended reals: every execution terminates with the three results at `lossOf`, `targetsOf`, `predOf`
    of the argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18) = lossOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v11) = targetsOf (m ((c.tc : Thread nD τ).loc main_arg0))
      ∧ r.2.mem ((c.tc : Thread nD τ).loc main_v10) = predOf (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_vals (F := Ideal) m ρ

end Cert.ReferenceIdeal.Hand

end
-- ==== Proof.LibSoftmaxRow.lean ====
/-
  Row softmax on the extended reals, for any row length and any value vectors.

  A row of scores `s : Fin n → EReal` is shifted by a number `m`, exponentiated (`p k = exp (s k - m)`, with
  `exp ⊥ = 0`, `exp ⊤ = ⊤`) and normalised by the row sum `l = ∑ k, p k`. Two spellings of the normalisation occur:
  dividing every entry by `l`, and multiplying it by the reciprocal `1 / l`; and a weighted sum `∑ k, w k * v k` may be
  normalised entry by entry before the sum or once after it. On the extended reals these agree as soon as `l` is not
  zero — division by zero has its own corner — and multiplication by `l⁻¹`, a nonnegative number that is never `⊤`,
  distributes over any sum, infinite terms included. When every score is a real number and the shift is not `⊤` each
  `s k - m` is not `⊥`, so each `p k` is positive and `l` is positive: that is the only use of finiteness.
-/
import Idealize.ShloMosaic.PureOps.Ideal

namespace Cert.Lib.SoftmaxRow

open Idealize.ShloMosaic

/-- A finite nonnegative factor comes out of a finite sum of extended reals, whatever the terms. -/
theorem sum_mul_of_nonneg_of_ne_top {ι : Type*} (t : Finset ι) (a : ι → EReal) {c : EReal} (h0 : 0 ≤ c) (ht : c ≠ ⊤) :
    (∑ k ∈ t, a k) * c = ∑ k ∈ t, a k * c := by
  classical
  induction t using Finset.induction_on with
  | empty => simp
  | insert k t hk ih =>
    rw [Finset.sum_insert hk, Finset.sum_insert hk, EReal.right_distrib_of_nonneg_of_ne_top h0 ht, ih]

/-- A dot product whose left factors were each scaled by a finite nonnegative `c` is the dot product scaled by `c`. -/
theorem scaled_dot {n : Nat} (a b : Fin n → EReal) {c : EReal} (h0 : 0 ≤ c) (ht : c ≠ ⊤) :
    ∑ d, (a d * c) * b d = (∑ d, a d * b d) * c := by
  rw [sum_mul_of_nonneg_of_ne_top _ _ h0 ht]
  exact Finset.sum_congr rfl fun d _ => mul_right_comm _ _ _

theorem exp_nonneg (x : EReal) : 0 ≤ Ideal.exp x := by
  induction x using EReal.rec with
  | bot => exact le_of_eq Ideal.exp_bot.symm
  | coe r => rw [Ideal.exp_coe]; exact EReal.coe_nonneg.2 (Real.exp_pos r).le
  | top => rw [Ideal.exp_top]; exact le_top

theorem exp_pos_of_ne_bot {x : EReal} (h : x ≠ ⊥) : 0 < Ideal.exp x := by
  induction x using EReal.rec with
  | bot => exact absurd rfl h
  | coe r => rw [Ideal.exp_coe]; exact EReal.coe_pos.2 (Real.exp_pos r)
  | top => rw [Ideal.exp_top]; exact EReal.zero_lt_top

/-- A real number minus anything but `⊤` is not `⊥`. -/
theorem coe_sub_ne_bot (r : ℝ) {m : EReal} (hm : m ≠ ⊤) : (r : EReal) - m ≠ ⊥ := by
  induction m using EReal.rec with
  | bot => simp
  | coe q => rw [← EReal.coe_sub]; exact EReal.coe_ne_bot _
  | top => exact absurd rfl hm

/-- The running maximum of a row none of whose entries is `⊤`, started below `⊤`, is not `⊤`. -/
theorem fold_max_ne_top {n : Nat} {b : EReal} (hb : b ≠ ⊤) (s : Fin n → EReal) (hs : ∀ k, s k ≠ ⊤) :
    (Finset.univ : Finset (Fin n)).fold max b s ≠ ⊤ := by
  apply ne_of_lt
  rw [Finset.fold_max_lt]
  exact ⟨lt_top_iff_ne_top.2 hb, fun k _ => lt_top_iff_ne_top.2 (hs k)⟩

section Row

variable {n : Nat} (s : Fin n → EReal) (m : EReal)

/-- The row sum of the shifted exponentials is positive when the row is not empty, its scores are real and the shift
    is not `⊤`. -/
theorem rowsum_pos (hn : 0 < n) (hs : ∀ k, ∃ r : ℝ, s k = r) (hm : m ≠ ⊤) :
    0 < ∑ k, Ideal.exp (s k - m) := by
  have h0 : 0 < Ideal.exp (s ⟨0, hn⟩ - m) := by
    obtain ⟨r, hr⟩ := hs ⟨0, hn⟩
    rw [hr]
    exact exp_pos_of_ne_bot (coe_sub_ne_bot r hm)
  exact lt_of_lt_of_le h0
    (Finset.single_le_sum (f := fun k => Ideal.exp (s k - m)) (fun k _ => exp_nonneg _) (Finset.mem_univ _))

/-- An entry times the reciprocal of a nonzero row sum is the entry divided by the row sum. -/
theorem mul_one_div {l : EReal} (hl : l ≠ 0) (p : EReal) : p * Ideal.div 1 l = Ideal.div p l := by
  unfold Ideal.div
  rw [if_neg hl, if_neg hl, one_mul]

/-- A weighted sum normalised once after the sum, by the reciprocal of a positive row sum, is the sum of the
    entrywise-normalised weights times the values — for any values, infinite ones included. -/
theorem sum_mul_one_div {l : EReal} (hl : 0 < l) (p v : Fin n → EReal) :
    (∑ k, p k * v k) * Ideal.div 1 l = ∑ k, Ideal.div (p k) l * v k := by
  have hl0 : l ≠ 0 := hl.ne'
  have e1 : Ideal.div 1 l = l⁻¹ := by unfold Ideal.div; rw [if_neg hl0, one_mul]
  rw [e1, sum_mul_of_nonneg_of_ne_top _ _ (EReal.inv_nonneg_of_nonneg hl.le) (EReal.inv_lt_top l).ne]
  refine Finset.sum_congr rfl fun k _ => ?_
  unfold Ideal.div
  rw [if_neg hl0]
  exact mul_right_comm _ _ _

end Row

end Cert.Lib.SoftmaxRow
-- ==== Proof.LibGraphRows.lean ====
/-
  GATHER AND SCATTER-ADD ALONG THE ROWS OF A MATRIX, READ AT COORDINATES, and the one law of a graph convolution.

  A row gather `x[idx]` of a matrix `[N, C]` (or of a vector `[N]`) at `E` start indices held as a column `[E, 1]` reads,
  for edge `e`, row `clampRow (idx (e, 0))`: the start index read as a signed integer and clamped into `[0, N - 1]`.
  A scatter-add of `E` update rows into the rows of `[N, C]` sends update `(e, c)` to `(idx (e, 0), c)` when the start
  index, read signed and NOT clamped, is a row of the matrix, and drops it otherwise. So an update that lands in row
  `r` has start index exactly `r`, which is a fixed point of jnp's negative-index wrap and of the gather's clamp: the
  degree normalisation gathered at the destination of an edge that lands in row `r` is the normalisation of row `r`.
  That is what lets the factor `dinv r` out of the sum over the edges into `r` — a finite nonnegative factor comes out
  of any finite sum of extended reals (`scaled_sum`); `dinv` is `rsqrt` of a positive degree, or zero.

  Every statement takes the dimension numbers by their lists, so that any printed record with these lists unifies.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«115835_g2070174237271_cont_8to1_761_7_alg».proof.Proof.LibSoftmaxRow

namespace Cert.Lib.GraphRows

open Idealize.ShloMosaic Idealize.ShloMosaic.ValueIdx

/-- The row a start index selects in a gather: read signed, clamped into `[0, N - 1]`. -/
def clampRow {N w : ℕ} (hN : 0 < N) (b : BitVec w) : Fin N := ⟨min b.toInt.toNat (N - 1), by omega⟩

/-- A start index that IS a row (read signed) is the row the gather selects. -/
theorem clampRow_of_toInt {N w : ℕ} (hN : 0 < N) (b : BitVec w) (r : Fin N) (h : b.toInt = (r.val : ℤ)) :
    clampRow hN b = r := by
  apply Fin.ext
  show min b.toInt.toNat (N - 1) = r.val
  rw [h, Int.toNat_natCast]
  have := r.isLt
  omega

/-! ## Row gathers -/

set_option backward.isDefEq.respectTransparency.types false in
/-- A row gather of a matrix `[N, C]` at start indices `[E, 1]`: result `(e, c)` reads the operand at
    `(clampRow (idx (e, 0)), c)`. -/
theorem gatherRows_operandIdx {N E C w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (clampRow hN (idx (ix2 e (0 : Fin 1)))) c := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![E, 1]⟩ ⟨2, ![E, C]⟩) (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show ¬ (1 : Fin 2) ∈ [(0 : Fin 2)] by decide)]
    unfold GatherDims.offCoord
    rw [dif_pos ((GatherDims.mem_sKept _ _).2 ⟨show ¬ (1 : Fin 2) ∈ [(0 : Fin 2)] by decide, List.not_mem_nil⟩)]
    simp only [Nat.zero_add]
    rfl

set_option backward.isDefEq.respectTransparency.types false in
/-- A gather of a vector `[N]` at start indices `[E, 1]`: result `e` reads the operand at `clampRow (idx (e, 0))`. -/
theorem gatherVec_operandIdx {N E w : ℕ} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (clampRow hN (idx (ix2 e (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ : GatherDims ⟨1, ![N]⟩ ⟨2, ![E, 1]⟩ ⟨1, ![E]⟩) (ix1 e)
        ⟨List.idxOf (0 : Fin 1) [(0 : Fin 1)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The row scatter -/

/-- The row scatter's dimension numbers as a literal record. -/
private abbrev rowScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ := ⟨[1], [0], [0], 1, wf⟩

set_option backward.isDefEq.respectTransparency.types false in
private theorem rowScatter_lands {N E C w : ℕ} (wf : ScatterDims.WF ⟨2, ![N, C]⟩ ⟨2, ![E, 1]⟩ ⟨2, ![E, C]⟩ [1] [0] [0] 1)
    (idx : IVec ⟨2, ![E, 1]⟩ w) (e : Fin E) (c : Fin C) (i : (⟨2, ![N, C]⟩ : Shape).Idx)
    (h : (rowScatter N E C wf).resultIdx? (ix2 e c) idx = some i) :
    (idx (ix2 e (0 : Fin 1))).toInt = ((i 0).val : ℤ) ∧ (i 1).val = c.val := by
  have hs0 : (rowScatter N E C wf).start (ix2 e c) idx 0 = (idx (ix2 e (0 : Fin 1))).toInt := by
    unfold ScatterDims.start
    rw [dif_pos (List.mem_singleton.mpr rfl)]
    have hsi : (rowScatter N E C wf).siIdx (ix2 e c)
        ⟨List.idxOf (0 : Fin 2) [(0 : Fin 2)], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : (rowScatter N E C wf).window (ix2 e c) 0 = 0 := by
    unfold ScatterDims.window
    rw [dif_neg (by simp [ScatterDims.sKept, Shape.kept])]
  have hs1 : (rowScatter N E C wf).start (ix2 e c) idx 1 = 0 := by
    unfold ScatterDims.start
    rw [dif_neg (show ¬ (1 : Fin 2) ∈ [(0 : Fin 2)] by decide)]
  have hw1 : (rowScatter N E C wf).window (ix2 e c) 1 = c.val := by
    unfold ScatterDims.window
    rw [dif_pos (by simp [ScatterDims.sKept, Shape.kept])]
    rfl
  unfold ScatterDims.resultIdx? at h
  split at h
  · rename_i hb
    have hi := Option.some.inj h
    have e0 : ((rowScatter N E C wf).start (ix2 e c) idx 0 + ((rowScatter N E C wf).window (ix2 e c) 0 : ℕ)).toNat = (i 0).val :=
      congrArg Fin.val (congrFun hi 0)
    have e1 : ((rowScatter N E C wf).start (ix2 e c) idx 1 + ((rowScatter N E C wf).window (ix2 e c) 1 : ℕ)).toNat = (i 1).val :=
      congrArg Fin.val (congrFun hi 1)
    have hb0 := (hb 0).1
    rw [hs0, hw0] at e0 hb0
    rw [hs1, hw1] at e1
    simp only [Nat.cast_zero, add_zero] at e0 hb0
    constructor
    · rw [← e0]; exact (Int.toNat_of_nonneg hb0).symm
    · rw [← e1]; simp
  · exact absurd h (by simp)

/-- A row scatter into `[N, C]` at scatter indices `[E, 1]`: update `(e, c)` lands at `i` only if its start index, read
    signed, is the row of `i`, and then in column `c`. -/
theorem scatterRows_lands {N E C w : ℕ}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C)
    (i : (⟨2, ![N, C]⟩ : Shape).Idx) (h : d.resultIdx? (ix2 e c) idx = some i) :
    (idx (ix2 e (0 : Fin 1))).toInt = ((i 0).val : ℤ) ∧ (i 1).val = c.val := by
  obtain ⟨uw, iw, sd, iv, wf⟩ := d
  dsimp only at h1 h2 h3 h4
  subst h1 h2 h3 h4
  exact rowScatter_lands wf idx e c i h

/-! ## A gather, a scatter-add and a splat constant read at an index (by definition, stated once for abstract shapes) -/

/-- A gather reads the operand at the gather's operand index. -/
theorem gather_apply {α : Type} {s si t : Shape} {w : ℕ} (d : GatherDims s si t) (x : s.Idx → α) (idx : IVec si w)
    (j : t.Idx) : Host.gather d x idx j = x (d.operandIdx j idx) := rfl

/-- On the extended reals a scatter-add is the operand's element plus the sum of the updates that land on it. -/
theorem scatterAdd_apply {s si su : Shape} {φ : FTy} {w : ℕ} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- A scalar constant broadcast to any shape reads the constant. -/
theorem splat_apply {t : Shape} {φ : FTy} (dims : Fin (⟨0, ![]⟩ : Shape).rank → Fin t.rank)
    (h : (⟨0, ![]⟩ : Shape).BroadcastsInDim t dims) (b : BitVec φ.bits) (j : t.Idx) :
    broadcastInDim t dims h (constant (F := Ideal) ⟨0, ![]⟩ φ b) j = Ideal.ofBits φ b := rfl

/-- A gathered array widened to another float format reads the operand at the gather's operand index. -/
theorem extf_gather_apply {s si t : Shape} {φ ψ : FTy} {w : ℕ} (d : GatherDims s si t) (x : FVec Ideal s φ)
    (idx : IVec si w) (hb : φ.bits < ψ.bits) (j : t.Idx) :
    extf ψ (Host.gather d x idx) hb j = x (d.operandIdx j idx) := rfl

/-- A gathered array times another, elementwise. -/
theorem mulf_gather_apply {s si t : Shape} {φ : FTy} {w : ℕ} (d : GatherDims s si t) (x : FVec Ideal s φ)
    (idx : IVec si w) (y : FVec Ideal t φ) (j : t.Idx) :
    mulf (Host.gather d x idx) y j = x (d.operandIdx j idx) * y j := rfl

/-! ## jnp's wrap of a negative index -/

/-- `where(v < z, v + n, v)` with `z` the zero word leaves a nonnegative index as it is. -/
theorem wrap_of_nonneg {w : ℕ} (v z n : BitVec w) (hz : z.toInt = 0) (h : 0 ≤ v.toInt) :
    Scalar.select (IntOp.cmpi .slt v z) (IntOp.addi v n) v = v := by
  have : IntOp.cmpi .slt v z = 0#1 := by
    show BitVec.ofBool (v.slt z) = 0#1
    have hs : v.slt z = false := by
      rw [BitVec.slt_eq_decide, hz]
      exact decide_eq_false (not_lt.mpr h)
    rw [hs]; rfl
  rw [this]
  exact select_zero _ _

/-! ## The normalisation factor and the law -/

/-- `where(deg > 0, rsqrt deg, 0)` is a finite nonnegative number, whatever `deg` is. -/
theorem dinv_bounds (d : EReal) :
    0 ≤ Scalar.select (Ideal.cmp .ogt d 0) (Ideal.rsqrt d) (0 : EReal)
      ∧ Scalar.select (Ideal.cmp .ogt d 0) (Ideal.rsqrt d) (0 : EReal) ≠ ⊤ := by
  by_cases h : (0 : EReal) < d
  · have hc : Ideal.cmp .ogt d 0 = 1#1 := by
      show BitVec.ofBool (decide ((0 : EReal) < d)) = 1#1
      rw [decide_eq_true h]; rfl
    rw [hc, select_one]
    induction d using EReal.rec with
    | bot => exact absurd h (by simp)
    | top => rw [Ideal.rsqrt_top]; exact ⟨le_refl _, EReal.zero_ne_top⟩
    | coe r =>
      have hr : 0 < r := by exact_mod_cast h
      rw [Ideal.rsqrt_coe, if_neg (not_lt.mpr hr.le), if_neg hr.ne']
      exact ⟨EReal.coe_nonneg.mpr (inv_nonneg.mpr (Real.sqrt_nonneg r)), EReal.coe_ne_top _⟩
  · have hc : Ideal.cmp .ogt d 0 = 0#1 := by
      show BitVec.ofBool (decide ((0 : EReal) < d)) = 0#1
      rw [decide_eq_false h]; rfl
    rw [hc, select_zero]
    exact ⟨le_refl _, EReal.zero_ne_top⟩

/-- THE LAW: a sum of messages `a j * s j` scaled afterwards by a finite nonnegative `c` is the sum of the messages each
    scaled by `s j * t j`, when `t j = c` on the summed set. (Both sums start from the zero the scatter adds into.) -/
theorem scaled_sum {ι : Type*} (L : Finset ι) (a s t : ι → EReal) (c : EReal) (h0 : 0 ≤ c) (ht : c ≠ ⊤)
    (hc : ∀ j ∈ L, t j = c) :
    (0 + ∑ j ∈ L, a j * s j) * c = 0 + ∑ j ∈ L, a j * (s j * t j) := by
  rw [zero_add, zero_add, Cert.Lib.SoftmaxRow.sum_mul_of_nonneg_of_ne_top _ _ h0 ht]
  exact Finset.sum_congr rfl fun j hj => by rw [hc j hj, mul_assoc]

/-! ## One graph convolution, both ways -/

set_option backward.isDefEq.respectTransparency.types false in
/-- A GRAPH CONVOLUTION AT NODE `r`, COLUMN `q`. With `h` the dense transform `[N, C]`, `dinv` the normalisation of the
    nodes, `srcI` / `dstNI` the wrapped source and destination start indices the gathers read and `dstI` the raw
    destination indices the scatter reads: summing into `(r, q)` the rows of `h` ALREADY SCALED by `dinv` of their own node
    and scaling the sum by `dinv r` afterwards is summing the rows of `h` each times
    `norm e = dinv[src e] * dinv[dst e]` — because an edge that lands in row `r` has destination `r`, a fixed point of
    the wrap (`hwrap`) and of the gather's clamp. -/
theorem conv_at {N E C w : ℕ} (hN : 0 < N)
    (sc : ScatterDims ⟨2, ![N, C]⟩ ⟨2, ![E, 1]⟩ ⟨2, ![E, C]⟩)
    (s1 : sc.updateWindowDims = [1]) (s2 : sc.insertedWindowDims = [0]) (s3 : sc.scatterDimsToOperandDims = [0])
    (s4 : sc.indexVectorDim = 1)
    (g : GatherDims ⟨2, ![N, C]⟩ ⟨2, ![E, 1]⟩ ⟨2, ![E, C]⟩)
    (g1 : g.offsetDims = [1]) (g2 : g.collapsedSliceDims = [0]) (g3 : g.operandBatchingDims = [])
    (g4 : g.startIndicesBatchingDims = []) (g5 : g.startIndexMap = [0]) (g6 : g.indexVectorDim = 1)
    (g7 : g.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (dinv : (⟨1, ![N]⟩ : Shape).Idx → EReal) (hd : ∀ i, 0 ≤ dinv i ∧ dinv i ≠ ⊤)
    (h : (⟨2, ![N, C]⟩ : Shape).Idx → EReal)
    (srcI dstI dstNI : IVec ⟨2, ![E, 1]⟩ w)
    (hwrap : ∀ e : Fin E, 0 ≤ (dstI (ix2 e (0 : Fin 1))).toInt → dstNI (ix2 e (0 : Fin 1)) = dstI (ix2 e (0 : Fin 1)))
    (r : Fin N) (q : Fin C) :
    (0 + ∑ j ∈ Finset.univ.filter (fun j => sc.resultIdx? j dstI = some (ix2 r q)),
        (h (g.operandIdx j srcI) * dinv (ix1 ((g.operandIdx j srcI) 0)))) * dinv (ix1 r)
      = 0 + ∑ j ∈ Finset.univ.filter (fun j => sc.resultIdx? j dstI = some (ix2 r q)),
          h (g.operandIdx j srcI)
            * (dinv (gv.operandIdx (ix1 (j 0)) srcI) * dinv (gv.operandIdx (ix1 (j 0)) dstNI)) := by
  have key := scaled_sum (Finset.univ.filter (fun j => sc.resultIdx? j dstI = some (ix2 r q)))
    (fun j => h (g.operandIdx j srcI)) (fun j => dinv (ix1 ((g.operandIdx j srcI) 0)))
    (fun j => dinv (gv.operandIdx (ix1 (j 0)) dstNI)) (dinv (ix1 r)) (hd _).1 (hd _).2 (by
      intro j hj
      have hl := (Finset.mem_filter.mp hj).2
      rw [eq_ix2 j] at hl
      obtain ⟨hrow, -⟩ := scatterRows_lands sc s1 s2 s3 s4 dstI (j 0) (j 1) (ix2 r q) hl
      have hrow' : (dstI (ix2 (j 0) (0 : Fin 1))).toInt = (r.val : ℤ) := hrow
      have hnn : 0 ≤ (dstI (ix2 (j 0) (0 : Fin 1))).toInt := by rw [hrow']; exact Int.natCast_nonneg _
      show dinv (gv.operandIdx (ix1 (j 0)) dstNI) = dinv (ix1 r)
      rw [gatherVec_operandIdx hN gv v1 v2 v3 v4 v5 v6 v7 dstNI (j 0), hwrap (j 0) hnn,
        clampRow_of_toInt hN _ r hrow'])
  refine key.trans ?_
  refine congrArg (0 + ·) (Finset.sum_congr rfl fun j _ => ?_)
  show h (g.operandIdx j srcI) * (dinv (ix1 ((g.operandIdx j srcI) 0)) * dinv (gv.operandIdx (ix1 (j 0)) dstNI)) = _
  have e0 : g.operandIdx j srcI = ix2 (clampRow hN (srcI (ix2 (j 0) (0 : Fin 1)))) (j 1) :=
    (congrArg (fun j' => g.operandIdx j' srcI) (eq_ix2 j)).trans
      (gatherRows_operandIdx hN g g1 g2 g3 g4 g5 g6 g7 srcI (j 0) (j 1))
  have e1 : ix1 ((g.operandIdx j srcI) 0) = gv.operandIdx (ix1 (j 0)) srcI :=
    (congrArg (fun z : (⟨2, ![N, C]⟩ : Shape).Idx => ix1 (z 0)) e0).trans
      (gatherVec_operandIdx hN gv v1 v2 v3 v4 v5 v6 v7 srcI (j 0)).symm
  exact congrArg (fun z => h (g.operandIdx j srcI) * (dinv z * dinv (gv.operandIdx (ix1 (j 0)) dstNI))) e1

end Cert.Lib.GraphRows
-- ==== Proof.RefTake.lean ====
/-
  The reference's row lookup (a `take` along the rows of a table, out-of-range ids filled with NaN), read at an index.

  The operations: an id below zero is wrapped by the vocabulary size; the wrapped ids are laid down a column; a mask says
  which lie in [0, 999]; the table's rows are gathered at the ids (the gather clamps a start index into the table); and
  where the mask is off the row is replaced by NaN. When every id is a vocabulary index — below 1000 read unsigned, hence
  nonnegative read signed — the wrap leaves it alone, the mask is one everywhere, the clamp leaves it alone, and entry
  (i, d) of the result is the table's entry (id i, d).
-/
import proofs.«115835_g2070174237271_cont_8to1_761_7_alg».proof.Proof.Gen.ReferenceIdeal
import proofs.«115835_g2070174237271_cont_8to1_761_7_alg».proof.Proof.LibGraphRows
import Idealize.ShloMosaic.Lib.Affine
import Idealize.ShloMosaic.Lib.ValueIdx
import Idealize.ShloMosaic.Lib.Pipeline.Value
import Idealize.ShloMosaic.PureOps.Reduce

noncomputable section

namespace Cert.ReferenceIdeal.HandTake

open Cert.ReferenceIdeal Cert.ReferenceIdeal.Gen Cert.Lib.GraphRows Idealize.ShloMosaic Idealize.ShloMosaic.ValueIdx

/-! ## The lookup's operations, as functions of the table and the ids -/

def take_c : (⟨S_, .i32⟩ : BufTy).Contents (Elt Ideal) :=
  (constantI S_ 32 0#32)
def take_v0 : (⟨S16384, .i32⟩ : BufTy).Contents (Elt Ideal) :=
  ((broadcastInDim S16384 ![] bcast_S_S16384) : (⟨S_, .i32⟩ : BufTy).Contents (Elt Ideal) → (⟨S16384, .i32⟩ : BufTy).Contents (Elt Ideal)) take_c
def take_v1 (s : (⟨S16384, .i32⟩ : BufTy).Contents (Elt Ideal)) : (⟨S16384, .i1⟩ : BufTy).Contents (Elt Ideal) :=
  ((cmpi .slt) : (⟨S16384, .i32⟩ : BufTy).Contents (Elt Ideal) → (⟨S16384, .i32⟩ : BufTy).Contents (Elt Ideal) → (⟨S16384, .i1⟩ : BufTy).Contents (Elt Ideal)) s take_v0
def take_c_0 : (⟨S_, .i32⟩ : BufTy).Contents (Elt Ideal) :=
  (constantI S_ 32 1000#32)
def take_v2 : (⟨S16384, .i32⟩ : BufTy).Contents (Elt Ideal) :=
  ((broadcastInDim S16384 ![] bcast_S_S16384) : (⟨S_, .i32⟩ : BufTy).Contents (Elt Ideal) → (⟨S16384, .i32⟩ : BufTy).Contents (Elt Ideal)) take_c_0
def take_v3 (s : (⟨S16384, .i32⟩ : BufTy).Contents (Elt Ideal)) : (⟨S16384, .i32⟩ : BufTy).Contents (Elt Ideal) :=
  (addi : (⟨S16384, .i32⟩ : BufTy).Contents (Elt Ideal) → (⟨S16384, .i32⟩ : BufTy).Contents (Elt Ideal) → (⟨S16384, .i32⟩ : BufTy).Contents (Elt Ideal)) s take_v2
def take_v4 (s : (⟨S16384, .i32⟩ : BufTy).Contents (Elt Ideal)) : (⟨S16384, .i32⟩ : BufTy).Contents (Elt Ideal) :=
  (select : (⟨S16384, .i1⟩ : BufTy).Contents (Elt Ideal) → (⟨S16384, .i32⟩ : BufTy).Contents (Elt Ideal) → (⟨S16384, .i32⟩ : BufTy).Contents (Elt Ideal) → (⟨S16384, .i32⟩ : BufTy).Contents (Elt Ideal)) (take_v1 s) (take_v3 s) s
def take_v5 (s : (⟨S16384, .i32⟩ : BufTy).Contents (Elt Ideal)) : (⟨S16384x1, .i32⟩ : BufTy).Contents (Elt Ideal) :=
  ((broadcastInDim S16384x1 ![0] bcast_S16384_S16384x1_0) : (⟨S16384, .i32⟩ : BufTy).Contents (Elt Ideal) → (⟨S16384x1, .i32⟩ : BufTy).Contents (Elt Ideal)) (take_v4 s)
def take_c_1 : (⟨S1, .i32⟩ : BufTy).Contents (Elt Ideal) :=
  (constantI S1 32 999#32)
def take_c_2 : (⟨S_, .i32⟩ : BufTy).Contents (Elt Ideal) :=
  (constantI S_ 32 0#32)
def take_v6 : (⟨S16384x1, .i32⟩ : BufTy).Contents (Elt Ideal) :=
  ((broadcastInDim S16384x1 ![] bcast_S_S16384x1) : (⟨S_, .i32⟩ : BufTy).Contents (Elt Ideal) → (⟨S16384x1, .i32⟩ : BufTy).Contents (Elt Ideal)) take_c_2
def take_v7 (s : (⟨S16384, .i32⟩ : BufTy).Contents (Elt Ideal)) : (⟨S16384x1, .i1⟩ : BufTy).Contents (Elt Ideal) :=
  ((cmpi .sge) : (⟨S16384x1, .i32⟩ : BufTy).Contents (Elt Ideal) → (⟨S16384x1, .i32⟩ : BufTy).Contents (Elt Ideal) → (⟨S16384x1, .i1⟩ : BufTy).Contents (Elt Ideal)) (take_v5 s) take_v6
def take_v8 : (⟨S1x1, .i32⟩ : BufTy).Contents (Elt Ideal) :=
  ((broadcastInDim S1x1 ![1] bcast_S1_S1x1_1) : (⟨S1, .i32⟩ : BufTy).Contents (Elt Ideal) → (⟨S1x1, .i32⟩ : BufTy).Contents (Elt Ideal)) take_c_1
def take_v9 : (⟨S16384x1, .i32⟩ : BufTy).Contents (Elt Ideal) :=
  ((broadcastInDim S16384x1 ![0, 1] bcast_S1x1_S16384x1_0_1) : (⟨S1x1, .i32⟩ : BufTy).Contents (Elt Ideal) → (⟨S16384x1, .i32⟩ : BufTy).Contents (Elt Ideal)) take_v8
def take_v10 (s : (⟨S16384, .i32⟩ : BufTy).Contents (Elt Ideal)) : (⟨S16384x1, .i1⟩ : BufTy).Contents (Elt Ideal) :=
  ((cmpi .sle) : (⟨S16384x1, .i32⟩ : BufTy).Contents (Elt Ideal) → (⟨S16384x1, .i32⟩ : BufTy).Contents (Elt Ideal) → (⟨S16384x1, .i1⟩ : BufTy).Contents (Elt Ideal)) (take_v5 s) take_v9
def take_v11 (s : (⟨S16384, .i32⟩ : BufTy).Contents (Elt Ideal)) : (⟨S16384x1, .i1⟩ : BufTy).Contents (Elt Ideal) :=
  (andi : (⟨S16384x1, .i1⟩ : BufTy).Contents (Elt Ideal) → (⟨S16384x1, .i1⟩ : BufTy).Contents (Elt Ideal) → (⟨S16384x1, .i1⟩ : BufTy).Contents (Elt Ideal)) (take_v7 s) (take_v10 s)
def take_c_3 : (⟨S_, .i1⟩ : BufTy).Contents (Elt Ideal) :=
  (constantI S_ 1 1#1)
def take_v12 (s : (⟨S16384, .i32⟩ : BufTy).Contents (Elt Ideal)) : (⟨S16384, .i1⟩ : BufTy).Contents (Elt Ideal) :=
  ((fun x v => Host.reduce IntOp.andi x v reducesTo_S16384x1_S16384_d1 h_S_) : (⟨S16384x1, .i1⟩ : BufTy).Contents (Elt Ideal) → (⟨S_, .i1⟩ : BufTy).Contents (Elt Ideal) → (⟨S16384, .i1⟩ : BufTy).Contents (Elt Ideal)) (take_v11 s) take_c_3
def take_v13 (E : (⟨S1000x128, .f32⟩ : BufTy).Contents (Elt Ideal)) (s : (⟨S16384, .i32⟩ : BufTy).Contents (Elt Ideal)) : (⟨S16384x128, .f32⟩ : BufTy).Contents (Elt Ideal) :=
  ((fun x i => Host.gather gather_S1000x128_S16384x1_S16384x128_1_0_n_n_0_1_1128 x i) : (⟨S1000x128, .f32⟩ : BufTy).Contents (Elt Ideal) → (⟨S16384x1, .i32⟩ : BufTy).Contents (Elt Ideal) → (⟨S16384x128, .f32⟩ : BufTy).Contents (Elt Ideal)) E (take_v5 s)
def take_v14 (s : (⟨S16384, .i32⟩ : BufTy).Contents (Elt Ideal)) : (⟨S16384x128, .i1⟩ : BufTy).Contents (Elt Ideal) :=
  ((broadcastInDim S16384x128 ![0] bcast_S16384_S16384x128_0) : (⟨S16384, .i1⟩ : BufTy).Contents (Elt Ideal) → (⟨S16384x128, .i1⟩ : BufTy).Contents (Elt Ideal)) (take_v12 s)
def take_cst : (⟨S_, .f32⟩ : BufTy).Contents (Elt Ideal) :=
  (constant (F := Ideal) S_ .f32 0x7FC00000#32)
def take_v15 : (⟨S16384x128, .f32⟩ : BufTy).Contents (Elt Ideal) :=
  ((broadcastInDim S16384x128 ![] bcast_S_S16384x128) : (⟨S_, .f32⟩ : BufTy).Contents (Elt Ideal) → (⟨S16384x128, .f32⟩ : BufTy).Contents (Elt Ideal)) take_cst
def take_v16 (E : (⟨S1000x128, .f32⟩ : BufTy).Contents (Elt Ideal)) (s : (⟨S16384, .i32⟩ : BufTy).Contents (Elt Ideal)) : (⟨S16384x128, .f32⟩ : BufTy).Contents (Elt Ideal) :=
  (select : (⟨S16384x128, .i1⟩ : BufTy).Contents (Elt Ideal) → (⟨S16384x128, .f32⟩ : BufTy).Contents (Elt Ideal) → (⟨S16384x128, .f32⟩ : BufTy).Contents (Elt Ideal) → (⟨S16384x128, .f32⟩ : BufTy).Contents (Elt Ideal)) (take_v14 s) (take_v13 E s) take_v15

/-! ## The lookup read at an index -/

/-- A word below 1000 unsigned reads the same signed. -/
theorem toInt_of_lt (b : BitVec 32) (h : b.toNat < 1000) : b.toInt = (b.toNat : ℤ) :=
  BitVec.toInt_eq_toNat_of_lt (by omega)

/-- The wrapped ids laid down a column: entry (i, 0) is id i, when the ids are vocabulary indices. -/
theorem take_v5_apply (s : (⟨S16384, .i32⟩ : BufTy).Contents (Elt Ideal)) (hs : ∀ i : Fin 16384, (s (ix1 i)).toNat < 1000)
    (i : Fin 16384) (u : Fin 1) : take_v5 s (ix2 i u) = s (ix1 i) := by
  have e1 : take_v5 s (ix2 i u) = take_v4 s (ix1 i) := by
    unfold take_v5
    refine broadcastInDim_apply _ _ _ _ (ix1 i) (fun a => ?_)
    match a with
    | ⟨0, _⟩ =>
      show i.val = if (16384 : ℕ) = 1 then 0 else i.val
      rw [if_neg (by decide)]
  rw [e1]
  show Scalar.select (IntOp.cmpi .slt (s (ix1 i)) (0#32)) (IntOp.addi (s (ix1 i)) (1000#32)) (s (ix1 i)) = s (ix1 i)
  exact wrap_of_nonneg _ _ _ (by decide) (by rw [toInt_of_lt _ (hs i)]; exact Int.natCast_nonneg _)

/-- Every wrapped id lies in [0, 999], so the in-range mask is one at every entry (i, 0). -/
theorem take_v11_ix2 (s : (⟨S16384, .i32⟩ : BufTy).Contents (Elt Ideal)) (hs : ∀ i : Fin 16384, (s (ix1 i)).toNat < 1000)
    (i : Fin 16384) (u : Fin 1) : take_v11 s (ix2 i u) = 1#1 := by
  show IntOp.andi (IntOp.cmpi .sge (take_v5 s (ix2 i u)) (0#32)) (IntOp.cmpi .sle (take_v5 s (ix2 i u)) (999#32)) = 1#1
  rw [take_v5_apply s hs, IntOp.andi_eq_one, IntOp.cmpi_sge, IntOp.cmpi_sle, toInt_of_lt _ (hs i)]
  have h := hs i
  have z : (0#32 : BitVec 32).toInt = 0 := by decide
  have k : (999#32 : BitVec 32).toInt = 999 := by decide
  rw [z, k]
  exact ⟨Int.natCast_nonneg _, by omega⟩

/-- The in-range mask is one at every index of the column. -/
theorem take_v11_apply (s : (⟨S16384, .i32⟩ : BufTy).Contents (Elt Ideal)) (hs : ∀ i : Fin 16384, (s (ix1 i)).toNat < 1000)
    (p : S16384x1.Idx) : take_v11 s p = 1#1 := by
  rw [eq_ix2 p]
  exact take_v11_ix2 s hs _ _

/-- A fold by `and` over ones, from one, is one. -/
theorem foldl_andi_ones {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_ones x hx l

/-- The mask reduced along the column axis is all ones. -/
theorem take_v12_apply (s : (⟨S16384, .i32⟩ : BufTy).Contents (Elt Ideal)) (hs : ∀ i : Fin 16384, (s (ix1 i)).toNat < 1000)
    (k : S16384.Idx) : take_v12 s k = 1#1 := by
  show Host.reduce IntOp.andi (take_v11 s) take_c_3 reducesTo_S16384x1_S16384_d1 h_S_ k = 1#1
  rw [Host.reduce_eq_foldl]
  exact foldl_andi_ones _ (take_v11_apply s hs) _

/-- The mask broadcast over the row is all ones. -/
theorem take_v14_apply (s : (⟨S16384, .i32⟩ : BufTy).Contents (Elt Ideal)) (hs : ∀ i : Fin 16384, (s (ix1 i)).toNat < 1000)
    (i : Fin 16384) (d : Fin 128) : take_v14 s (ix2 i d) = 1#1 := by
  have e : take_v14 s (ix2 i d) = take_v12 s (ix1 i) := by
    unfold take_v14
    refine broadcastInDim_apply _ _ _ _ (ix1 i) (fun a => ?_)
    match a with
    | ⟨0, _⟩ =>
      show i.val = if (16384 : ℕ) = 1 then 0 else i.val
      rw [if_neg (by decide)]
  rw [e, take_v12_apply s hs]

/-- The lookup: row i of the result is the table's row at id i, when every id is a vocabulary index. -/
theorem take_apply (E : (⟨S1000x128, .f32⟩ : BufTy).Contents (Elt Ideal)) (s : (⟨S16384, .i32⟩ : BufTy).Contents (Elt Ideal))
    (hs : ∀ i : Fin 16384, (s (ix1 i)).toNat < 1000) (i : Fin 16384) (d : Fin 128) :
    take_v16 E s (ix2 i d) = E (ix2 ⟨(s (ix1 i)).toNat, hs i⟩ d) := by
  show Scalar.select (take_v14 s (ix2 i d)) (take_v13 E s (ix2 i d)) (take_v15 (ix2 i d)) = _
  rw [take_v14_apply s hs, select_one]
  show E (gather_S1000x128_S16384x1_S16384x128_1_0_n_n_0_1_1128.operandIdx (ix2 i d) (take_v5 s)) = _
  rw [gatherRows_operandIdx (by norm_num) _ rfl rfl rfl rfl rfl rfl rfl (take_v5 s) i d, take_v5_apply s hs,
    clampRow_of_toInt _ _ ⟨(s (ix1 i)).toNat, hs i⟩ (toInt_of_lt _ (hs i))]

end Cert.ReferenceIdeal.HandTake

end
-- ==== Proof.RefMid.lean ====
/-
  The reference's logits, read at an index.

  From the looked-up rows r (one row of 128 per position), the projection table W and the bias b: tanh of every entry;
  rows 0 … 16381 and rows 2 … 16383, added, so that row j is the context tanh r[j] + tanh r[j + 2]; the product of the
  contexts with the transposed projection table; and the bias added along every row. Entry (j, v) is therefore
  Σ_d (tanh r[j, d] + tanh r[j + 2, d]) · W[v, d] + b[v].
-/
import proofs.«115835_g2070174237271_cont_8to1_761_7_alg».proof.Proof.Gen.ReferenceIdeal
import proofs.«115835_g2070174237271_cont_8to1_761_7_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.ReferenceIdeal.HandMid

open Cert.ReferenceIdeal Cert.ReferenceIdeal.Gen Idealize.ShloMosaic Idealize.ShloMosaic.ValueIdx
open scoped BigOperators

def mid_v1 (r : (⟨S16384x128, .f32⟩ : BufTy).Contents (Elt Ideal)) : (⟨S16384x128, .f32⟩ : BufTy).Contents (Elt Ideal) :=
  ((Host.tanh (F := Ideal) (φ := .f32) : (⟨S16384x128, .f32⟩ : BufTy).Contents (Elt Ideal) → (⟨S16384x128, .f32⟩ : BufTy).Contents (Elt Ideal)) : (⟨S16384x128, .f32⟩ : BufTy).Contents (Elt Ideal) → (⟨S16384x128, .f32⟩ : BufTy).Contents (Elt Ideal)) r
def mid_v2 (r : (⟨S16384x128, .f32⟩ : BufTy).Contents (Elt Ideal)) : (⟨S16382x128, .f32⟩ : BufTy).Contents (Elt Ideal) :=
  (((extractStridedSlice S16382x128 ![0, 0] · slices_S16384x128_S16382x128_0_0) : (⟨S16384x128, .f32⟩ : BufTy).Contents (Elt Ideal) → (⟨S16382x128, .f32⟩ : BufTy).Contents (Elt Ideal)) : (⟨S16384x128, .f32⟩ : BufTy).Contents (Elt Ideal) → (⟨S16382x128, .f32⟩ : BufTy).Contents (Elt Ideal)) (mid_v1 r)
def mid_v3 (r : (⟨S16384x128, .f32⟩ : BufTy).Contents (Elt Ideal)) : (⟨S16382x128, .f32⟩ : BufTy).Contents (Elt Ideal) :=
  (((extractStridedSlice S16382x128 ![2, 0] · slices_S16384x128_S16382x128_2_0) : (⟨S16384x128, .f32⟩ : BufTy).Contents (Elt Ideal) → (⟨S16382x128, .f32⟩ : BufTy).Contents (Elt Ideal)) : (⟨S16384x128, .f32⟩ : BufTy).Contents (Elt Ideal) → (⟨S16382x128, .f32⟩ : BufTy).Contents (Elt Ideal)) (mid_v1 r)
def mid_v4 (r : (⟨S16384x128, .f32⟩ : BufTy).Contents (Elt Ideal)) : (⟨S16382x128, .f32⟩ : BufTy).Contents (Elt Ideal) :=
  ((addf (F := Ideal) (φ := .f32) : (⟨S16382x128, .f32⟩ : BufTy).Contents (Elt Ideal) → (⟨S16382x128, .f32⟩ : BufTy).Contents (Elt Ideal) → (⟨S16382x128, .f32⟩ : BufTy).Contents (Elt Ideal)) : (⟨S16382x128, .f32⟩ : BufTy).Contents (Elt Ideal) → (⟨S16382x128, .f32⟩ : BufTy).Contents (Elt Ideal) → (⟨S16382x128, .f32⟩ : BufTy).Contents (Elt Ideal)) (mid_v2 r) (mid_v3 r)
def mid_v5 (W : (⟨S1000x128, .f32⟩ : BufTy).Contents (Elt Ideal)) : (⟨S128x1000, .f32⟩ : BufTy).Contents (Elt Ideal) :=
  (((transpose S128x1000 [1, 0] · transposes_S1000x128_S128x1000_1_0) : (⟨S1000x128, .f32⟩ : BufTy).Contents (Elt Ideal) → (⟨S128x1000, .f32⟩ : BufTy).Contents (Elt Ideal)) : (⟨S1000x128, .f32⟩ : BufTy).Contents (Elt Ideal) → (⟨S128x1000, .f32⟩ : BufTy).Contents (Elt Ideal)) W
def mid_v6 (r : (⟨S16384x128, .f32⟩ : BufTy).Contents (Elt Ideal)) (W : (⟨S1000x128, .f32⟩ : BufTy).Contents (Elt Ideal)) : (⟨S16382x1000, .f32⟩ : BufTy).Contents (Elt Ideal) :=
  (((fun l r => Host.dotGeneral (F := Ideal) (φ₁ := .f32) (φ₂ := .f32) dot_S16382x128_S128x1000_S16382x1000_1_0_0_1_n_n none l r) : (⟨S16382x128, .f32⟩ : BufTy).Contents (Elt Ideal) → (⟨S128x1000, .f32⟩ : BufTy).Contents (Elt Ideal) → (⟨S16382x1000, .f32⟩ : BufTy).Contents (Elt Ideal)) : (⟨S16382x128, .f32⟩ : BufTy).Contents (Elt Ideal) → (⟨S128x1000, .f32⟩ : BufTy).Contents (Elt Ideal) → (⟨S16382x1000, .f32⟩ : BufTy).Contents (Elt Ideal)) (mid_v4 r) (mid_v5 W)
def mid_v7 (b : (⟨S1000, .f32⟩ : BufTy).Contents (Elt Ideal)) : (⟨S1x1000, .f32⟩ : BufTy).Contents (Elt Ideal) :=
  ((broadcastInDim S1x1000 ![1] bcast_S1000_S1x1000_1 : (⟨S1000, .f32⟩ : BufTy).Contents (Elt Ideal) → (⟨S1x1000, .f32⟩ : BufTy).Contents (Elt Ideal)) : (⟨S1000, .f32⟩ : BufTy).Contents (Elt Ideal) → (⟨S1x1000, .f32⟩ : BufTy).Contents (Elt Ideal)) b
def mid_v8 (b : (⟨S1000, .f32⟩ : BufTy).Contents (Elt Ideal)) : (⟨S16382x1000, .f32⟩ : BufTy).Contents (Elt Ideal) :=
  ((broadcastInDim S16382x1000 ![0, 1] bcast_S1x1000_S16382x1000_0_1 : (⟨S1x1000, .f32⟩ : BufTy).Contents (Elt Ideal) → (⟨S16382x1000, .f32⟩ : BufTy).Contents (Elt Ideal)) : (⟨S1x1000, .f32⟩ : BufTy).Contents (Elt Ideal) → (⟨S16382x1000, .f32⟩ : BufTy).Contents (Elt Ideal)) (mid_v7 b)
def mid_v9 (r : (⟨S16384x128, .f32⟩ : BufTy).Contents (Elt Ideal)) (W : (⟨S1000x128, .f32⟩ : BufTy).Contents (Elt Ideal)) (b : (⟨S1000, .f32⟩ : BufTy).Contents (Elt Ideal)) : (⟨S16382x1000, .f32⟩ : BufTy).Contents (Elt Ideal) :=
  ((addf (F := Ideal) (φ := .f32) : (⟨S16382x1000, .f32⟩ : BufTy).Contents (Elt Ideal) → (⟨S16382x1000, .f32⟩ : BufTy).Contents (Elt Ideal) → (⟨S16382x1000, .f32⟩ : BufTy).Contents (Elt Ideal)) : (⟨S16382x1000, .f32⟩ : BufTy).Contents (Elt Ideal) → (⟨S16382x1000, .f32⟩ : BufTy).Contents (Elt Ideal) → (⟨S16382x1000, .f32⟩ : BufTy).Contents (Elt Ideal)) (mid_v6 r W) (mid_v8 b)

theorem mid_v4_apply (r : (⟨S16384x128, .f32⟩ : BufTy).Contents (Elt Ideal)) (j : Fin 16382) (d : Fin 128) :
    mid_v4 r (ix2 j d) = Ideal.tanh (r (ix2 ⟨j.val, by omega⟩ d)) + Ideal.tanh (r (ix2 ⟨j.val + 2, by omega⟩ d)) := by
  show mid_v2 r (ix2 j d) + mid_v3 r (ix2 j d) = _
  congr 1
  · exact slice2_axis0_apply 0 (mid_v1 r) slices_S16384x128_S16382x128_0_0 j d ⟨j.val, by omega⟩ (Nat.zero_add _).symm
  · exact slice2_axis0_apply 2 (mid_v1 r) slices_S16384x128_S16382x128_2_0 j d ⟨j.val + 2, by omega⟩ (Nat.add_comm _ _)

theorem mid_v8_apply (b : (⟨S1000, .f32⟩ : BufTy).Contents (Elt Ideal)) (j : Fin 16382) (v : Fin 1000) : mid_v8 b (ix2 j v) = b (ix1 v) := by
  show broadcastInDim S16382x1000 ![0, 1] _ (broadcastInDim S1x1000 ![1] _ b) (ix2 j v) = _
  rw [broadcastInDim_apply _ _ _ _ (ix2 (0 : Fin 1) v) (fun a => match a with | ⟨0, _⟩ => rfl | ⟨1, _⟩ => rfl)]
  exact broadcastInDim_apply _ _ _ _ (ix1 v) (fun a => match a with | ⟨0, _⟩ => rfl)

theorem mid_v6_apply (r : (⟨S16384x128, .f32⟩ : BufTy).Contents (Elt Ideal)) (W : (⟨S1000x128, .f32⟩ : BufTy).Contents (Elt Ideal)) (j : Fin 16382) (v : Fin 1000) :
    mid_v6 r W (ix2 j v) = ∑ d : Fin 128, mid_v4 r (ix2 j d) * W (ix2 v d) := by
  show FloatOps.dotGeneral (F := Ideal) (φ₁ := .f32) (φ₂ := .f32) dot_S16382x128_S128x1000_S16382x1000_1_0_0_1_n_n none .single (mid_v4 r) (mid_v5 W) (ix2 j v) = _
  rw [Ideal.dotGeneral_apply]
  refine Fintype.sum_equiv (contrEquiv1 dot_S16382x128_S128x1000_S16382x1000_1_0_0_1_n_n 128 rfl rfl) _ _ (fun k => ?_)
  have hl : dot_S16382x128_S128x1000_S16382x1000_1_0_0_1_n_n.lhsIdx (ix2 j v) k
      = ix2 j (contrEquiv1 dot_S16382x128_S128x1000_S16382x1000_1_0_0_1_n_n 128 rfl rfl k) := by
    funext a
    match a with
    | ⟨0, _⟩ => exact Fin.ext rfl
    | ⟨1, _⟩ => exact Fin.ext rfl
  have hr : dot_S16382x128_S128x1000_S16382x1000_1_0_0_1_n_n.rhsIdx (ix2 j v) k
      = ix2 (contrEquiv1 dot_S16382x128_S128x1000_S16382x1000_1_0_0_1_n_n 128 rfl rfl k) v := by
    funext a
    match a with
    | ⟨0, _⟩ => exact Fin.ext rfl
    | ⟨1, _⟩ => exact Fin.ext rfl
  rw [hl, hr]
  congr 1
  exact transpose_ix2_apply W _ _ v

theorem mid_apply (r : (⟨S16384x128, .f32⟩ : BufTy).Contents (Elt Ideal)) (W : (⟨S1000x128, .f32⟩ : BufTy).Contents (Elt Ideal)) (b : (⟨S1000, .f32⟩ : BufTy).Contents (Elt Ideal)) (j : Fin 16382) (v : Fin 1000) :
    mid_v9 r W b (ix2 j v)
      = (∑ d : Fin 128, (Ideal.tanh (r (ix2 ⟨j.val, by omega⟩ d)) + Ideal.tanh (r (ix2 ⟨j.val + 2, by omega⟩ d))) * W (ix2 v d))
        + b (ix1 v) := by
  show mid_v6 r W (ix2 j v) + mid_v8 b (ix2 j v) = _
  rw [mid_v6_apply, mid_v8_apply]
  congr 1
  exact Finset.sum_congr rfl (fun d _ => by rw [mid_v4_apply])

end Cert.ReferenceIdeal.HandMid

end
-- ==== Proof.RefLsm.lean ====
/-
  The reference's log-softmax of a [16382, 1000] array, read at an index: row `j` of the result is the log-softmax of
  row `j` of the operand, in the spelling `(x - M) - log S` with `M` the row's maximum taken from -∞ and `S` the sum of
  the exponentials of the shifted row. The body is fifteen operations: the maximum over axis 1 from -∞, a maximum with
  a -∞ splat (which changes nothing), two broadcasts back to the array's shape, the difference, the exponential, the sum
  over axis 1 from zero, its broadcast, the logarithm, the broadcast, and the last difference. A reduction over axis 1
  at row `j` is the fold, or the sum, over the row's 1000 entries; a broadcast reads its operand at the row.
-/
import proofs.«115835_g2070174237271_cont_8to1_761_7_alg».proof.Proof.Gen.ReferenceIdeal
import proofs.«115835_g2070174237271_cont_8to1_761_7_alg».proof.Proof.Spec
import Idealize.ShloMosaic.Lib.Pipeline.Value
import Idealize.ShloMosaic.Lib.IdealHost
import Idealize.ShloMosaic.PureOps.Reduce
import Idealize.ShloMosaic.PureOps.Ideal.Laws

noncomputable section

namespace Cert.ReferenceIdeal.HandLsm

open Cert.ReferenceIdeal Cert.ReferenceIdeal.Gen Cert.Cbow Idealize.ShloMosaic Idealize.ShloMosaic.ValueIdx
open scoped BigOperators

/-! ## The body of the log-softmax, as functions of its operand -/

def lsm_cst : (⟨S_, .f32⟩ : BufTy).Contents (Elt Ideal) :=
  (constant (F := Ideal) S_ .f32 0xFF800000#32)
def lsm_v0 (x : (⟨S16382x1000, .f32⟩ : BufTy).Contents (Elt Ideal)) : (⟨S16382, .f32⟩ : BufTy).Contents (Elt Ideal) :=
  ((fun x v => Host.reduce (FloatOps.maximumf (F := Ideal) (φ := .f32)) x v reducesTo_S16382x1000_S16382_d1 h_S_) : (⟨S16382x1000, .f32⟩ : BufTy).Contents (Elt Ideal) → (⟨S_, .f32⟩ : BufTy).Contents (Elt Ideal) → (⟨S16382, .f32⟩ : BufTy).Contents (Elt Ideal)) x lsm_cst
def lsm_cst_0 : (⟨S_, .f32⟩ : BufTy).Contents (Elt Ideal) :=
  (constant (F := Ideal) S_ .f32 0xFF800000#32)
def lsm_v1 : (⟨S16382, .f32⟩ : BufTy).Contents (Elt Ideal) :=
  ((broadcastInDim S16382 ![] bcast_S_S16382) : (⟨S_, .f32⟩ : BufTy).Contents (Elt Ideal) → (⟨S16382, .f32⟩ : BufTy).Contents (Elt Ideal)) lsm_cst_0
def lsm_v2 (x : (⟨S16382x1000, .f32⟩ : BufTy).Contents (Elt Ideal)) : (⟨S16382, .f32⟩ : BufTy).Contents (Elt Ideal) :=
  (maximumf (F := Ideal) (φ := .f32) : (⟨S16382, .f32⟩ : BufTy).Contents (Elt Ideal) → (⟨S16382, .f32⟩ : BufTy).Contents (Elt Ideal) → (⟨S16382, .f32⟩ : BufTy).Contents (Elt Ideal)) lsm_v1 (lsm_v0 x)
def lsm_v3 (x : (⟨S16382x1000, .f32⟩ : BufTy).Contents (Elt Ideal)) : (⟨S16382x1, .f32⟩ : BufTy).Contents (Elt Ideal) :=
  ((broadcastInDim S16382x1 ![0] bcast_S16382_S16382x1_0) : (⟨S16382, .f32⟩ : BufTy).Contents (Elt Ideal) → (⟨S16382x1, .f32⟩ : BufTy).Contents (Elt Ideal)) (lsm_v2 x)
def lsm_v4 (x : (⟨S16382x1000, .f32⟩ : BufTy).Contents (Elt Ideal)) : (⟨S16382x1000, .f32⟩ : BufTy).Contents (Elt Ideal) :=
  ((broadcastInDim S16382x1000 ![0, 1] bcast_S16382x1_S16382x1000_0_1) : (⟨S16382x1, .f32⟩ : BufTy).Contents (Elt Ideal) → (⟨S16382x1000, .f32⟩ : BufTy).Contents (Elt Ideal)) (lsm_v3 x)
def lsm_v5 (x : (⟨S16382x1000, .f32⟩ : BufTy).Contents (Elt Ideal)) : (⟨S16382x1000, .f32⟩ : BufTy).Contents (Elt Ideal) :=
  (subf (F := Ideal) (φ := .f32) : (⟨S16382x1000, .f32⟩ : BufTy).Contents (Elt Ideal) → (⟨S16382x1000, .f32⟩ : BufTy).Contents (Elt Ideal) → (⟨S16382x1000, .f32⟩ : BufTy).Contents (Elt Ideal)) x (lsm_v4 x)
def lsm_v6 (x : (⟨S16382x1000, .f32⟩ : BufTy).Contents (Elt Ideal)) : (⟨S16382x1000, .f32⟩ : BufTy).Contents (Elt Ideal) :=
  (Host.exp (F := Ideal) (φ := .f32) : (⟨S16382x1000, .f32⟩ : BufTy).Contents (Elt Ideal) → (⟨S16382x1000, .f32⟩ : BufTy).Contents (Elt Ideal)) (lsm_v5 x)
def lsm_cst_1 : (⟨S_, .f32⟩ : BufTy).Contents (Elt Ideal) :=
  (constant (F := Ideal) S_ .f32 0x00000000#32)
def lsm_v7 (x : (⟨S16382x1000, .f32⟩ : BufTy).Contents (Elt Ideal)) : (⟨S16382, .f32⟩ : BufTy).Contents (Elt Ideal) :=
  ((fun x v => Host.reduceAdd (F := Ideal) (φ := .f32) x v reducesTo_S16382x1000_S16382_d1 h_S_) : (⟨S16382x1000, .f32⟩ : BufTy).Contents (Elt Ideal) → (⟨S_, .f32⟩ : BufTy).Contents (Elt Ideal) → (⟨S16382, .f32⟩ : BufTy).Contents (Elt Ideal)) (lsm_v6 x) lsm_cst_1
def lsm_v8 (x : (⟨S16382x1000, .f32⟩ : BufTy).Contents (Elt Ideal)) : (⟨S16382x1, .f32⟩ : BufTy).Contents (Elt Ideal) :=
  ((broadcastInDim S16382x1 ![0] bcast_S16382_S16382x1_0) : (⟨S16382, .f32⟩ : BufTy).Contents (Elt Ideal) → (⟨S16382x1, .f32⟩ : BufTy).Contents (Elt Ideal)) (lsm_v7 x)
def lsm_v9 (x : (⟨S16382x1000, .f32⟩ : BufTy).Contents (Elt Ideal)) : (⟨S16382x1, .f32⟩ : BufTy).Contents (Elt Ideal) :=
  (Host.log (F := Ideal) (φ := .f32) : (⟨S16382x1, .f32⟩ : BufTy).Contents (Elt Ideal) → (⟨S16382x1, .f32⟩ : BufTy).Contents (Elt Ideal)) (lsm_v8 x)
def lsm_v10 (x : (⟨S16382x1000, .f32⟩ : BufTy).Contents (Elt Ideal)) : (⟨S16382x1000, .f32⟩ : BufTy).Contents (Elt Ideal) :=
  ((broadcastInDim S16382x1000 ![0, 1] bcast_S16382x1_S16382x1000_0_1) : (⟨S16382x1, .f32⟩ : BufTy).Contents (Elt Ideal) → (⟨S16382x1000, .f32⟩ : BufTy).Contents (Elt Ideal)) (lsm_v9 x)
def lsm_v11 (x : (⟨S16382x1000, .f32⟩ : BufTy).Contents (Elt Ideal)) : (⟨S16382x1000, .f32⟩ : BufTy).Contents (Elt Ideal) :=
  (subf (F := Ideal) (φ := .f32) : (⟨S16382x1000, .f32⟩ : BufTy).Contents (Elt Ideal) → (⟨S16382x1000, .f32⟩ : BufTy).Contents (Elt Ideal) → (⟨S16382x1000, .f32⟩ : BufTy).Contents (Elt Ideal)) (lsm_v5 x) (lsm_v10 x)

/-! ## Read at an index -/

/-- The pattern of -∞ is the bottom of the extended reals. -/
theorem ofBits_neg_inf_f32 : Ideal.ofBits .f32 0xFF800000#32 = ⊥ := by simp [Ideal.ofBits, Ideal.ieee]

/-- The row index `j` with column `k` put back is `(j, k)`. -/
theorem lift_row (h : S16382x1000.Reduces [1] S16382) (j : Fin 16382) (k : Fin (S16382x1000.size 1)) :
    h.lift (ix1 j) k = ix2 j (⟨k.val, k.isLt⟩ : Fin 1000) := by
  funext c
  apply Fin.ext
  fin_cases c <;> rfl

/-- The host's exponential and logarithm at an index are the extended reals' own. -/
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- The maximum over axis 1 from -∞, at row `j`, is the row's maximum. -/
theorem lsm_v0_apply (x : (⟨S16382x1000, .f32⟩ : BufTy).Contents (Elt Ideal)) (j : Fin 16382) :
    lsm_v0 x (ix1 j) = rowMax (fun v => x (ix2 j v)) := by
  have h : S16382x1000.Reduces [1] S16382 := by decide
  unfold lsm_v0
  beta_reduce
  rw [Host.reduce_eq_fold_single (FloatOps.maximumf (F := Ideal) (φ := .f32)) x _ reducesTo_S16382x1000_S16382_d1 h h_S_]
  have hb : lsm_cst (Shape.Idx.first h_S_) = (⊥ : EReal) := ofBits_neg_inf_f32
  rw [hb]
  have hf : (x ∘ h.lift (ix1 j)) = fun v : Fin 1000 => x (ix2 j v) :=
    funext fun k => congrArg x (lift_row h j k)
  unfold rowMax
  exact congrArg (fun f => Finset.fold max (⊥ : EReal) f (Finset.univ : Finset (Fin 1000))) hf

/-- The -∞ splat broadcast to the rows reads -∞. -/
theorem lsm_v1_apply (j : Fin 16382) : lsm_v1 (ix1 j) = (⊥ : EReal) := by
  unfold lsm_v1
  rw [broadcastInDim_scalar_apply]
  exact ofBits_neg_inf_f32

theorem lsm_v2_apply (x : (⟨S16382x1000, .f32⟩ : BufTy).Contents (Elt Ideal)) (j : Fin 16382) :
    lsm_v2 x (ix1 j) = rowMax (fun v => x (ix2 j v)) := by
  unfold lsm_v2
  rw [maximumf_apply, lsm_v1_apply, lsm_v0_apply]
  exact max_eq_right bot_le

theorem lsm_v3_apply (x : (⟨S16382x1000, .f32⟩ : BufTy).Contents (Elt Ideal)) (j : Fin 16382) :
    lsm_v3 x (ix2 j (0 : Fin 1)) = rowMax (fun v => x (ix2 j v)) := by
  unfold lsm_v3
  rw [broadcastInDim_apply ![0] bcast_S16382_S16382x1_0 (lsm_v2 x) (ix2 j (0 : Fin 1)) (ix1 j) (fun a => by
    match a with
    | ⟨0, _⟩ =>
      show j.val = if (16382 : Nat) = 1 then 0 else j.val
      rw [if_neg (by decide)])]
  exact lsm_v2_apply x j

theorem lsm_v4_apply (x : (⟨S16382x1000, .f32⟩ : BufTy).Contents (Elt Ideal)) (j : Fin 16382) (v : Fin 1000) :
    lsm_v4 x (ix2 j v) = rowMax (fun v => x (ix2 j v)) := by
  unfold lsm_v4
  rw [broadcastInDim_apply ![0, 1] bcast_S16382x1_S16382x1000_0_1 (lsm_v3 x) (ix2 j v) (ix2 j (0 : Fin 1)) (fun a => by
    match a with
    | ⟨0, _⟩ =>
      show j.val = if (16382 : Nat) = 1 then 0 else j.val
      rw [if_neg (by decide)]
    | ⟨1, _⟩ =>
      show (0 : Nat) = if (1 : Nat) = 1 then 0 else v.val
      rw [if_pos rfl])]
  exact lsm_v3_apply x j

theorem lsm_v5_apply (x : (⟨S16382x1000, .f32⟩ : BufTy).Contents (Elt Ideal)) (j : Fin 16382) (v : Fin 1000) :
    lsm_v5 x (ix2 j v) = x (ix2 j v) - rowMax (fun v => x (ix2 j v)) := by
  unfold lsm_v5
  rw [subf_apply, lsm_v4_apply]

theorem lsm_v6_apply (x : (⟨S16382x1000, .f32⟩ : BufTy).Contents (Elt Ideal)) (j : Fin 16382) (v : Fin 1000) :
    lsm_v6 x (ix2 j v) = Ideal.exp (x (ix2 j v) - rowMax (fun v => x (ix2 j v))) := by
  unfold lsm_v6
  rw [hostExp_apply, lsm_v5_apply]

/-- The sum over axis 1 from zero, at row `j`, is the sum of the row's shifted exponentials. -/
theorem lsm_v7_apply (x : (⟨S16382x1000, .f32⟩ : BufTy).Contents (Elt Ideal)) (j : Fin 16382) :
    lsm_v7 x (ix1 j) = rowSum (fun v => x (ix2 j v)) (rowMax (fun v => x (ix2 j v))) := by
  have h : S16382x1000.Reduces [1] S16382 := by decide
  unfold lsm_v7
  beta_reduce
  rw [hostReduceAdd_apply, Ideal.hostReduceAdd_single reducesTo_S16382x1000_S16382_d1 h]
  have h0 : lsm_cst_1 (Shape.Idx.first h_S_) = (0 : EReal) := Ideal.ofBits_zero_f32
  rw [h0, zero_add]
  unfold rowSum
  refine Finset.sum_congr rfl fun v _ => ?_
  rw [lift_row h j v]
  exact lsm_v6_apply x j v

theorem lsm_v8_apply (x : (⟨S16382x1000, .f32⟩ : BufTy).Contents (Elt Ideal)) (j : Fin 16382) :
    lsm_v8 x (ix2 j (0 : Fin 1)) = rowSum (fun v => x (ix2 j v)) (rowMax (fun v => x (ix2 j v))) := by
  unfold lsm_v8
  rw [broadcastInDim_apply ![0] bcast_S16382_S16382x1_0 (lsm_v7 x) (ix2 j (0 : Fin 1)) (ix1 j) (fun a => by
    match a with
    | ⟨0, _⟩ =>
      show j.val = if (16382 : Nat) = 1 then 0 else j.val
      rw [if_neg (by decide)])]
  exact lsm_v7_apply x j

theorem lsm_v9_apply (x : (⟨S16382x1000, .f32⟩ : BufTy).Contents (Elt Ideal)) (j : Fin 16382) :
    lsm_v9 x (ix2 j (0 : Fin 1)) = Ideal.log (rowSum (fun v => x (ix2 j v)) (rowMax (fun v => x (ix2 j v)))) := by
  unfold lsm_v9
  rw [hostLog_apply, lsm_v8_apply]

theorem lsm_v10_apply (x : (⟨S16382x1000, .f32⟩ : BufTy).Contents (Elt Ideal)) (j : Fin 16382) (v : Fin 1000) :
    lsm_v10 x (ix2 j v) = Ideal.log (rowSum (fun v => x (ix2 j v)) (rowMax (fun v => x (ix2 j v)))) := by
  unfold lsm_v10
  rw [broadcastInDim_apply ![0, 1] bcast_S16382x1_S16382x1000_0_1 (lsm_v9 x) (ix2 j v) (ix2 j (0 : Fin 1)) (fun a => by
    match a with
    | ⟨0, _⟩ =>
      show j.val = if (16382 : Nat) = 1 then 0 else j.val
      rw [if_neg (by decide)]
    | ⟨1, _⟩ =>
      show (0 : Nat) = if (1 : Nat) = 1 then 0 else v.val
      rw [if_pos rfl])]
  exact lsm_v9_apply x j

/-- The log-softmax's result at `(j, v)` is the log-softmax of row `j` at `v`. -/
theorem lsm_apply (x : (⟨S16382x1000, .f32⟩ : BufTy).Contents (Elt Ideal)) (j : Fin 16382) (v : Fin 1000) :
    lsm_v11 x (ix2 j v) = logSoftmax₂ (fun v => x (ix2 j v)) v := by
  unfold lsm_v11
  rw [subf_apply, lsm_v5_apply, lsm_v10_apply]
  unfold logSoftmax₂
  rfl

end Cert.ReferenceIdeal.HandLsm

end
-- ==== Proof.RefAlongIdx.lean ====
/-
  The operand index of a lookup along the rows of a matrix.

  The reference reads, for every position j, one entry of row j of a [16382, 1000] matrix: a gather whose operand axis 0
  is a batching axis paired with the start indices' axis 0, and whose operand axis 1 is collapsed and named by the start
  index. On axis 0 the slice starts at zero, the batching coordinate is j and there is no offset; on axis 1 the start is
  the start index (j, 0, 0) read signed and clamped into the row, with neither batching coordinate nor offset. So the
  result's entry (j, 0) is the operand's entry (j, that column).
-/
import proofs.«115835_g2070174237271_cont_8to1_761_7_alg».proof.Proof.Gen.ReferenceIdeal
import proofs.«115835_g2070174237271_cont_8to1_761_7_alg».proof.Proof.LibGraphRows
import Idealize.ShloMosaic.PureOps.Contract
import Idealize.ShloMosaic.Lib.ValueIdx

noncomputable section

namespace Cert.ReferenceIdeal.HandAlongIdx

open Cert.ReferenceIdeal Cert.ReferenceIdeal.Gen Cert.Lib.GraphRows Idealize.ShloMosaic Idealize.ShloMosaic.ValueIdx

set_option backward.isDefEq.respectTransparency.types false in
/-- A lookup along the rows: a gather of a matrix `[N, C]` at start indices `[N, 1, 1]`, operand axis 0 a batching axis
    paired with the start indices' axis 0 and operand axis 1 collapsed: result `(j, 0)` reads the operand at row `j`,
    column the start index `(j, 0, 0)` read signed and clamped into `[0, C - 1]`. -/
theorem gatherAlongRows_operandIdx {N C w : ℕ} (hC : 0 < C)
    (d : GatherDims ⟨2, ![N, C]⟩ ⟨3, ![N, 1, 1]⟩ ⟨2, ![N, 1]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1]) (idx : IVec ⟨3, ![N, 1, 1]⟩ w) (j : Fin N) :
    d.operandIdx (ix2 j (0 : Fin 1)) idx = ix2 j (clampRow hC (idx (ix3 j (0 : Fin 1) (0 : Fin 1)))) := by
  obtain ⟨od, cs, ob, sb, sim, iv, ss, wf⟩ := d
  dsimp only at h1 h2 h3 h4 h5 h6 h7
  subst h1 h2 h3 h4 h5 h6 h7
  funext a
  refine Fin.ext ?_
  match a with
  | ⟨0, _⟩ =>
    show GatherDims.start _ (ix2 j (0 : Fin 1)) idx 0 + GatherDims.batchCoord _ (ix2 j (0 : Fin 1)) 0 + GatherDims.offCoord _ (ix2 j (0 : Fin 1)) 0 = j.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  | ⟨1, _⟩ =>
    show GatherDims.start _ (ix2 j (0 : Fin 1)) idx 1 + GatherDims.batchCoord _ (ix2 j (0 : Fin 1)) 1 + GatherDims.offCoord _ (ix2 j (0 : Fin 1)) 1 = _
    rw [GatherDims.batchCoord_eq_zero _ _ _ (show ¬ (1 : Fin 2) ∈ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [1], [0], [0], [1], 2, ![1, 1], wf⟩ : GatherDims ⟨2, ![N, C]⟩ ⟨3, ![N, 1, 1]⟩ ⟨2, ![N, 1]⟩) (ix2 j (0 : Fin 1))
        ⟨List.idxOf (1 : Fin 2) [(1 : Fin 2)], List.idxOf_lt_length_iff.2 (List.mem_singleton.mpr rfl)⟩ = ix3 j (0 : Fin 1) (0 : Fin 1) := by
      funext b; refine Fin.ext ?_
      match b with
      | ⟨0, _⟩ => rfl
      | ⟨1, _⟩ => rfl
      | ⟨2, _⟩ => rfl
    rw [hsi]
    rfl

/-- The reference's lookup of the target's log-probability: result `(j, 0)` reads row `j` at the column the start
    index `(j, 0, 0)` names, clamped into the vocabulary. -/
theorem gatherAlong_operandIdx (idx : IVec S16382x1x1 32) (j : Fin 16382) :
    gather_S16382x1000_S16382x1x1_S16382x1_n_1_0_0_1_2_11.operandIdx (ix2 j (0 : Fin 1)) idx
      = ix2 j (Cert.Lib.GraphRows.clampRow (N := 1000) (by norm_num) (idx (ix3 j (0 : Fin 1) (0 : Fin 1)))) :=
  gatherAlongRows_operandIdx (by norm_num) _ rfl rfl rfl rfl rfl rfl rfl idx j

end Cert.ReferenceIdeal.HandAlongIdx

end
-- ==== Proof.RefAlong.lean ====
/-
  The reference's take-along-axis of a [16382, 1000] array at a [16382, 1] column of indices, read at an index: when
  every index is a column of the array, row `j` of the result is the operand at row `j`, column `t j`. The body
  wraps a negative index by adding 1000 (a nonnegative one is left as it is), casts the column to [16382, 1, 1], gathers
  with the row as a batching axis and the index as the start on axis 1 (clamped into [0, 999], which changes nothing
  for a column), and masks the result by "0 ≤ index ≤ 999", reduced with "and" over the unit axis: the mask is all ones,
  so the gathered value is selected everywhere.
-/
import proofs.«115835_g2070174237271_cont_8to1_761_7_alg».proof.Proof.Gen.ReferenceIdeal
import proofs.«115835_g2070174237271_cont_8to1_761_7_alg».proof.Proof.Spec
import proofs.«115835_g2070174237271_cont_8to1_761_7_alg».proof.Proof.LibGraphRows
import proofs.«115835_g2070174237271_cont_8to1_761_7_alg».proof.Proof.RefAlongIdx
import Idealize.ShloMosaic.Lib.Pipeline.Value
import Idealize.ShloMosaic.Lib.IdealHost
import Idealize.ShloMosaic.PureOps.Reduce

noncomputable section

namespace Cert.ReferenceIdeal.HandAlong

open Cert.ReferenceIdeal Cert.ReferenceIdeal.Gen Cert.Cbow Idealize.ShloMosaic Idealize.ShloMosaic.ValueIdx
open Cert.Lib.GraphRows

/-! ## The body of the take-along-axis, as functions of its operands -/

def tal_c : (⟨S_, .i32⟩ : BufTy).Contents (Elt Ideal) :=
  (constantI S_ 32 0#32)
def tal_v0 : (⟨S16382x1, .i32⟩ : BufTy).Contents (Elt Ideal) :=
  ((broadcastInDim S16382x1 ![] bcast_S_S16382x1) : (⟨S_, .i32⟩ : BufTy).Contents (Elt Ideal) → (⟨S16382x1, .i32⟩ : BufTy).Contents (Elt Ideal)) tal_c
def tal_v1 (t : (⟨S16382x1, .i32⟩ : BufTy).Contents (Elt Ideal)) : (⟨S16382x1, .i1⟩ : BufTy).Contents (Elt Ideal) :=
  ((cmpi .slt) : (⟨S16382x1, .i32⟩ : BufTy).Contents (Elt Ideal) → (⟨S16382x1, .i32⟩ : BufTy).Contents (Elt Ideal) → (⟨S16382x1, .i1⟩ : BufTy).Contents (Elt Ideal)) t tal_v0
def tal_c_0 : (⟨S_, .i32⟩ : BufTy).Contents (Elt Ideal) :=
  (constantI S_ 32 1000#32)
def tal_v2 : (⟨S16382x1, .i32⟩ : BufTy).Contents (Elt Ideal) :=
  ((broadcastInDim S16382x1 ![] bcast_S_S16382x1) : (⟨S_, .i32⟩ : BufTy).Contents (Elt Ideal) → (⟨S16382x1, .i32⟩ : BufTy).Contents (Elt Ideal)) tal_c_0
def tal_v3 (t : (⟨S16382x1, .i32⟩ : BufTy).Contents (Elt Ideal)) : (⟨S16382x1, .i32⟩ : BufTy).Contents (Elt Ideal) :=
  (addi : (⟨S16382x1, .i32⟩ : BufTy).Contents (Elt Ideal) → (⟨S16382x1, .i32⟩ : BufTy).Contents (Elt Ideal) → (⟨S16382x1, .i32⟩ : BufTy).Contents (Elt Ideal)) t tal_v2
def tal_v4 (t : (⟨S16382x1, .i32⟩ : BufTy).Contents (Elt Ideal)) : (⟨S16382x1, .i32⟩ : BufTy).Contents (Elt Ideal) :=
  (select : (⟨S16382x1, .i1⟩ : BufTy).Contents (Elt Ideal) → (⟨S16382x1, .i32⟩ : BufTy).Contents (Elt Ideal) → (⟨S16382x1, .i32⟩ : BufTy).Contents (Elt Ideal) → (⟨S16382x1, .i32⟩ : BufTy).Contents (Elt Ideal)) (tal_v1 t) (tal_v3 t) t
def tal_v5 (t : (⟨S16382x1, .i32⟩ : BufTy).Contents (Elt Ideal)) : (⟨S16382x1x1, .i32⟩ : BufTy).Contents (Elt Ideal) :=
  fun i => shapeCast S16382x1x1 (tal_v4 t) shapeCasts_S16382x1_S16382x1x1 i
def tal_c_1 : (⟨S1, .i32⟩ : BufTy).Contents (Elt Ideal) :=
  (constantI S1 32 999#32)
def tal_c_2 : (⟨S_, .i32⟩ : BufTy).Contents (Elt Ideal) :=
  (constantI S_ 32 0#32)
def tal_v6 : (⟨S16382x1x1, .i32⟩ : BufTy).Contents (Elt Ideal) :=
  ((broadcastInDim S16382x1x1 ![] bcast_S_S16382x1x1) : (⟨S_, .i32⟩ : BufTy).Contents (Elt Ideal) → (⟨S16382x1x1, .i32⟩ : BufTy).Contents (Elt Ideal)) tal_c_2
def tal_v7 (t : (⟨S16382x1, .i32⟩ : BufTy).Contents (Elt Ideal)) : (⟨S16382x1x1, .i1⟩ : BufTy).Contents (Elt Ideal) :=
  ((cmpi .sge) : (⟨S16382x1x1, .i32⟩ : BufTy).Contents (Elt Ideal) → (⟨S16382x1x1, .i32⟩ : BufTy).Contents (Elt Ideal) → (⟨S16382x1x1, .i1⟩ : BufTy).Contents (Elt Ideal)) (tal_v5 t) tal_v6
def tal_v8 : (⟨S1x1x1, .i32⟩ : BufTy).Contents (Elt Ideal) :=
  ((broadcastInDim S1x1x1 ![2] bcast_S1_S1x1x1_2) : (⟨S1, .i32⟩ : BufTy).Contents (Elt Ideal) → (⟨S1x1x1, .i32⟩ : BufTy).Contents (Elt Ideal)) tal_c_1
def tal_v9 : (⟨S16382x1x1, .i32⟩ : BufTy).Contents (Elt Ideal) :=
  ((broadcastInDim S16382x1x1 ![0, 1, 2] bcast_S1x1x1_S16382x1x1_0_1_2) : (⟨S1x1x1, .i32⟩ : BufTy).Contents (Elt Ideal) → (⟨S16382x1x1, .i32⟩ : BufTy).Contents (Elt Ideal)) tal_v8
def tal_v10 (t : (⟨S16382x1, .i32⟩ : BufTy).Contents (Elt Ideal)) : (⟨S16382x1x1, .i1⟩ : BufTy).Contents (Elt Ideal) :=
  ((cmpi .sle) : (⟨S16382x1x1, .i32⟩ : BufTy).Contents (Elt Ideal) → (⟨S16382x1x1, .i32⟩ : BufTy).Contents (Elt Ideal) → (⟨S16382x1x1, .i1⟩ : BufTy).Contents (Elt Ideal)) (tal_v5 t) tal_v9
def tal_v11 (t : (⟨S16382x1, .i32⟩ : BufTy).Contents (Elt Ideal)) : (⟨S16382x1x1, .i1⟩ : BufTy).Contents (Elt Ideal) :=
  (andi : (⟨S16382x1x1, .i1⟩ : BufTy).Contents (Elt Ideal) → (⟨S16382x1x1, .i1⟩ : BufTy).Contents (Elt Ideal) → (⟨S16382x1x1, .i1⟩ : BufTy).Contents (Elt Ideal)) (tal_v7 t) (tal_v10 t)
def tal_c_3 : (⟨S_, .i1⟩ : BufTy).Contents (Elt Ideal) :=
  (constantI S_ 1 1#1)
def tal_v12 (t : (⟨S16382x1, .i32⟩ : BufTy).Contents (Elt Ideal)) : (⟨S16382x1, .i1⟩ : BufTy).Contents (Elt Ideal) :=
  ((fun x v => Host.reduce IntOp.andi x v reducesTo_S16382x1x1_S16382x1_d2 h_S_) : (⟨S16382x1x1, .i1⟩ : BufTy).Contents (Elt Ideal) → (⟨S_, .i1⟩ : BufTy).Contents (Elt Ideal) → (⟨S16382x1, .i1⟩ : BufTy).Contents (Elt Ideal)) (tal_v11 t) tal_c_3
def tal_v13 (x : (⟨S16382x1000, .f32⟩ : BufTy).Contents (Elt Ideal)) (t : (⟨S16382x1, .i32⟩ : BufTy).Contents (Elt Ideal)) : (⟨S16382x1, .f32⟩ : BufTy).Contents (Elt Ideal) :=
  ((fun x i => Host.gather gather_S16382x1000_S16382x1x1_S16382x1_n_1_0_0_1_2_11 x i) : (⟨S16382x1000, .f32⟩ : BufTy).Contents (Elt Ideal) → (⟨S16382x1x1, .i32⟩ : BufTy).Contents (Elt Ideal) → (⟨S16382x1, .f32⟩ : BufTy).Contents (Elt Ideal)) x (tal_v5 t)
def tal_cst : (⟨S_, .f32⟩ : BufTy).Contents (Elt Ideal) :=
  (constant (F := Ideal) S_ .f32 0x7FC00000#32)
def tal_v14 : (⟨S16382x1, .f32⟩ : BufTy).Contents (Elt Ideal) :=
  ((broadcastInDim S16382x1 ![] bcast_S_S16382x1) : (⟨S_, .f32⟩ : BufTy).Contents (Elt Ideal) → (⟨S16382x1, .f32⟩ : BufTy).Contents (Elt Ideal)) tal_cst
def tal_v15 (x : (⟨S16382x1000, .f32⟩ : BufTy).Contents (Elt Ideal)) (t : (⟨S16382x1, .i32⟩ : BufTy).Contents (Elt Ideal)) : (⟨S16382x1, .f32⟩ : BufTy).Contents (Elt Ideal) :=
  (select : (⟨S16382x1, .i1⟩ : BufTy).Contents (Elt Ideal) → (⟨S16382x1, .f32⟩ : BufTy).Contents (Elt Ideal) → (⟨S16382x1, .f32⟩ : BufTy).Contents (Elt Ideal) → (⟨S16382x1, .f32⟩ : BufTy).Contents (Elt Ideal)) (tal_v12 t) (tal_v13 x t) tal_v14

/-! ## Elementwise operations and a constant reduction, read at an index -/

theorem cmpi_apply {s : Shape} {w : Nat} (p : CmpIPredicate) (a b : IVec s w) (i : s.Idx) :
    cmpi p a b i = IntOp.cmpi p (a i) (b i) := rfl
theorem addi_apply {s : Shape} {w : Nat} (a b : IVec s w) (i : s.Idx) : addi a b i = IntOp.addi (a i) (b i) := rfl
theorem andi_apply {s : Shape} {w : Nat} (a b : IVec s w) (i : s.Idx) : andi a b i = IntOp.andi (a i) (b i) := rfl

/-- A reduction of an array all of whose entries are `c`, from `c`, with a body that fixes `c`, is `c`. -/
theorem hostReduce_const {α : Type} {s t u : Shape} {axes : List (Fin s.rank)} (f : α → α → α) (x : s.Idx → α)
    (init : u.Idx → α) (h : s.ReducesTo axes t) (hu : 0 < u.numel) (c : α) (hx : ∀ i, x i = c)
    (hi : init (Shape.Idx.first hu) = c) (hf : f c c = c) (j : t.Idx) : Host.reduce f x init h hu j = c := by
  rw [Host.reduce_eq_foldl, hi]
  generalize (List.filter (fun i => decide (h.drop i = j)) (List.map s.rowMajor.symm (List.finRange s.numel))) = l
  induction l with
  | nil => rfl
  | cons a l ih =>
    rw [List.foldl_cons, hx, hf]
    exact ih

/-- A word below 1000 read signed is itself. -/
theorem toInt_of_lt {b : BitVec 32} (h : b.toNat < 1000) : b.toInt = (b.toNat : ℤ) :=
  BitVec.toInt_eq_toNat_of_lt (by omega)

/-! ## Read at an index -/

theorem tal_v0_apply (i : S16382x1.Idx) : tal_v0 i = 0#32 := by
  unfold tal_v0
  rw [broadcastInDim_scalar_apply]
  rfl

theorem tal_v2_apply (i : S16382x1.Idx) : tal_v2 i = 1000#32 := by
  unfold tal_v2
  rw [broadcastInDim_scalar_apply]
  rfl

/-- The wrap leaves a column index as it is. -/
theorem tal_v4_apply (t : (⟨S16382x1, .i32⟩ : BufTy).Contents (Elt Ideal)) (ht : ∀ j : Fin 16382, (t (ix2 j (0 : Fin 1))).toNat < 1000) (j : Fin 16382) :
    tal_v4 t (ix2 j (0 : Fin 1)) = t (ix2 j (0 : Fin 1)) := by
  unfold tal_v4
  rw [select_apply]
  unfold tal_v1 tal_v3
  rw [cmpi_apply, addi_apply, tal_v0_apply]
  refine wrap_of_nonneg _ _ _ (by decide) ?_
  rw [toInt_of_lt (ht j)]
  exact Int.natCast_nonneg _

theorem tal_v5_apply (t : (⟨S16382x1, .i32⟩ : BufTy).Contents (Elt Ideal)) (ht : ∀ j : Fin 16382, (t (ix2 j (0 : Fin 1))).toNat < 1000) (j : Fin 16382) :
    tal_v5 t (ix3 j (0 : Fin 1) (0 : Fin 1)) = t (ix2 j (0 : Fin 1)) := by
  unfold tal_v5
  rw [shapeCast_apply (tal_v4 t) shapeCasts_S16382x1_S16382x1x1 (ix3 j (0 : Fin 1) (0 : Fin 1)) (ix2 j (0 : Fin 1)) (by
    rw [Shape.rowMajor_val_two, Shape.rowMajor_val_three]
    show j.val * 1 + 0 = (j.val * 1 + 0) * 1 + 0
    omega)]
  exact tal_v4_apply t ht j

theorem tal_v6_apply (i : S16382x1x1.Idx) : tal_v6 i = 0#32 := by
  unfold tal_v6
  rw [broadcastInDim_scalar_apply]
  rfl

theorem tal_v9_apply (i : S16382x1x1.Idx) : tal_v9 i = 999#32 := rfl

/-- Every index of a [16382, 1, 1] array is `(a, 0, 0)`. -/
theorem idx_exists (i : S16382x1x1.Idx) : ∃ a : Fin 16382, i = ix3 a (0 : Fin 1) (0 : Fin 1) := by
  refine ⟨(⟨(i 0).val, (i 0).isLt⟩ : Fin 16382), ?_⟩
  funext c
  match c with
  | ⟨0, _⟩ => rfl
  | ⟨1, _⟩ => exact Subsingleton.elim (α := Fin 1) _ _
  | ⟨2, _⟩ => exact Subsingleton.elim (α := Fin 1) _ _

/-- The range mask is all ones. -/
theorem tal_v11_apply (t : (⟨S16382x1, .i32⟩ : BufTy).Contents (Elt Ideal)) (ht : ∀ j : Fin 16382, (t (ix2 j (0 : Fin 1))).toNat < 1000) (i : S16382x1x1.Idx) : tal_v11 t i = 1#1 := by
  obtain ⟨a, rfl⟩ := idx_exists i
  unfold tal_v11
  rw [andi_apply]
  unfold tal_v7 tal_v10
  rw [cmpi_apply, cmpi_apply, tal_v5_apply t ht, tal_v6_apply, tal_v9_apply]
  have h0 : (t (ix2 a (0 : Fin 1))).toInt = ((t (ix2 a (0 : Fin 1))).toNat : ℤ) := toInt_of_lt (ht a)
  have hlt := ht a
  have e1 : IntOp.cmpi .sge (t (ix2 a (0 : Fin 1))) 0#32 = 1#1 := by
    show BitVec.ofBool ((0#32).sle (t (ix2 a (0 : Fin 1)))) = 1#1
    rw [BitVec.sle_eq_decide, h0, decide_eq_true (by simp)]
    rfl
  have e2 : IntOp.cmpi .sle (t (ix2 a (0 : Fin 1))) 999#32 = 1#1 := by
    show BitVec.ofBool ((t (ix2 a (0 : Fin 1))).sle 999#32) = 1#1
    rw [BitVec.sle_eq_decide, h0, decide_eq_true (by
      show ((t (ix2 a (0 : Fin 1))).toNat : ℤ) ≤ (999#32 : BitVec 32).toInt
      have h9 : (999#32 : BitVec 32).toInt = 999 := by decide
      rw [h9]; omega)]
    rfl
  rw [e1, e2]
  rfl

theorem tal_v12_apply (t : (⟨S16382x1, .i32⟩ : BufTy).Contents (Elt Ideal)) (ht : ∀ j : Fin 16382, (t (ix2 j (0 : Fin 1))).toNat < 1000) (j : Fin 16382) : tal_v12 t (ix2 j (0 : Fin 1)) = 1#1 := by
  unfold tal_v12
  beta_reduce
  exact hostReduce_const IntOp.andi (tal_v11 t) tal_c_3 reducesTo_S16382x1x1_S16382x1_d2 h_S_ 1#1
    (tal_v11_apply t ht) rfl (by decide) _

/-- The gather reads row `j` at the column the index names. -/
theorem tal_v13_apply (x : (⟨S16382x1000, .f32⟩ : BufTy).Contents (Elt Ideal)) (t : (⟨S16382x1, .i32⟩ : BufTy).Contents (Elt Ideal)) (ht : ∀ j : Fin 16382, (t (ix2 j (0 : Fin 1))).toNat < 1000) (j : Fin 16382) :
    tal_v13 x t (ix2 j (0 : Fin 1)) = x (ix2 j ⟨(t (ix2 j (0 : Fin 1))).toNat, ht j⟩) := by
  unfold tal_v13
  beta_reduce
  rw [gather_apply, Cert.ReferenceIdeal.HandAlongIdx.gatherAlong_operandIdx, tal_v5_apply t ht,
    clampRow_of_toInt _ _ ⟨(t (ix2 j (0 : Fin 1))).toNat, ht j⟩ (toInt_of_lt (ht j))]

/-- The take-along-axis at row `j` is the operand at row `j`, column `t j`. -/
theorem tal_apply (x : (⟨S16382x1000, .f32⟩ : BufTy).Contents (Elt Ideal)) (t : (⟨S16382x1, .i32⟩ : BufTy).Contents (Elt Ideal)) (ht : ∀ j : Fin 16382, (t (ix2 j (0 : Fin 1))).toNat < 1000) (j : Fin 16382) :
    tal_v15 x t (ix2 j (0 : Fin 1)) = x (ix2 j ⟨(t (ix2 j (0 : Fin 1))).toNat, ht j⟩) := by
  unfold tal_v15
  rw [select_apply, tal_v12_apply t ht, select_one, tal_v13_apply x t ht]

end Cert.ReferenceIdeal.HandAlong

end
-- ==== Proof.RefRead.lean ====
/-
  The reference's three results read at an index, for token ids inside the vocabulary.

  The targets are the ids shifted by one. The log-probabilities at position `j`, vocabulary row `v` are the
  log-softmax (shift by the row maximum, then subtract the log of the row sum) of the logits, the logit being
  the contraction of the context — the two neighbours' embeddings, `tanh` of their rows of the embedding table,
  added — with row `v` of the projection table, plus the bias. The loss is the mean over positions of the
  negated entry, at the middle token, of the log-softmax applied once more. Each stage is one of the
  program's calls or its middle stretch, read at an index in a module of its own; here they are joined.
-/
import proofs.«115835_g2070174237271_cont_8to1_761_7_alg».proof.Proof.RefRun
import proofs.«115835_g2070174237271_cont_8to1_761_7_alg».proof.Proof.Spec
import proofs.«115835_g2070174237271_cont_8to1_761_7_alg».proof.Proof.HostReads
import proofs.«115835_g2070174237271_cont_8to1_761_7_alg».proof.Proof.RefTake
import proofs.«115835_g2070174237271_cont_8to1_761_7_alg».proof.Proof.RefMid
import proofs.«115835_g2070174237271_cont_8to1_761_7_alg».proof.Proof.RefLsm
import proofs.«115835_g2070174237271_cont_8to1_761_7_alg».proof.Proof.RefAlong
import Idealize.ShloMosaic.Lib.ValueIdx
import Idealize.ShloMosaic.Lib.ValueLayout
import Idealize.ShloMosaic.Lib.Pipeline.Value

noncomputable section

namespace Cert.ReferenceIdeal.HandRead

open Cert.Cbow Cert.ReferenceIdeal Cert.ReferenceIdeal.Gen Cert.ReferenceIdeal.Hand
open Cert.ReferenceIdeal.HandTake Cert.ReferenceIdeal.HandMid Cert.ReferenceIdeal.HandLsm Cert.ReferenceIdeal.HandAlong
open Idealize.ShloMosaic Idealize.ShloMosaic.ValueIdx
open scoped BigOperators

/-- The targets: the token ids from the second on. -/
theorem targetsOf_apply (s : Ids) (j : Fin 16382) : targetsOf s (ix1 j) = s (ix1 ⟨j.val + 1, by omega⟩) :=
  slice_read s slices_S16384_S16382_1 j

/-- A token id inside the vocabulary is its own vocabulary index. -/
theorem tok_eq (s : Ids) (hs : InVocab s) (i : Fin 16384) : tok s i = ⟨(s (ix1 i)).toNat, hs i⟩ :=
  Fin.ext (Nat.mod_eq_of_lt (hs i))

/-! ## The stages of the program are the calls' bodies -/

theorem v0_eq (s : Ids) (E : Cert.Cbow.Table) : val_main_v0 (F := Ideal) s E = take_v16 E s := rfl
theorem v9_eq (s : Ids) (E W : Cert.Cbow.Table) (b : Bias) :
    val_main_v9 (F := Ideal) s E W b = mid_v9 (val_main_v0 (F := Ideal) s E) W b := rfl

/-- The logits. -/
theorem logit_apply (s : Ids) (E W : Cert.Cbow.Table) (b : Bias) (hs : InVocab s) (j : Fin 16382) (v : Fin 1000) :
    val_main_v9 (F := Ideal) s E W b (ix2 j v) = logit s E W b j v := by
  rw [v9_eq, mid_apply, v0_eq]
  show (∑ d : Fin 128, (Ideal.tanh (take_v16 E s (ix2 ⟨j.val, by omega⟩ d)) + Ideal.tanh (take_v16 E s (ix2 ⟨j.val + 2, by omega⟩ d))) * W (ix2 v d)) + b (ix1 v)
    = (∑ d : Fin 128, (Ideal.tanh (E (ix2 (tok s ⟨j.val, by omega⟩) d)) + Ideal.tanh (E (ix2 (tok s ⟨j.val + 2, by omega⟩) d))) * W (ix2 v d)) + b (ix1 v)
  simp only [take_apply E s hs, tok_eq s hs]

theorem v10_eq (s : Ids) (E W : Cert.Cbow.Table) (b : Bias) :
    val_main_v10 (F := Ideal) s E W b = lsm_v11 (val_main_v9 (F := Ideal) s E W b) := rfl
theorem v12_eq (s : Ids) (E W : Cert.Cbow.Table) (b : Bias) :
    val_main_v12 (F := Ideal) s E W b = lsm_v11 (val_main_v10 (F := Ideal) s E W b) := rfl
theorem v14_eq (s : Ids) (E W : Cert.Cbow.Table) (b : Bias) :
    val_main_v14 (F := Ideal) s E W b = tal_v15 (val_main_v12 (F := Ideal) s E W b) (val_main_v13 (F := Ideal) s) := rfl

/-- The log-probabilities. -/
theorem predOf_apply (s : Ids) (E W : Cert.Cbow.Table) (b : Bias) (hs : InVocab s) (j : Fin 16382) (v : Fin 1000) :
    predOf s E W b (ix2 j v) = logp₂ s E W b j v := by
  show val_main_v10 (F := Ideal) s E W b (ix2 j v) = _
  rw [v10_eq, lsm_apply]
  have h : (fun v' => val_main_v9 (F := Ideal) s E W b (ix2 j v')) = logit s E W b j :=
    funext fun v' => logit_apply s E W b hs j v'
  rw [h]
  rfl

/-- The targets as a column. -/
theorem v13_apply (s : Ids) (j : Fin 16382) :
    val_main_v13 (F := Ideal) s (ix2 j (0 : Fin 1)) = s (ix1 ⟨j.val + 1, by omega⟩) := by
  show broadcastInDim S16382x1 ![0] _ (val_main_v11 (F := Ideal) s) (ix2 j (0 : Fin 1)) = _
  rw [broadcastInDim_apply _ _ _ _ (ix1 j) (fun a => match a with | ⟨0, _⟩ => rfl)]
  exact slice_read s slices_S16384_S16382_1 j

/-- A column cast to a vector reads the column's entry. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The negative log-likelihood of the middle token at each position. -/
theorem v16_apply (s : Ids) (E W : Cert.Cbow.Table) (b : Bias) (hs : InVocab s) (j : Fin 16382) :
    val_main_v16 (F := Ideal) s E W b (ix1 j) = nll₂ s E W b j := by
  show -(shapeCast S16382 (val_main_v14 (F := Ideal) s E W b) shapeCasts_S16382x1_S16382 (ix1 j)) = _
  have ht : ∀ j : Fin 16382, (val_main_v13 (F := Ideal) s (ix2 j (0 : Fin 1))).toNat < 1000 := fun j => by
    rw [v13_apply]; exact hs _
  rw [shapeCast_a1_a_apply, v14_eq, tal_apply _ _ ht, v12_eq, lsm_apply]
  have h : (fun v' => val_main_v10 (F := Ideal) s E W b (ix2 j v')) = logSoftmax₂ (logit s E W b j) :=
    funext fun v' => predOf_apply s E W b hs j v'
  rw [h]
  unfold nll₂ target
  congr 2
  rw [tok_eq s hs]
  exact Fin.ext (congrArg BitVec.toNat (v13_apply s j))

/-- The loss. -/
theorem lossOf_apply (s : Ids) (E W : Cert.Cbow.Table) (b : Bias) (hs : InVocab s) :
    lossOf s E W b ix0 = mean (nll₂ s E W b) (Ideal.ofBits .f32 0x00000000#32) (Ideal.ofBits .f32 0x467FF800#32) := by
  show Host.divf (F := Ideal) (Host.reduceAdd (val_main_v16 (F := Ideal) s E W b)
      (constant (F := Ideal) S_ .f32 0x00000000#32) reducesTo_S16382_S_d0 h_S_) (constant (F := Ideal) S_ .f32 0x467FF800#32) ix0 = _
  rw [mean_read_vec]
  have h : (fun j => val_main_v16 (F := Ideal) s E W b (ix1 j)) = nll₂ s E W b :=
    funext fun j => v16_apply s E W b hs j
  rw [h]

end Cert.ReferenceIdeal.HandRead

end
-- ==== Proof.Domain.lean ====
/-
  The precondition, decoded over plain arrays. The predicate says: |x| < +∞ at every entry of the embedding table, of
  the projection table and of the bias (each comparison array reduced by `and` to one bit), and 0 ≤ id and id < 1000,
  both signed, at every token id (again reduced by `and`); the five bits are joined by `and`, and the claim states the
  result is 1. Read back: a conjunction of bits that is 1 has every bit 1; an all-reduction by `and` that is 1 met a 1 at
  every index; |x| < +∞ in the extended reals (|x| = max x (-x), the bound the pattern 0x7F800000) says x is neither
  infinity; a 32-bit word that is nonnegative signed has its top bit clear, so it reads the same unsigned, and below
  1000 signed it is then below 1000 unsigned.
-/
import proofs.«115835_g2070174237271_cont_8to1_761_7_alg».proof.Pre_finite_inputs
import proofs.«115835_g2070174237271_cont_8to1_761_7_alg».proof.Proof.Gen.Pre_finite_inputs
import proofs.«115835_g2070174237271_cont_8to1_761_7_alg».proof.Proof.Spec
import Idealize.ShloMosaic.Lib.ReduceAll
import Idealize.ShloMosaic.Lib.ValueIdx
import Idealize.ShloMosaic.PureOps.Ideal.Laws

noncomputable section

namespace Cert.Domain

open Idealize.ShloMosaic Idealize.ShloMosaic.ValueIdx

/-- The scalar shape has one index. -/
instance : Subsingleton Cert.Pre_finite_inputs.S_.Idx := ⟨fun a b => funext fun d => d.elim0⟩

/-- The pattern 0x7F800000 is +∞. -/
theorem inf_bits : Ideal.ofBits .f32 0x7F800000#32 = ⊤ := by simp [Ideal.ofBits, Ideal.ieee]

/-- |x| < +∞ says that x is a real number. -/
theorem real_of_abs_lt_top (x : EReal) (h : Ideal.cmp .olt (max x (-x)) ⊤ = 1#1) : x ≠ ⊤ ∧ x ≠ ⊥ := by
  unfold Ideal.cmp at h
  have hlt : max x (-x) < ⊤ := by
    by_contra hn
    simp [hn] at h
  rw [max_lt_iff] at hlt
  refine ⟨ne_of_lt hlt.1, ?_⟩
  rintro rfl
  simp at hlt

/-- |x| < +∞, the bound written as its f32 pattern, says that x is a real number. -/
theorem real_of_abs_lt_inf (x : EReal) (h : Ideal.cmp .olt (max x (-x)) (Ideal.ofBits .f32 0x7F800000#32) = 1#1) :
    x ≠ ⊤ ∧ x ≠ ⊥ := by
  rw [inf_bits] at h
  exact real_of_abs_lt_top x h

/-- A word in [0, 1000) signed is below 1000 unsigned. -/
theorem toNat_lt_of_signed (w : BitVec 32) (h0 : IntOp.cmpi .sge w 0#32 = 1#1) (h1 : IntOp.cmpi .slt w 1000#32 = 1#1) :
    w.toNat < 1000 := by
  rw [IntOp.cmpi_sge] at h0
  rw [IntOp.cmpi_slt] at h1
  have z : (0#32 : BitVec 32).toInt = 0 := by decide
  have k : (1000#32 : BitVec 32).toInt = 1000 := by decide
  rw [z] at h0
  rw [k] at h1
  have h32 := w.isLt
  unfold BitVec.toInt at h0 h1
  split at h1 <;> omega

theorem decode [Cert.Pre_finite_inputs.Facts] (s : Cert.Cbow.Ids) (E W : Cert.Cbow.Table) (b : Cert.Cbow.Bias)
    (h : Cert.Pre_finite_inputs.fn (F := Ideal) s E W b = (fun _ => 1#1)) :
    Cert.Cbow.InVocab s ∧ Cert.Cbow.FiniteT E ∧ Cert.Cbow.FiniteT W ∧ Cert.Cbow.FiniteB b := by
  have e := congrFun h ix0
  dsimp only [Cert.Pre_finite_inputs.fn, Cert.Pre_finite_inputs.fn_part1] at e
  obtain ⟨e1, hslt⟩ := IntOp.andi_eq_one.1 e
  obtain ⟨e2, hsge⟩ := IntOp.andi_eq_one.1 e1
  obtain ⟨e3, hb⟩ := IntOp.andi_eq_one.1 e2
  obtain ⟨hE, hW⟩ := IntOp.andi_eq_one.1 e3
  refine ⟨fun i => ?_, fun i => ?_, fun i => ?_, fun i => ?_⟩
  · exact toNat_lt_of_signed _ (Host.reduce_andi_all _ _ _ _ _ hsge (ix1 i)) (Host.reduce_andi_all _ _ _ _ _ hslt (ix1 i))
  · exact real_of_abs_lt_inf _ (Host.reduce_andi_all _ _ _ _ _ hE i)
  · exact real_of_abs_lt_inf _ (Host.reduce_andi_all _ _ _ _ _ hW i)
  · exact real_of_abs_lt_inf _ (Host.reduce_andi_all _ _ _ _ _ hb i)

end Cert.Domain

end
-- ==== Proof.lean ====
/-
  A continuous-bag-of-words forward pass, kernel against reference, at the extended reals.

  Both programs take a sentence of 16384 token ids, an embedding table and a projection table of 1000 rows of width
  128, and a bias of length 1000. For each of the 16382 interior positions they add the `tanh`-embeddings of the two
  neighbouring tokens, project the sum on every vocabulary row, add the bias and take the log-softmax of the row of
  1000 logits; they return the log-probabilities, the middle tokens (the targets), and the mean over positions of the
  negative log-probability of the target.

  The kernel finds the embedded rows by multiplying a matrix of ones and zeros (id = vocabulary index) with the table,
  which selects exactly the id's row when the id is a vocabulary index — the precondition says every id is one —,
  normalises each row of logits by subtracting its log-sum-exp once, and reads the target's logit off one more product
  with the projection table extended by the bias. The reference gathers, normalises by shifting by the maximum and
  subtracting the log of the sum, applies the log-softmax a second time before picking the target's entry, and negates.
  On finite tables and bias every logit is a real number, the two normalisations agree, and the log-softmax of a
  log-softmax is itself; so the three results agree entry by entry.

  The kernel's run (frames of both of its printings, and its results as functions of the arguments) is over the
  pipeline library's frame run around a region; the reference's run is its host operations composed.
-/
import proofs.«115835_g2070174237271_cont_8to1_761_7_alg».proof.Defs
import proofs.«115835_g2070174237271_cont_8to1_761_7_alg».proof.Proof.WordRun
import proofs.«115835_g2070174237271_cont_8to1_761_7_alg».proof.Proof.IdealResults
import proofs.«115835_g2070174237271_cont_8to1_761_7_alg».proof.Proof.RefRead
import proofs.«115835_g2070174237271_cont_8to1_761_7_alg».proof.Proof.Domain
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.HandValue

/-- The reference's three result terms are the specification's functions, under the ids' range. -/
theorem ref_loss (s : Cert.Cbow.Ids) (E W : Cert.Cbow.Table) (b : Cert.Cbow.Bias) (hs : Cert.Cbow.InVocab s) :
    Cert.ReferenceIdeal.Hand.lossOf s E W b = lossSpec s E W b := by
  funext i
  rw [eq_ix0 i]
  exact Cert.ReferenceIdeal.HandRead.lossOf_apply s E W b hs

theorem ref_targets (s : Cert.Cbow.Ids) : Cert.ReferenceIdeal.Hand.targetsOf s = targetsSpec s := by
  funext i
  obtain ⟨j, rfl⟩ : ∃ j : Fin 16382, i = ix1 j := ⟨i 0, eq_ix1 i⟩
  exact Cert.ReferenceIdeal.HandRead.targetsOf_apply s j

theorem ref_pred (s : Cert.Cbow.Ids) (E W : Cert.Cbow.Table) (b : Cert.Cbow.Bias) (hs : Cert.Cbow.InVocab s) :
    Cert.ReferenceIdeal.Hand.predOf s E W b = predSpec s E W b := by
  funext i
  obtain ⟨p, q, rfl⟩ : ∃ (p : Fin 16382) (q : Fin 1000), i = ix2 p q := ⟨i 0, i 1, eq_ix2 i⟩
  exact Cert.ReferenceIdeal.HandRead.predOf_apply s E W b hs p q

theorem frame_word : Cert.frame_Kernel := fun m ρ _ => Cert.Kernel.Hand.frame m ρ

theorem frame_ideal : Cert.frame_KernelIdeal := fun m ρ _ => Cert.KernelIdeal.Hand.frame m ρ

theorem frame_ref : Cert.frame_ReferenceIdeal := fun m ρ _ =>
  (θ_run Cert.ReferenceIdeal.defs _ _).mono (fun _ h c => (h c).2.2.2) (Cert.ReferenceIdeal.Hand.run m ρ)

/-- The one rewrite of the ideal printing: widening a narrowed block back is the identity on the extended reals, and the
    rounding through the narrow format on words. -/
theorem preserves : Cert.preserves_Kernel_KernelIdeal :=
  IdealRules.truncf_extf.statement Cert.KernelIdeal.S256x128 .f32 .bf16

theorem algebraic : Cert.algebraic_KernelIdeal_ReferenceIdeal := by
  intro m ρ m' ρ' hpre hagree
  refine ⟨fun c => lossSpec (ids m c) (embT m c) (projT m c) (biasV m c), fun c => targetsSpec (ids m c),
    fun c => predSpec (ids m c) (embT m c) (projT m c) (biasV m c), ?_, ?_⟩
  · refine (θ_run Cert.KernelIdeal.defs _ _).mono (fun r h c => ?_) (Cert.KernelIdeal.Hand.run_main (F := Ideal) m ρ)
    obtain ⟨hs, -, hW, hb⟩ := Cert.Domain.decode _ _ _ _ (hpre c)
    exact ⟨((h c).2 Cert.KernelIdeal.main_v17 (Pipeline.mem_restRefs_of _ (by decide) (by decide))).trans (result_loss m c hs hW hb),
      ((h c).2 Cert.KernelIdeal.main_v18 (Pipeline.mem_restRefs_of _ (by decide) (by decide))).trans (result_targets m c),
      ((h c).2 Cert.KernelIdeal.main_v19 (Pipeline.mem_restRefs_of _ (by decide) (by decide))).trans (result_pred m c hs hW hb),
      ((h c).2 Cert.KernelIdeal.main_arg0 (Pipeline.mem_restRefs_of _ (by decide) (by decide))).trans (Cert.KernelIdeal.Hand.tail_arg m _ c _ (Or.inl rfl)),
      ((h c).2 Cert.KernelIdeal.main_arg1 (Pipeline.mem_restRefs_of _ (by decide) (by decide))).trans (Cert.KernelIdeal.Hand.tail_arg m _ c _ (Or.inr (Or.inl rfl))),
      ((h c).2 Cert.KernelIdeal.main_arg2 (Pipeline.mem_restRefs_of _ (by decide) (by decide))).trans (Cert.KernelIdeal.Hand.tail_arg m _ c _ (Or.inr (Or.inr (Or.inl rfl)))),
      ((h c).2 Cert.KernelIdeal.main_arg3 (Pipeline.mem_restRefs_of _ (by decide) (by decide))).trans (Cert.KernelIdeal.Hand.tail_arg m _ c _ (Or.inr (Or.inr (Or.inr rfl))))⟩
  · refine (θ_run Cert.ReferenceIdeal.defs _ _).mono (fun r h c => ?_) (Cert.ReferenceIdeal.Hand.run m' ρ')
    obtain ⟨hs, -, hW, hb⟩ := Cert.Domain.decode _ _ _ _ (hpre c)
    obtain ⟨e0, e1, e2, e3⟩ := hagree c
    obtain ⟨h0, h1, h2, hk⟩ := h c
    refine ⟨?_, ?_, ?_, hk⟩
    · rw [h0, e0, e1, e2, e3]; exact ref_loss _ _ _ _ hs
    · rw [h1, e0]; exact ref_targets _
    · rw [h2, e0, e1, e2, e3]; exact ref_pred _ _ _ _ hs

theorem claim : Cert.Claim :=
  ⟨Cert.Kernel.Gen.facts, Cert.KernelIdeal.Gen.facts, Cert.ReferenceIdeal.Gen.facts, Cert.Pre_finite_inputs.Gen.facts,
    frame_word, frame_ideal, frame_ref, preserves, algebraic⟩

end Cert.Proof

end
